-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S256x128 : Shape := ⟨2, ![256, 128]⟩
abbrev S256 : Shape := ⟨1, ![256]⟩
abbrev S256x256 : Shape := ⟨2, ![256, 256]⟩
abbrev S128x256 : Shape := ⟨2, ![128, 256]⟩
abbrev S128 : Shape := ⟨1, ![128]⟩
abbrev S10x128 : Shape := ⟨2, ![10, 128]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S10x128 : S_.BroadcastsInDim S10x128 (![] : Fin 0 → Fin S10x128.rank)
  reducesTo_S10x128_S_d0_1 : S10x128.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S128 .f32) (main_arg14 : FVec F S10x128 .f32) (main_arg15 : FVec F S10 .f32) (main_v48 : IVec S_ 1) (main_v49 : FVec F S128x256 .f32) (main_v50 : FVec F S128x256 .f32) : IVec S_ 1 :=
  let main_v51 : IVec S128x256 1 := cmpf .olt main_v49 main_v50
  let main_c_19 : IVec S_ 1 := constantI S_ 1 1#1
  let main_v52 : IVec S_ 1 := (fun x v => Host.reduce IntOp.andi x v reducesTo_S128x256_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S10x128 .f32 := Host.absf main_arg14
  let main_cst_22 : FVec F S_ .f32 := constant S_ .f32 0x7F800000#32
  let main_v60 : FVec F S10x128 .f32 := broadcastInDim S10x128 ![] bcast_S_S10x128 main_cst_22
  let main_v61 : IVec S10x128 1 := cmpf .olt main_v59 main_v60
  let main_c_23 : IVec S_ 1 := constantI S_ 1 1#1
  let main_v62 : IVec S_ 1 := (fun x v => Host.reduce IntOp.andi x v reducesTo_S10x128_S_d0_1 h_S_) main_v61 main_c_23
  let main_v63 : IVec S_ 1 := andi main_v58 main_v62
  let main_v64 : FVec F S10 .f32 := Host.absf main_arg15
  let main_cst_24 : FVec F S_ .f32 := constant S_ .f32 0x7F800000#32
  let main_v65 : FVec F S10 .f32 := broadcastInDim S10 ![] bcast_S_S10 main_cst_24
  let main_v66 : IVec S10 1 := cmpf .olt main_v64 main_v65
  let main_c_25 : IVec S_ 1 := constantI S_ 1 1#1
  let main_v67 : IVec S_ 1 := (fun x v => Host.reduce IntOp.andi x v reducesTo_S10_S_d0 h_S_) main_v66 main_c_25
  fn_part4 (F := F) main_v63 main_v67

def fn_part2 {F : FTy → Type} [FloatOps F] (main_arg9 : FVec F S256x256 .f32) (main_arg10 : FVec F S256 .f32) (main_arg11 : FVec F S256x256 .f32) (main_arg12 : FVec F S128x256 .f32) (main_arg13 : FVec F S128 .f32) (main_arg14 : FVec F S10x128 .f32) (main_arg15 : FVec F S10 .f32) (main_v33 : IVec S_ 1) : IVec S_ 1 :=
  let main_v34 : FVec F S256x256 .f32 := Host.absf main_arg9
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg11
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S128x256 .f32 := Host.absf main_arg12
  let main_cst_18 : FVec F S_ .f32 := constant S_ .f32 0x7F800000#32
  let main_v50 : FVec F S128x256 .f32 := broadcastInDim S128x256 ![] bcast_S_S128x256 main_cst_18
  fn_part3 (F := F) main_arg13 main_arg14 main_arg15 main_v48 main_v49 main_v50

def fn_part1 {F : FTy → Type} [FloatOps F] (main_arg6 : FVec F S256x256 .f32) (main_arg7 : FVec F S256 .f32) (main_arg8 : FVec F S256x256 .f32) (main_arg9 : FVec F S256x256 .f32) (main_arg10 : FVec F S256 .f32) (main_arg11 : FVec F S256x256 .f32) (main_arg12 : FVec F S128x256 .f32) (main_arg13 : FVec F S128 .f32) (main_arg14 : FVec F S10x128 .f32) (main_arg15 : FVec F S10 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg8
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S50000x128 .f32) (main_arg1 : IVec S2x800000 32) (main_arg2 : IVec S50000 32) (main_arg3 : FVec F S256x128 .f32) (main_arg4 : FVec F S256 .f32) (main_arg5 : FVec F S256x128 .f32) (main_arg6 : FVec F S256x256 .f32) (main_arg7 : FVec F S256 .f32) (main_arg8 : FVec F S256x256 .f32) (main_arg9 : FVec F S256x256 .f32) (main_arg10 : FVec F S256 .f32) (main_arg11 : FVec F S256x256 .f32) (main_arg12 : FVec F S128x256 .f32) (main_arg13 : FVec F S128 .f32) (main_arg14 : FVec F S10x128 .f32) (main_arg15 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg3
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg6 main_arg7 main_arg8 main_arg9 main_arg10 main_arg11 main_arg12 main_arg13 main_arg14 main_arg15 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S256x128 : Shape := ⟨2, ![256, 128]⟩
abbrev S256 : Shape := ⟨1, ![256]⟩
abbrev S256x256 : Shape := ⟨2, ![256, 256]⟩
abbrev S128x256 : Shape := ⟨2, ![128, 256]⟩
abbrev S128 : Shape := ⟨1, ![128]⟩
abbrev S10x128 : Shape := ⟨2, ![10, 128]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S800000x128 : Shape := ⟨2, ![800000, 128]⟩
abbrev S1x256 : Shape := ⟨2, ![1, 256]⟩
abbrev S50000x256 : Shape := ⟨2, ![50000, 256]⟩
abbrev S2000x128 : Shape := ⟨2, ![2000, 128]⟩
abbrev S2000x1 : Shape := ⟨2, ![2000, 1]⟩
abbrev S2000x256 : Shape := ⟨2, ![2000, 256]⟩
abbrev S800000x256 : Shape := ⟨2, ![800000, 256]⟩
abbrev S64x256 : Shape := ⟨2, ![64, 256]⟩
abbrev S64 : Shape := ⟨1, ![64]⟩
abbrev S64x1 : Shape := ⟨2, ![64, 1]⟩
abbrev S1x128 : Shape := ⟨2, ![1, 128]⟩
abbrev S1x10 : Shape := ⟨2, ![1, 10]⟩
abbrev S64x10 : Shape := ⟨2, ![64, 10]⟩
abbrev S64x128 : Shape := ⟨2, ![64, 128]⟩

abbrev nBuf : Space → Nat
  | .hbm => 108
  | .vmem => 39
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S256x128, .f32⟩
  | .hbm, ⟨4, _⟩ => ⟨S256, .f32⟩
  | .hbm, ⟨5, _⟩ => ⟨S256x128, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S128x256, .f32⟩
  | .hbm, ⟨13, _⟩ => ⟨S128, .f32⟩
  | .hbm, ⟨14, _⟩ => ⟨S10x128, .f32⟩
  | .hbm, ⟨15, _⟩ => ⟨S10, .f32⟩
  | .hbm, ⟨16, _⟩ => ⟨S1x800000, .i32⟩
  | .hbm, ⟨17, _⟩ => ⟨S800000, .i32⟩
  | .hbm, ⟨18, _⟩ => ⟨S1x800000, .i32⟩
  | .hbm, ⟨19, _⟩ => ⟨S800000, .i32⟩
  | .hbm, ⟨20, _⟩ => ⟨S_, .f32⟩
  | .hbm, ⟨21, _⟩ => ⟨S800000, .f32⟩
  | .hbm, ⟨22, _⟩ => ⟨S_, .f32⟩
  | .hbm, ⟨23, _⟩ => ⟨S50000, .f32⟩
  | .hbm, ⟨24, _⟩ => ⟨S800000x1, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000x1, .f32⟩
  | .hbm, ⟨33, _⟩ => ⟨S256x128, .bf16⟩
  | .hbm, ⟨34, _⟩ => ⟨S256x128, .bf16⟩
  | .hbm, ⟨35, _⟩ => ⟨S256x256, .bf16⟩
  | .hbm, ⟨36, _⟩ => ⟨S256x256, .bf16⟩
  | .hbm, ⟨37, _⟩ => ⟨S256x256, .bf16⟩
  | .hbm, ⟨38, _⟩ => ⟨S256x256, .bf16⟩
  | .hbm, ⟨39, _⟩ => ⟨S128x256, .bf16⟩
  | .hbm, ⟨40, _⟩ => ⟨S10x128, .bf16⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x128, .f32⟩
  | .hbm, ⟨50, _⟩ => ⟨S_, .f32⟩
  | .hbm, ⟨51, _⟩ => ⟨S50000x128, .f32⟩
  | .hbm, ⟨52, _⟩ => ⟨S800000x1, .i32⟩
  | .hbm, ⟨53, _⟩ => ⟨S50000x128, .f32⟩
  | .hbm, ⟨54, _⟩ => ⟨S1x256, .f32⟩
  | .hbm, ⟨55, _⟩ => ⟨S50000x256, .bf16⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S800000x256, .bf16⟩
  | .hbm, ⟨65, _⟩ => ⟨S800000x256, .f32⟩
  | .hbm, ⟨66, _⟩ => ⟨S_, .f32⟩
  | .hbm, ⟨67, _⟩ => ⟨S50000x256, .f32⟩
  | .hbm, ⟨68, _⟩ => ⟨S800000x1, .i32⟩
  | .hbm, ⟨69, _⟩ => ⟨S50000x256, .f32⟩
  | .hbm, ⟨70, _⟩ => ⟨S1x256, .f32⟩
  | .hbm, ⟨71, _⟩ => ⟨S50000x256, .bf16⟩
  | .hbm, ⟨72, _⟩ => ⟨S_, .i32⟩
  | .hbm, ⟨73, _⟩ => ⟨S800000, .i32⟩
  | .hbm, ⟨74, _⟩ => ⟨S800000, .i1⟩
  | .hbm, ⟨75, _⟩ => ⟨S_, .i32⟩
  | .hbm, ⟨76, _⟩ => ⟨S800000, .i32⟩
  | .hbm, ⟨77, _⟩ => ⟨S800000, .i32⟩
  | .hbm, ⟨78, _⟩ => ⟨S800000, .i32⟩
  | .hbm, ⟨79, _⟩ => ⟨S800000x1, .i32⟩
  | .hbm, ⟨80, _⟩ => ⟨S800000x256, .bf16⟩
  | .hbm, ⟨81, _⟩ => ⟨S800000x256, .f32⟩
  | .hbm, ⟨82, _⟩ => ⟨S_, .f32⟩
  | .hbm, ⟨83, _⟩ => ⟨S50000x256, .f32⟩
  | .hbm, ⟨84, _⟩ => ⟨S800000x1, .i32⟩
  | .hbm, ⟨85, _⟩ => ⟨S50000x256, .f32⟩
  | .hbm, ⟨86, _⟩ => ⟨S1x256, .f32⟩
  | .hbm, ⟨87, _⟩ => ⟨S50000x256, .bf16⟩
  | .hbm, ⟨88, _⟩ => ⟨S_, .f32⟩
  | .hbm, ⟨89, _⟩ => ⟨S50000, .f32⟩
  | .hbm, ⟨90, _⟩ => ⟨S50000x256, .f32⟩
  | .hbm, ⟨91, _⟩ => ⟨S_, .f32⟩
  | .hbm, ⟨92, _⟩ => ⟨S64x256, .f32⟩
  | .hbm, ⟨93, _⟩ => ⟨S50000x1, .i32⟩
  | .hbm, ⟨94, _⟩ => ⟨S64x256, .f32⟩
  | .hbm, ⟨95, _⟩ => ⟨S_, .f32⟩
  | .hbm, ⟨96, _⟩ => ⟨S64, .f32⟩
  | .hbm, ⟨97, _⟩ => ⟨S50000x1, .i32⟩
  | .hbm, ⟨98, _⟩ => ⟨S64, .f32⟩
  | .hbm, ⟨99, _⟩ => ⟨S_, .f32⟩
  | .hbm, ⟨100, _⟩ => ⟨S64, .f32⟩
  | .hbm, ⟨101, _⟩ => ⟨S64, .f32⟩
  | .hbm, ⟨102, _⟩ => ⟨S64x1, .f32⟩
  | .hbm, ⟨103, _⟩ => ⟨S64x256, .f32⟩
  | .hbm, ⟨104, _⟩ => ⟨S64x256, .f32⟩
  | .hbm, ⟨105, _⟩ => ⟨S1x128, .f32⟩
  | .hbm, ⟨106, _⟩ => ⟨S1x10, .f32⟩
  | .hbm, ⟨107, _⟩ => ⟨S64x10, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .f32⟩
  | .local _ .vmem, ⟨5, _⟩ => ⟨S2000x128, .f32⟩
  | .local _ .vmem, ⟨6, _⟩ => ⟨S256x128, .bf16⟩
  | .local _ .vmem, ⟨7, _⟩ => ⟨S1x256, .f32⟩
  | .local _ .vmem, ⟨8, _⟩ => ⟨S256x128, .bf16⟩
  | .local _ .vmem, ⟨9, _⟩ => ⟨S2000x256, .bf16⟩
  | .local _ .vmem, ⟨10, _⟩ => ⟨S2000x256, .bf16⟩
  | .local _ .vmem, ⟨11, _⟩ => ⟨S2000x256, .f32⟩
  | .local _ .vmem, ⟨12, _⟩ => ⟨S2000x256, .f32⟩
  | .local _ .vmem, ⟨13, _⟩ => ⟨S2000x1, .f32⟩
  | .local _ .vmem, ⟨14, _⟩ => ⟨S2000x1, .f32⟩
  | .local _ .vmem, ⟨15, _⟩ => ⟨S2000x256, .bf16⟩
  | .local _ .vmem, ⟨16, _⟩ => ⟨S2000x256, .bf16⟩
  | .local _ .vmem, ⟨17, _⟩ => ⟨S256x256, .bf16⟩
  | .local _ .vmem, ⟨18, _⟩ => ⟨S1x256, .f32⟩
  | .local _ .vmem, ⟨19, _⟩ => ⟨S256x256, .bf16⟩
  | .local _ .vmem, ⟨20, _⟩ => ⟨S2000x256, .bf16⟩
  | .local _ .vmem, ⟨21, _⟩ => ⟨S2000x256, .bf16⟩
  | .local _ .vmem, ⟨22, _⟩ => ⟨S2000x256, .f32⟩
  | .local _ .vmem, ⟨23, _⟩ => ⟨S2000x256, .f32⟩
  | .local _ .vmem, ⟨24, _⟩ => ⟨S2000x1, .f32⟩
  | .local _ .vmem, ⟨25, _⟩ => ⟨S2000x1, .f32⟩
  | .local _ .vmem, ⟨26, _⟩ => ⟨S2000x256, .bf16⟩
  | .local _ .vmem, ⟨27, _⟩ => ⟨S2000x256, .bf16⟩
  | .local _ .vmem, ⟨28, _⟩ => ⟨S256x256, .bf16⟩
  | .local _ .vmem, ⟨29, _⟩ => ⟨S1x256, .f32⟩
  | .local _ .vmem, ⟨30, _⟩ => ⟨S256x256, .bf16⟩
  | .local _ .vmem, ⟨31, _⟩ => ⟨S2000x256, .bf16⟩
  | .local _ .vmem, ⟨32, _⟩ => ⟨S2000x256, .bf16⟩
  | .local _ .vmem, ⟨33, _⟩ => ⟨S64x256, .f32⟩
  | .local _ .vmem, ⟨34, _⟩ => ⟨S128x256, .bf16⟩
  | .local _ .vmem, ⟨35, _⟩ => ⟨S1x128, .f32⟩
  | .local _ .vmem, ⟨36, _⟩ => ⟨S10x128, .bf16⟩
  | .local _ .vmem, ⟨37, _⟩ => ⟨S1x10, .f32⟩
  | .local _ .vmem, ⟨38, _⟩ => ⟨S64x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c : Ref sig .tc := ⟨.hbm, 41, rfl⟩
abbrev main_v21 : Ref sig .tc := ⟨.hbm, 42, rfl⟩
abbrev main_v22 : Ref sig .tc := ⟨.hbm, 43, rfl⟩
abbrev main_c_3 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_4 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_5 : Ref sig .tc := ⟨.hbm, 56, rfl⟩
abbrev main_v33 : Ref sig .tc := ⟨.hbm, 57, rfl⟩
abbrev main_v34 : Ref sig .tc := ⟨.hbm, 58, rfl⟩
abbrev main_c_6 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_7 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_c_8 : Ref sig .tc := ⟨.hbm, 72, rfl⟩
abbrev main_v46 : Ref sig .tc := ⟨.hbm, 73, rfl⟩
abbrev main_v47 : Ref sig .tc := ⟨.hbm, 74, rfl⟩
abbrev main_c_9 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_10 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_11 : Ref sig .tc := ⟨.hbm, 88, rfl⟩
abbrev main_v59 : Ref sig .tc := ⟨.hbm, 89, rfl⟩
abbrev main_v60 : Ref sig .tc := ⟨.hbm, 90, rfl⟩
abbrev main_cst_12 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_13 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_14 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32
abbrev cc3_sem0_0 : DmaSem sig := 33
abbrev cc3_sem1_0 : DmaSem sig := 34
abbrev cc3_sem2_0 : DmaSem sig := 35
abbrev cc3_sem3_0 : DmaSem sig := 36
abbrev cc3_sem4_0 : DmaSem sig := 37
abbrev cc3_sem5_0 : DmaSem sig := 38

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x256 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x256 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x256 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S64x256 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x256 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S10x128 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x10 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x10 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bitsLt_bf16_f32 : FTy.bits .bf16 < FTy.bits .f32
  bcast_S_S50000x128 : S_.BroadcastsInDim S50000x128 (![] : Fin 0 → Fin S50000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  packedbf16_S2000x256_S2000x256_0_0 : (Rect.unit (s := S2000x256) ![0, 0] S2000x256.size inb_S2000x256_S2000x256_0_0).PackedRows (EltTy.packing .bf16)
  bcast_S_S50000x256 : S_.BroadcastsInDim S50000x256 (![] : Fin 0 → Fin S50000x256.rank)
  shapeCasts_S2000x256_S2000x256 : S2000x256.ShapeCasts S2000x256
  broadcasts_S2000x1_S2000x256 : S2000x1.Broadcasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bcast_S_S64x256 : S_.BroadcastsInDim S64x256 (![] : Fin 0 → Fin S64x256.rank)
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  shapeCasts_S128_S1x128 : S128.ShapeCasts S1x128
  shapeCasts_S10_S1x10 : S10.ShapeCasts S1x10
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S64x128 : S1x128.Broadcasts S64x128
  inb_S10x128_S10x128_0_0 : ∀ a, (![0, 0] : Fin 2 → Nat) a + S10x128.size a ≤ S10x128.size a
  h_S10x128 : 0 < S10x128.numel
  shapeCasts_S10x128_S10x128 : S10x128.ShapeCasts S10x128
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S64x10 : S1x10.Broadcasts S64x10
  inb_S64x10_S64x10_0_0 : ∀ a, (![0, 0] : Fin 2 → Nat) a + S64x10.size a ≤ S64x10.size a
  h_S64x10 : 0 < S64x10.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S256x128_S2000x256_1_1_0_0_n_n_wf : DotDims.WF S2000x128 S256x128 S2000x256 [1] [1] [0] [0] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_1_0_0_n_n_wf : DotDims.WF S2000x256 S256x256 S2000x256 [1] [1] [0] [0] [] []
  scatter_S64x256_S50000x1_S50000x256_1_0_0_1_wf : ScatterDims.WF S64x256 S50000x1 S50000x256 [1] [0] [0] 1
  scatter_S64_S50000x1_S50000_n_0_0_1_wf : ScatterDims.WF S64 S50000x1 S50000 [] [0] [0] 1
  dot_S64x256_S128x256_S64x128_1_1_0_0_n_n_wf : DotDims.WF S64x256 S128x256 S64x128 [1] [1] [0] [0] [] []
  dot_S64x128_S10x128_S64x10_1_1_0_0_n_n_wf : DotDims.WF S64x128 S10x128 S64x10 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .bf16 = 32 ∨ (Rect.block (s := S256x128) S256x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .bf16 = 32 ∨ (Rect.block (s := S256x128) S256x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S50000x256.size a
  hwx0_6 : ∀ i : grid0.Coords, EltTy.bits .bf16 = 32 ∨ (Rect.block (s := S50000x256) S2000x256.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .bf16 = 32 ∨ (Rect.block (s := S50000x256) S2000x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .bf16 = 32 ∨ (Rect.block (s := S256x256) S256x256.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x256.size a ≤ S50000x256.size a
  hwx1_6 : ∀ i : grid1.Coords, EltTy.bits .bf16 = 32 ∨ (Rect.block (s := S50000x256) S2000x256.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S50000x256.size a
  hwx2_2 : ∀ i : grid2.Coords, EltTy.bits .bf16 = 32 ∨ (Rect.block (s := S50000x256) S2000x256.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .bf16 = 32 ∨ (Rect.block (s := S256x256) S256x256.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x256.size a ≤ S256x256.size a
  hwx2_5 : ∀ i : grid2.Coords, EltTy.bits .bf16 = 32 ∨ (Rect.block (s := S256x256) S256x256.size (cc2_transform_5 i) (hinb2_5 i)).WholeWords (EltTy.packing .bf16)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x256.size a ≤ S50000x256.size a
  hwx2_6 : ∀ i : grid2.Coords, EltTy.bits .bf16 = 32 ∨ (Rect.block (s := S50000x256) S2000x256.size (cc2_transform_6 i) (hinb2_6 i)).WholeWords (EltTy.packing .bf16)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S64x256.size a ≤ S64x256.size a
  hwx3_0 : ∀ i : grid3.Coords, EltTy.bits .f32 = 32 ∨ (Rect.block (s := S64x256) S64x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x256.size a ≤ S128x256.size a
  hwx3_1 : ∀ i : grid3.Coords, EltTy.bits .bf16 = 32 ∨ (Rect.block (s := S128x256) S128x256.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S10x128.size a ≤ S10x128.size a
  hwx3_3 : ∀ i : grid3.Coords, EltTy.bits .bf16 = 32 ∨ (Rect.block (s := S10x128) S10x128.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x10.size a ≤ S1x10.size a
  hwx3_4 : ∀ i : grid3.Coords, EltTy.bits .f32 = 32 ∨ (Rect.block (s := S1x10) S1x10.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x10.size a ≤ S64x10.size a
  hwx3_5 : ∀ i : grid3.Coords, EltTy.bits .f32 = 32 ∨ (Rect.block (s := S64x10) S64x10.size (cc3_transform_5 i) (hinb3_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S256x128_S2000x256_1_1_0_0_n_n : DotDims S2000x128 S256x128 S2000x256 where
  lhsContracting := [1]
  rhsContracting := [1]
  lhsNonContracting := [0]
  rhsNonContracting := [0]
  lhsBatch := []
  rhsBatch := []
  wf := dot_S2000x128_S256x128_S2000x256_1_1_0_0_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_1_0_0_n_n : DotDims S2000x256 S256x256 S2000x256 where
  lhsContracting := [1]
  rhsContracting := [1]
  lhsNonContracting := [0]
  rhsNonContracting := [0]
  lhsBatch := []
  rhsBatch := []
  wf := dot_S2000x256_S256x256_S2000x256_1_1_0_0_n_n_wf
def scatter_S64x256_S50000x1_S50000x256_1_0_0_1 : ScatterDims S64x256 S50000x1 S50000x256 where
  updateWindowDims := [1]
  insertedWindowDims := [0]
  scatterDimsToOperandDims := [0]
  indexVectorDim := 1
  wf := scatter_S64x256_S50000x1_S50000x256_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x256_S128x256_S64x128_1_1_0_0_n_n : DotDims S64x256 S128x256 S64x128 where
  lhsContracting := [1]
  rhsContracting := [1]
  lhsNonContracting := [0]
  rhsNonContracting := [0]
  lhsBatch := []
  rhsBatch := []
  wf := dot_S64x256_S128x256_S64x128_1_1_0_0_n_n_wf
def dot_S64x128_S10x128_S64x10_1_1_0_0_n_n : DotDims S64x128 S10x128 S64x10 where
  lhsContracting := [1]
  rhsContracting := [1]
  lhsNonContracting := [0]
  rhsNonContracting := [0]
  lhsBatch := []
  rhsBatch := []
  wf := dot_S64x128_S10x128_S64x10_1_1_0_0_n_n_wf

abbrev win0_0 : Pipeline.Window sig grid0 :=
  Pipeline.Window.ofSpec (Memref.whole main_v30) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v31) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v32) S2000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v43) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S2000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v16) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v45) S2000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v56) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v45) S2000x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v17) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v57) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v18) S256x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v58) S2000x256.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v71) S64x256.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v19) S128x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v72) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v20) S10x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v73) S1x10.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v74) S64x10.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S256x128 : Shape := ⟨2, ![256, 128]⟩
abbrev S256 : Shape := ⟨1, ![256]⟩
abbrev S256x256 : Shape := ⟨2, ![256, 256]⟩
abbrev S128x256 : Shape := ⟨2, ![128, 256]⟩
abbrev S128 : Shape := ⟨1, ![128]⟩
abbrev S10x128 : Shape := ⟨2, ![10, 128]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S50000x256 : Shape := ⟨2, ![50000, 256]⟩
abbrev S1x256 : Shape := ⟨2, ![1, 256]⟩
abbrev S800000x256 : Shape := ⟨2, ![800000, 256]⟩
abbrev S64x256 : Shape := ⟨2, ![64, 256]⟩
abbrev S64 : Shape := ⟨1, ![64]⟩
abbrev S64x1 : Shape := ⟨2, ![64, 1]⟩
abbrev S64x128 : Shape := ⟨2, ![64, 128]⟩
abbrev S1x128 : Shape := ⟨2, ![1, 128]⟩
abbrev S128x10 : Shape := ⟨2, ![128, 10]⟩
abbrev S64x10 : Shape := ⟨2, ![64, 10]⟩
abbrev S1x10 : Shape := ⟨2, ![1, 10]⟩

abbrev nBuf : Space → Nat
  | .hbm => 157
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S256x128, .f32⟩
  | 4 => ⟨S256, .f32⟩
  | 5 => ⟨S256x128, .f32⟩
  | 6 => ⟨S256x256, .f32⟩
  | 7 => ⟨S256, .f32⟩
  | 8 => ⟨S256x256, .f32⟩
  | 9 => ⟨S256x256, .f32⟩
  | 10 => ⟨S256, .f32⟩
  | 11 => ⟨S256x256, .f32⟩
  | 12 => ⟨S128x256, .f32⟩
  | 13 => ⟨S128, .f32⟩
  | 14 => ⟨S10x128, .f32⟩
  | 15 => ⟨S10, .f32⟩
  | 16 => ⟨S1x800000, .i32⟩
  | 17 => ⟨S800000, .i32⟩
  | 18 => ⟨S1x800000, .i32⟩
  | 19 => ⟨S800000, .i32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000x128, .f32⟩
  | 29 => ⟨S_, .f32⟩
  | 30 => ⟨S50000x128, .f32⟩
  | 31 => ⟨S800000x1, .i32⟩
  | 32 => ⟨S50000x128, .f32⟩
  | 33 => ⟨S_, .f32⟩
  | 34 => ⟨S800000, .f32⟩
  | 35 => ⟨S_, .f32⟩
  | 36 => ⟨S50000, .f32⟩
  | 37 => ⟨S800000x1, .i32⟩
  | 38 => ⟨S50000, .f32⟩
  | 39 => ⟨S_, .f32⟩
  | 40 => ⟨S50000, .f32⟩
  | 41 => ⟨S50000, .f32⟩
  | 42 => ⟨S50000x1, .f32⟩
  | 43 => ⟨S50000x128, .f32⟩
  | 44 => ⟨S50000x128, .f32⟩
  | 45 => ⟨S128x256, .f32⟩
  | 46 => ⟨S50000x256, .f32⟩
  | 47 => ⟨S1x256, .f32⟩
  | 48 => ⟨S50000x256, .f32⟩
  | 49 => ⟨S50000x256, .f32⟩
  | 50 => ⟨S128x256, .f32⟩
  | 51 => ⟨S50000x256, .f32⟩
  | 52 => ⟨S50000x256, .f32⟩
  | 53 => ⟨S_, .f32⟩
  | 54 => ⟨S50000x256, .f32⟩
  | 55 => ⟨S50000x256, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000x256, .f32⟩
  | 65 => ⟨S_, .f32⟩
  | 66 => ⟨S50000x256, .f32⟩
  | 67 => ⟨S800000x1, .i32⟩
  | 68 => ⟨S50000x256, .f32⟩
  | 69 => ⟨S_, .f32⟩
  | 70 => ⟨S800000, .f32⟩
  | 71 => ⟨S_, .f32⟩
  | 72 => ⟨S50000, .f32⟩
  | 73 => ⟨S800000x1, .i32⟩
  | 74 => ⟨S50000, .f32⟩
  | 75 => ⟨S_, .f32⟩
  | 76 => ⟨S50000, .f32⟩
  | 77 => ⟨S50000, .f32⟩
  | 78 => ⟨S50000x1, .f32⟩
  | 79 => ⟨S50000x256, .f32⟩
  | 80 => ⟨S50000x256, .f32⟩
  | 81 => ⟨S256x256, .f32⟩
  | 82 => ⟨S50000x256, .f32⟩
  | 83 => ⟨S1x256, .f32⟩
  | 84 => ⟨S50000x256, .f32⟩
  | 85 => ⟨S50000x256, .f32⟩
  | 86 => ⟨S256x256, .f32⟩
  | 87 => ⟨S50000x256, .f32⟩
  | 88 => ⟨S50000x256, .f32⟩
  | 89 => ⟨S_, .f32⟩
  | 90 => ⟨S50000x256, .f32⟩
  | 91 => ⟨S50000x256, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S800000x256, .f32⟩
  | 101 => ⟨S_, .f32⟩
  | 102 => ⟨S50000x256, .f32⟩
  | 103 => ⟨S800000x1, .i32⟩
  | 104 => ⟨S50000x256, .f32⟩
  | 105 => ⟨S_, .f32⟩
  | 106 => ⟨S800000, .f32⟩
  | 107 => ⟨S_, .f32⟩
  | 108 => ⟨S50000, .f32⟩
  | 109 => ⟨S800000x1, .i32⟩
  | 110 => ⟨S50000, .f32⟩
  | 111 => ⟨S_, .f32⟩
  | 112 => ⟨S50000, .f32⟩
  | 113 => ⟨S50000, .f32⟩
  | 114 => ⟨S50000x1, .f32⟩
  | 115 => ⟨S50000x256, .f32⟩
  | 116 => ⟨S50000x256, .f32⟩
  | 117 => ⟨S256x256, .f32⟩
  | 118 => ⟨S50000x256, .f32⟩
  | 119 => ⟨S1x256, .f32⟩
  | 120 => ⟨S50000x256, .f32⟩
  | 121 => ⟨S50000x256, .f32⟩
  | 122 => ⟨S256x256, .f32⟩
  | 123 => ⟨S50000x256, .f32⟩
  | 124 => ⟨S50000x256, .f32⟩
  | 125 => ⟨S_, .f32⟩
  | 126 => ⟨S50000x256, .f32⟩
  | 127 => ⟨S50000x256, .f32⟩
  | _ => ⟨S50000x128, .f32⟩

abbrev hbmTy0_1 (i : Nat) : BufTy := match i % 128 with
  | 0 => ⟨S_, .f32⟩
  | 1 => ⟨S64x256, .f32⟩
  | 2 => ⟨S50000x1, .i32⟩
  | 3 => ⟨S64x256, .f32⟩
  | 4 => ⟨S_, .f32⟩
  | 5 => ⟨S50000, .f32⟩
  | 6 => ⟨S_, .f32⟩
  | 7 => ⟨S64, .f32⟩
  | 8 => ⟨S50000x1, .i32⟩
  | 9 => ⟨S64, .f32⟩
  | 10 => ⟨S_, .f32⟩
  | 11 => ⟨S64, .f32⟩
  | 12 => ⟨S64, .f32⟩
  | 13 => ⟨S64x1, .f32⟩
  | 14 => ⟨S64x256, .f32⟩
  | 15 => ⟨S64x256, .f32⟩
  | 16 => ⟨S256x128, .f32⟩
  | 17 => ⟨S64x128, .f32⟩
  | 18 => ⟨S1x128, .f32⟩
  | 19 => ⟨S64x128, .f32⟩
  | 20 => ⟨S64x128, .f32⟩
  | 21 => ⟨S_, .f32⟩
  | 22 => ⟨S64x128, .f32⟩
  | 23 => ⟨S64x128, .f32⟩
  | 24 => ⟨S128x10, .f32⟩
  | 25 => ⟨S64x10, .f32⟩
  | 26 => ⟨S1x10, .f32⟩
  | 27 => ⟨S64x10, .f32⟩
  | 28 => ⟨S64x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_1 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_call0_cst : Ref sig .tc := ⟨.hbm, 53, rfl⟩
abbrev main_call0_v0 : Ref sig .tc := ⟨.hbm, 54, rfl⟩
abbrev main_v31 : Ref sig .tc := ⟨.hbm, 55, rfl⟩
abbrev main_c_4 : Ref sig .tc := ⟨.hbm, 56, rfl⟩
abbrev main_v32 : Ref sig .tc := ⟨.hbm, 57, rfl⟩
abbrev main_v33 : Ref sig .tc := ⟨.hbm, 58, rfl⟩
abbrev main_c_5 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_6 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_7 : Ref sig .tc := ⟨.hbm, 69, rfl⟩
abbrev main_v42 : Ref sig .tc := ⟨.hbm, 70, rfl⟩
abbrev main_cst_8 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_9 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_call1_cst : Ref sig .tc := ⟨.hbm, 89, rfl⟩
abbrev main_call1_v0 : Ref sig .tc := ⟨.hbm, 90, rfl⟩
abbrev main_v59 : Ref sig .tc := ⟨.hbm, 91, rfl⟩
abbrev main_c_10 : Ref sig .tc := ⟨.hbm, 92, rfl⟩
abbrev main_v60 : Ref sig .tc := ⟨.hbm, 93, rfl⟩
abbrev main_v61 : Ref sig .tc := ⟨.hbm, 94, rfl⟩
abbrev main_c_11 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_12 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_13 : Ref sig .tc := ⟨.hbm, 105, rfl⟩
abbrev main_v70 : Ref sig .tc := ⟨.hbm, 106, rfl⟩
abbrev main_cst_14 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_cst_15 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_call2_cst : Ref sig .tc := ⟨.hbm, 125, rfl⟩
abbrev main_call2_v0 : Ref sig .tc := ⟨.hbm, 126, rfl⟩
abbrev main_v87 : Ref sig .tc := ⟨.hbm, 127, rfl⟩
abbrev main_cst_16 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_cst_17 : Ref sig .tc := ⟨.hbm, 132, rfl⟩
abbrev main_v91 : Ref sig .tc := ⟨.hbm, 133, rfl⟩
abbrev main_cst_18 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_cst_19 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_call3_cst : Ref sig .tc := ⟨.hbm, 149, rfl⟩
abbrev main_call3_v0 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  transposes_S256x256_S256x256_1_0 : S256x256.Transposes [1, 0] S256x256
  bcast_S_S64x256 : S_.BroadcastsInDim S64x256 (![] : Fin 0 → Fin S64x256.rank)
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  transposes_S128x256_S256x128_1_0 : S128x256.Transposes [1, 0] S256x128
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  bcast_S_S64x128 : S_.BroadcastsInDim S64x128 (![] : Fin 0 → Fin S64x128.rank)
  transposes_S10x128_S128x10_1_0 : S10x128.Transposes [1, 0] S128x10
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  scatter_S64x256_S50000x1_S50000x256_1_0_0_1_wf : ScatterDims.WF S64x256 S50000x1 S50000x256 [1] [0] [0] 1
  scatter_S64_S50000x1_S50000_n_0_0_1_wf : ScatterDims.WF S64 S50000x1 S50000 [] [0] [0] 1
  dot_S64x256_S256x128_S64x128_1_0_0_1_n_n_wf : DotDims.WF S64x256 S256x128 S64x128 [1] [0] [0] [1] [] []
  dot_S64x128_S128x10_S64x10_1_0_0_1_n_n_wf : DotDims.WF S64x128 S128x10 S64x10 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S64x256_S50000x1_S50000x256_1_0_0_1 : ScatterDims S64x256 S50000x1 S50000x256 where
  updateWindowDims := [1]
  insertedWindowDims := [0]
  scatterDimsToOperandDims := [0]
  indexVectorDim := 1
  wf := scatter_S64x256_S50000x1_S50000x256_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x256_S256x128_S64x128_1_0_0_1_n_n : DotDims S64x256 S256x128 S64x128 where
  lhsContracting := [1]
  rhsContracting := [0]
  lhsNonContracting := [0]
  rhsNonContracting := [1]
  lhsBatch := []
  rhsBatch := []
  wf := dot_S64x256_S256x128_S64x128_1_0_0_1_n_n_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

class Facts : Prop extends Facts₀ where

variable [Facts]
-- ==== Proof.KRun.lean ====
/-
  THE KERNEL PROGRAM'S RUN, WITH ITS RESULT NAMED.

  The program is four kernel regions among stretches of host operations. Every weakly fair execution terminates
  without a fault; at the end the result buffer holds what the fold of the host stretches and of the regions'
  write-backs leaves there (the last boundary's contents), and every argument array is as it was launched.
-/
import proofs.«140199_j83305185673529_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends, without a fault, with the result buffer at the last boundary's
    contents and the argument arrays unchanged: the segments' run read at every unscoped buffer, the result's
    buffer among them. -/
theorem run : θ_run defs (onTc (τ := τ) (main (F := F))) ⟨m, fun _ => 0, ρ⟩ (fun r => ∀ c : Dev nD,
      r.2.mem ((c.tc : Thread nD τ).loc main_v74) = W8 m ρ c (Proc.devRef .tc main_v74)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v74 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c)⟩)

end Cert.KernelIdeal.RunValue

end
-- ==== Proof.LibKeepLow.lean ====
/-
  A LINE OF OPERATIONS THAT WRITES ONLY HIGH-NUMBERED BUFFERS LEAVES THE LOW-NUMBERED ONES ALONE.

  A program's buffers are numbered, its arguments first. If every buffer a line of operations writes has index at
  least n, then a buffer of index below n holds after the line what it held before it.
-/
import Idealize.ShloMosaic.Lib.StableHlo.Run

noncomputable section

namespace Cert.Lib

open Idealize.ShloMosaic Idealize.SL.Sem

variable {τ : Topo} {sig : RefSig} {Val : EltTy → Type}

/-- A reference of index below `n` keeps its contents through a line whose operations write only references of index
    at least `n`: it is none of the written ones, since equal device buffers are equal references. -/
theorem after_of_writes_ge (n : Nat) (ops : List (HloOp τ sig Val))
    (h : ops.Forall fun op => ∀ d ∈ op.writes, ∃ y : Ref sig .tc, d = Proc.devRef .tc y ∧ n ≤ y.idx.val)
    (V : Valuation τ sig Val) (y : Ref sig .tc) (hy : y.idx.val < n) :
    StableHlo.after ops V (Proc.devRef .tc y) = V (Proc.devRef .tc y) :=
  StableHlo.after_of_forall_not_mem ops V fun op hop hmem => by
    obtain ⟨z, hz, hzn⟩ := (List.forall_iff_forall_mem.mp h) op hop _ hmem
    have : y = z := Proc.devRef_injective _ hz
    subst this
    omega

end Cert.Lib

end
-- ==== Proof.KKeep.lean ====
/-
  WHAT EACH SEGMENT OF THE PROGRAM LEAVES ALONE.

  The program's buffers are numbered in program order, the arguments first. A stretch of host operations writes only
  the buffers it defines, all numbered from the stretch's first on, so every earlier buffer holds after the stretch
  what it held before it. A kernel region writes only its result array: its input windows are never written back, and
  a buffer that is none of its arrays is untouched.
-/
import proofs.«140199_j83305185673529_2_alg».proof.Proof.Gen.KernelIdeal.Frame
import proofs.«140199_j83305185673529_2_alg».proof.Proof.LibKeepLow

set_option maxRecDepth 16384

noncomputable section

namespace Cert.KernelIdeal.Keep

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]

theorem writes0 : (hostOps0 : List (HloOp τ sig (Elt F))).Forall fun op => ∀ d ∈ op.writes, ∃ y : Ref sig .tc, d = Proc.devRef .tc y ∧ 16 ≤ y.idx.val := by
  simp only [hostOps0, List.Forall, StableHlo.nullary_writes, StableHlo.unary_writes, StableHlo.binary_writes,
    StableHlo.ternary_writes, StableHlo.quaternary_writes, StableHlo.reshape_writes, StableHlo.binaryIndexed_writes, Finset.mem_singleton]
  repeat' apply And.intro
  all_goals (rintro d rfl; exact ⟨_, rfl, by decide⟩)

theorem writes1 : (hostOps1 : List (HloOp τ sig (Elt F))).Forall fun op => ∀ d ∈ op.writes, ∃ y : Ref sig .tc, d = Proc.devRef .tc y ∧ 56 ≤ y.idx.val := by
  simp only [hostOps1, List.Forall, StableHlo.nullary_writes, StableHlo.unary_writes, StableHlo.binary_writes,
    StableHlo.ternary_writes, StableHlo.quaternary_writes, StableHlo.reshape_writes, StableHlo.binaryIndexed_writes, Finset.mem_singleton]
  repeat' apply And.intro
  all_goals (rintro d rfl; exact ⟨_, rfl, by decide⟩)

theorem writes2 : (hostOps2 : List (HloOp τ sig (Elt F))).Forall fun op => ∀ d ∈ op.writes, ∃ y : Ref sig .tc, d = Proc.devRef .tc y ∧ 72 ≤ y.idx.val := by
  simp only [hostOps2, List.Forall, StableHlo.nullary_writes, StableHlo.unary_writes, StableHlo.binary_writes,
    StableHlo.ternary_writes, StableHlo.quaternary_writes, StableHlo.reshape_writes, StableHlo.binaryIndexed_writes, Finset.mem_singleton]
  repeat' apply And.intro
  all_goals (rintro d rfl; exact ⟨_, rfl, by decide⟩)

theorem writes3 : (hostOps3 : List (HloOp τ sig (Elt F))).Forall fun op => ∀ d ∈ op.writes, ∃ y : Ref sig .tc, d = Proc.devRef .tc y ∧ 88 ≤ y.idx.val := by
  simp only [hostOps3, List.Forall, StableHlo.nullary_writes, StableHlo.unary_writes, StableHlo.binary_writes,
    StableHlo.ternary_writes, StableHlo.quaternary_writes, StableHlo.reshape_writes, StableHlo.binaryIndexed_writes, Finset.mem_singleton]
  repeat' apply And.intro
  all_goals (rintro d rfl; exact ⟨_, rfl, by decide⟩)

variable (m : (ℓ : Loc nD τ sig) → Buf (Elt F) ℓ) (ρ : Dev nD → PrngReg) (c : Dev nD)

/-- The first stretch leaves the arguments alone. -/
theorem keepH0 (y : Ref sig .tc) (hy : y.idx.val < 16) : W1 m ρ c (Proc.devRef .tc y) = W0 m ρ c (Proc.devRef .tc y) :=
  Cert.Lib.after_of_writes_ge 16 _ writes0 _ y hy

/-- The second stretch leaves every buffer up to the first region's result alone. -/
theorem keepH1 (y : Ref sig .tc) (hy : y.idx.val < 56) : W3 m ρ c (Proc.devRef .tc y) = W2 m ρ c (Proc.devRef .tc y) :=
  Cert.Lib.after_of_writes_ge 56 _ writes1 _ y hy

/-- The third stretch leaves every buffer up to the second region's result alone. -/
theorem keepH2 (y : Ref sig .tc) (hy : y.idx.val < 72) : W5 m ρ c (Proc.devRef .tc y) = W4 m ρ c (Proc.devRef .tc y) :=
  Cert.Lib.after_of_writes_ge 72 _ writes2 _ y hy

/-- The fourth stretch leaves every buffer up to the third region's result alone. -/
theorem keepH3 (y : Ref sig .tc) (hy : y.idx.val < 88) : W7 m ρ c (Proc.devRef .tc y) = W6 m ρ c (Proc.devRef .tc y) :=
  Cert.Lib.after_of_writes_ge 88 _ writes3 _ y hy

/-- Region 0's input windows leave their arrays as the region found them. -/
theorem arr_in0 (w : Fin 7) (hw : w ≠ 6) : (dat0 (V1 m ρ) c).arrAt w cfg0.N = V1 m ρ c (Pipeline.arrRef spec0 w) := by
  match w, hw with
  | ⟨0, _⟩, _ => exact ((dat0 (V1 m ρ) c).arrAt_in 0 rfl _).trans (A_eq0 (V1 m ρ) c 0)
  | ⟨1, _⟩, _ => exact ((dat0 (V1 m ρ) c).arrAt_in 1 rfl _).trans (A_eq0 (V1 m ρ) c 1)
  | ⟨2, _⟩, _ => exact ((dat0 (V1 m ρ) c).arrAt_in 2 rfl _).trans (A_eq0 (V1 m ρ) c 2)
  | ⟨3, _⟩, _ => exact ((dat0 (V1 m ρ) c).arrAt_in 3 rfl _).trans (A_eq0 (V1 m ρ) c 3)
  | ⟨4, _⟩, _ => exact ((dat0 (V1 m ρ) c).arrAt_in 4 rfl _).trans (A_eq0 (V1 m ρ) c 4)
  | ⟨5, _⟩, _ => exact ((dat0 (V1 m ρ) c).arrAt_in 5 rfl _).trans (A_eq0 (V1 m ρ) c 5)
  | ⟨6, _⟩, h => exact absurd rfl h

/-- Through region 0 every buffer but its result array holds what it held at the region's entry. -/
theorem keepR0 (y : Ref sig .tc) (hy : y ≠ main_v32) : W2 m ρ c (Proc.devRef .tc y) = W1 m ρ c (Proc.devRef .tc y) := by
  by_cases h : ∃ w : Fin 7, Pipeline.arrRef spec0 w = y
  · obtain ⟨w, rfl⟩ := h
    have hw : w ≠ 6 := fun e => hy (by subst e; rfl)
    exact (W2_arr m ρ c w).trans (arr_in0 m ρ c w hw)
  · exact W2_of_ne m ρ c y (fun w e => h ⟨w, e⟩)

/-- Region 1's input windows leave their arrays as the region found them. -/
theorem arr_in1 (w : Fin 7) (hw : w ≠ 6) : (dat1 (V3 m ρ) c).arrAt w cfg1.N = V3 m ρ c (Pipeline.arrRef spec1 w) := by
  match w, hw with
  | ⟨0, _⟩, _ => exact ((dat1 (V3 m ρ) c).arrAt_in 0 rfl _).trans (A_eq1 (V3 m ρ) c 0)
  | ⟨1, _⟩, _ => exact ((dat1 (V3 m ρ) c).arrAt_in 1 rfl _).trans (A_eq1 (V3 m ρ) c 1)
  | ⟨2, _⟩, _ => exact ((dat1 (V3 m ρ) c).arrAt_in 2 rfl _).trans (A_eq1 (V3 m ρ) c 2)
  | ⟨3, _⟩, _ => exact ((dat1 (V3 m ρ) c).arrAt_in 3 rfl _).trans (A_eq1 (V3 m ρ) c 3)
  | ⟨4, _⟩, _ => exact ((dat1 (V3 m ρ) c).arrAt_in 4 rfl _).trans (A_eq1 (V3 m ρ) c 4)
  | ⟨5, _⟩, _ => exact ((dat1 (V3 m ρ) c).arrAt_in 5 rfl _).trans (A_eq1 (V3 m ρ) c 5)
  | ⟨6, _⟩, h => exact absurd rfl h

/-- Through region 1 every buffer but its result array holds what it held at the region's entry. -/
theorem keepR1 (y : Ref sig .tc) (hy : y ≠ main_v45) : W4 m ρ c (Proc.devRef .tc y) = W3 m ρ c (Proc.devRef .tc y) := by
  by_cases h : ∃ w : Fin 7, Pipeline.arrRef spec1 w = y
  · obtain ⟨w, rfl⟩ := h
    have hw : w ≠ 6 := fun e => hy (by subst e; rfl)
    exact (W4_arr m ρ c w).trans (arr_in1 m ρ c w hw)
  · exact W4_of_ne m ρ c y (fun w e => h ⟨w, e⟩)

/-- Region 2's input windows leave their arrays as the region found them. -/
theorem arr_in2 (w : Fin 7) (hw : w ≠ 6) : (dat2 (V5 m ρ) c).arrAt w cfg2.N = V5 m ρ c (Pipeline.arrRef spec2 w) := by
  match w, hw with
  | ⟨0, _⟩, _ => exact ((dat2 (V5 m ρ) c).arrAt_in 0 rfl _).trans (A_eq2 (V5 m ρ) c 0)
  | ⟨1, _⟩, _ => exact ((dat2 (V5 m ρ) c).arrAt_in 1 rfl _).trans (A_eq2 (V5 m ρ) c 1)
  | ⟨2, _⟩, _ => exact ((dat2 (V5 m ρ) c).arrAt_in 2 rfl _).trans (A_eq2 (V5 m ρ) c 2)
  | ⟨3, _⟩, _ => exact ((dat2 (V5 m ρ) c).arrAt_in 3 rfl _).trans (A_eq2 (V5 m ρ) c 3)
  | ⟨4, _⟩, _ => exact ((dat2 (V5 m ρ) c).arrAt_in 4 rfl _).trans (A_eq2 (V5 m ρ) c 4)
  | ⟨5, _⟩, _ => exact ((dat2 (V5 m ρ) c).arrAt_in 5 rfl _).trans (A_eq2 (V5 m ρ) c 5)
  | ⟨6, _⟩, h => exact absurd rfl h

/-- Through region 2 every buffer but its result array holds what it held at the region's entry. -/
theorem keepR2 (y : Ref sig .tc) (hy : y ≠ main_v58) : W6 m ρ c (Proc.devRef .tc y) = W5 m ρ c (Proc.devRef .tc y) := by
  by_cases h : ∃ w : Fin 7, Pipeline.arrRef spec2 w = y
  · obtain ⟨w, rfl⟩ := h
    have hw : w ≠ 6 := fun e => hy (by subst e; rfl)
    exact (W6_arr m ρ c w).trans (arr_in2 m ρ c w hw)
  · exact W6_of_ne m ρ c y (fun w e => h ⟨w, e⟩)

/-- Region 3's input windows leave their arrays as the region found them. -/
theorem arr_in3 (w : Fin 6) (hw : w ≠ 5) : (dat3 (V7 m ρ) c).arrAt w cfg3.N = V7 m ρ c (Pipeline.arrRef spec3 w) := by
  match w, hw with
  | ⟨0, _⟩, _ => exact ((dat3 (V7 m ρ) c).arrAt_in 0 rfl _).trans (A_eq3 (V7 m ρ) c 0)
  | ⟨1, _⟩, _ => exact ((dat3 (V7 m ρ) c).arrAt_in 1 rfl _).trans (A_eq3 (V7 m ρ) c 1)
  | ⟨2, _⟩, _ => exact ((dat3 (V7 m ρ) c).arrAt_in 2 rfl _).trans (A_eq3 (V7 m ρ) c 2)
  | ⟨3, _⟩, _ => exact ((dat3 (V7 m ρ) c).arrAt_in 3 rfl _).trans (A_eq3 (V7 m ρ) c 3)
  | ⟨4, _⟩, _ => exact ((dat3 (V7 m ρ) c).arrAt_in 4 rfl _).trans (A_eq3 (V7 m ρ) c 4)
  | ⟨5, _⟩, h => exact absurd rfl h

/-- Through region 3 every buffer but its result array holds what it held at the region's entry. -/
theorem keepR3 (y : Ref sig .tc) (hy : y ≠ main_v74) : W8 m ρ c (Proc.devRef .tc y) = W7 m ρ c (Proc.devRef .tc y) := by
  by_cases h : ∃ w : Fin 6, Pipeline.arrRef spec3 w = y
  · obtain ⟨w, rfl⟩ := h
    have hw : w ≠ 5 := fun e => hy (by subst e; rfl)
    exact (W8_arr m ρ c w).trans (arr_in3 m ρ c w hw)
  · exact W8_of_ne m ρ c y (fun w e => h ⟨w, e⟩)

end Cert.KernelIdeal.Keep

end
-- ==== Proof.Spec.lean ====
/-
  THE NETWORK'S TWO DENSE STEPS, ENTRY BY ENTRY, OVER THE EXTENDED REALS.

  A GraphSAGE layer with mean aggregation takes, for every node r, the sum M r of its in-neighbours' feature rows, a
  scale s r (the reciprocal of the node's clamped in-degree) and the node's own row h r, and returns
  relu ((M r · s r) · Wlᵀ + b + h r · Wrᵀ): entry q of that row is written out below, the additions in the order
  ((left product + bias) + right product). The classifier head maps a pooled row g r to
  relu (g r · W1ᵀ + b1) · W2ᵀ + b2. Both are stated for functions of plain coordinates, of any sizes; nothing here is
  assumed finite: the sums are sums of extended reals.

  The one law the comparison of the two programs needs sits here too: multiplying by the reciprocal 1 / max e 1 is
  dividing by max e 1, for EVERY extended real e, since max e 1 is at least one and so is never zero, and a quotient by a
  divisor that is not zero is by definition the product with the divisor's inverse.
-/
import Idealize.ShloMosaic.PureOps.Ideal
import Idealize.ShloMosaic.Lib.IdealHost

noncomputable section

open scoped BigOperators

namespace Cert.Sage

open Idealize.ShloMosaic

/-- Entry (r, q) of one layer: relu (((Σₖ (M r k · s r) · Wl q k) + b q) + Σₖ h r k · Wr q k). -/
def layerAt {N D H : ℕ} (M : Fin N → Fin D → EReal) (s : Fin N → EReal) (h : Fin N → Fin D → EReal)
    (Wl Wr : Fin H → Fin D → EReal) (b : Fin H → EReal) (r : Fin N) (q : Fin H) : EReal :=
  max (((∑ k : Fin D, (M r k * s r) * Wl q k) + b q) + ∑ k : Fin D, h r k * Wr q k) 0

/-- Entry (r, q) of the head: (Σⱼ relu ((Σₖ g r k · W1 j k) + b1 j) · W2 q j) + b2 q. -/
def headAt {G D H O : ℕ} (g : Fin G → Fin D → EReal) (W1 : Fin H → Fin D → EReal) (b1 : Fin H → EReal)
    (W2 : Fin O → Fin H → EReal) (b2 : Fin O → EReal) (r : Fin G) (q : Fin O) : EReal :=
  (∑ j : Fin H, max ((∑ k : Fin D, g r k * W1 j k) + b1 j) 0 * W2 q j) + b2 q

/-- A layer's entry depends on M, s, h only through row r. -/
theorem layerAt_congr {N D H : ℕ} {M M' : Fin N → Fin D → EReal} {s s' : Fin N → EReal} {h h' : Fin N → Fin D → EReal}
    (Wl Wr : Fin H → Fin D → EReal) (b : Fin H → EReal) (r : Fin N) (q : Fin H)
    (hM : ∀ k, M r k = M' r k) (hs : s r = s' r) (hh : ∀ k, h r k = h' r k) :
    layerAt M s h Wl Wr b r q = layerAt M' s' h' Wl Wr b r q := by
  unfold layerAt
  rw [hs]
  simp only [hM, hh]

/-- The head's entry depends on g only through row r. -/
theorem headAt_congr {G D H O : ℕ} {g g' : Fin G → Fin D → EReal} (W1 : Fin H → Fin D → EReal) (b1 : Fin H → EReal)
    (W2 : Fin O → Fin H → EReal) (b2 : Fin O → EReal) (r : Fin G) (q : Fin O) (hg : ∀ k, g r k = g' r k) :
    headAt g W1 b1 W2 b2 r q = headAt g' W1 b1 W2 b2 r q := by
  unfold headAt
  simp only [hg]

/-- Two layer entries agree when their rows of sums, scales and features, and the parameters' rows at q, agree —
    the two sides may index their rows differently (a block's row p against the array's row t·2000 + p). -/
theorem layerAt_congr' {N N' D H H' : ℕ} {M : Fin N → Fin D → EReal} {M' : Fin N' → Fin D → EReal} {s : Fin N → EReal}
    {s' : Fin N' → EReal} {h : Fin N → Fin D → EReal} {h' : Fin N' → Fin D → EReal} {Wl Wr : Fin H → Fin D → EReal}
    {Wl' Wr' : Fin H' → Fin D → EReal} {b : Fin H → EReal} {b' : Fin H' → EReal} (r : Fin N) (r' : Fin N') (q : Fin H)
    (q' : Fin H') (hM : ∀ k, M r k = M' r' k) (hs : s r = s' r') (hh : ∀ k, h r k = h' r' k)
    (hWl : ∀ k, Wl q k = Wl' q' k) (hWr : ∀ k, Wr q k = Wr' q' k) (hb : b q = b' q') :
    layerAt M s h Wl Wr b r q = layerAt M' s' h' Wl' Wr' b' r' q' := by
  unfold layerAt
  rw [hs, hb]
  simp only [hM, hh, hWl, hWr]

/-- max e 1 is never zero. -/
theorem max_one_ne_zero (e : EReal) : max e 1 ≠ 0 :=
  (lt_of_lt_of_le zero_lt_one (le_max_right e 1)).ne'

/-- Multiplying by the reciprocal of the clamped degree is dividing by it, at every extended real. -/
theorem mul_recip_max_one (x e : EReal) : x * Ideal.div 1 (max e 1) = Ideal.div x (max e 1) :=
  Ideal.mul_one_div (max_one_ne_zero e)

end Cert.Sage

end
-- ==== Proof.KArr.lean ====
/-
  THE KERNEL'S LAYERS AND HEAD AS WHOLE ARRAYS, AND THE SCALE COLUMN.

  A transform region ends with its result array holding, at (r, q), the layer's entry of the arrays it was given; the
  head region likewise. Here those whole-array functions are named, for the two feature widths, beside the column of
  scales the program computes once from the in-degrees: 1 / max (degree) 1, laid out as a 50000-by-1 array.
-/
import proofs.«140199_j83305185673529_2_alg».proof.Proof.Gen.KernelIdeal
import proofs.«140199_j83305185673529_2_alg».proof.Proof.Spec
import Idealize.ShloMosaic.Lib.ValueIdx

noncomputable section

namespace Cert.KernelIdeal.Arr

open Cert.KernelIdeal Cert.KernelIdeal.Facts₀ Idealize.ShloMosaic Idealize.ShloMosaic.ValueIdx

/-- The first layer (feature width 128) as a whole array: entry i is the layer's entry at row i 0 and column i 1. -/
def layerArr128 (A0 : Vec Ideal S50000x128 .f32) (A1 : Vec Ideal S50000x1 .f32) (A2 : Vec Ideal S50000x128 .f32)
    (A3 : Vec Ideal S256x128 .bf16) (A4 : Vec Ideal S1x256 .f32) (A5 : Vec Ideal S256x128 .bf16) : Vec Ideal S50000x256 .bf16 :=
  fun i => Cert.Sage.layerAt (fun (r : Fin 50000) (k : Fin 128) => A0 (ix2 r k)) (fun r => A1 (ix2 r (0 : Fin 1)))
    (fun r k => A2 (ix2 r k)) (fun (j : Fin 256) (k : Fin 128) => A3 (ix2 j k)) (fun j k => A5 (ix2 j k))
    (fun j => A4 (ix2 (0 : Fin 1) j)) (i 0) (i 1)

/-- A later layer (feature width 256) as a whole array. -/
def layerArr256 (A0 : Vec Ideal S50000x256 .f32) (A1 : Vec Ideal S50000x1 .f32) (A2 : Vec Ideal S50000x256 .bf16)
    (A3 : Vec Ideal S256x256 .bf16) (A4 : Vec Ideal S1x256 .f32) (A5 : Vec Ideal S256x256 .bf16) : Vec Ideal S50000x256 .bf16 :=
  fun i => Cert.Sage.layerAt (fun (r : Fin 50000) (k : Fin 256) => A0 (ix2 r k)) (fun r => A1 (ix2 r (0 : Fin 1)))
    (fun r k => A2 (ix2 r k)) (fun (j : Fin 256) (k : Fin 256) => A3 (ix2 j k)) (fun j k => A5 (ix2 j k))
    (fun j => A4 (ix2 (0 : Fin 1) j)) (i 0) (i 1)

/-- The head as a whole array. -/
def headArr (A0 : Vec Ideal S64x256 .f32) (A1 : Vec Ideal S128x256 .bf16) (A2 : Vec Ideal S1x128 .f32)
    (A3 : Vec Ideal S10x128 .bf16) (A4 : Vec Ideal S1x10 .f32) : Vec Ideal S64x10 .f32 :=
  fun i => Cert.Sage.headAt (fun (r : Fin 64) (k : Fin 256) => A0 (ix2 r k)) (fun (j : Fin 128) (k : Fin 256) => A1 (ix2 j k))
    (fun j => A2 (ix2 (0 : Fin 1) j)) (fun (o : Fin 10) (j : Fin 128) => A3 (ix2 o j)) (fun o => A4 (ix2 (0 : Fin 1) o)) (i 0) (i 1)

/-- The column of scales from the clamped degrees: 1 / dm, as the program's host operations spell it (a constant one
    broadcast to the 50000 nodes, the host's quotient, the result laid out as a column). -/
def invCol (dm : Vec Ideal S50000 .f32) : Vec Ideal S50000x1 .f32 :=
  broadcastInDim S50000x1 ![0] bcast_S50000_S50000x1_0
    (Host.divf (broadcastInDim S50000 ![] bcast_S_S50000 (constant (F := Ideal) S_ .f32 0x3F800000#32)) dm)

end Cert.KernelIdeal.Arr

end
-- ==== Proof.KEntry0.lean ====
/-
  WHAT THE FIRST STRETCH OF HOST OPERATIONS LEAVES IN EACH BUFFER THE REGIONS READ.

  Before the first region the program computes, from the edge list, the in-degrees and their clamped reciprocals,
  gathers the source rows of x and adds them up at their destinations, and re-lays the parameters (the weights in the
  narrow float format, the first bias as a row). The edge list's two rows, the aggregated sums and the clamped degrees
  are the very terms the reference computes; the arguments themselves are untouched.
-/
import proofs.«140199_j83305185673529_2_alg».proof.Proof.Gen.KernelIdeal.Frame
import proofs.«140199_j83305185673529_2_alg».proof.Proof.Gen.ReferenceIdeal.Read
import proofs.«140199_j83305185673529_2_alg».proof.Proof.KKeep
import proofs.«140199_j83305185673529_2_alg».proof.Proof.KArr
import Idealize.ShloMosaic.Lib.StableHlo.Run

set_option maxRecDepth 16384
set_option maxHeartbeats 4000000

noncomputable section

namespace Cert.KernelIdeal.Entry

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg) (c : Dev nD)

theorem W1_arg0 : W1 m ρ c (Proc.devRef .tc main_arg0) = (m ((c : Thread nD τ).loc main_arg0)) :=
  (Cert.KernelIdeal.Keep.keepH0 m ρ c main_arg0 (by decide)).trans rfl

theorem W1_arg2 : W1 m ρ c (Proc.devRef .tc main_arg2) = (m ((c : Thread nD τ).loc main_arg2)) :=
  (Cert.KernelIdeal.Keep.keepH0 m ρ c main_arg2 (by decide)).trans rfl

theorem W1_arg7 : W1 m ρ c (Proc.devRef .tc main_arg7) = (m ((c : Thread nD τ).loc main_arg7)) :=
  (Cert.KernelIdeal.Keep.keepH0 m ρ c main_arg7 (by decide)).trans rfl

theorem W1_arg10 : W1 m ρ c (Proc.devRef .tc main_arg10) = (m ((c : Thread nD τ).loc main_arg10)) :=
  (Cert.KernelIdeal.Keep.keepH0 m ρ c main_arg10 (by decide)).trans rfl

theorem W1_arg13 : W1 m ρ c (Proc.devRef .tc main_arg13) = (m ((c : Thread nD τ).loc main_arg13)) :=
  (Cert.KernelIdeal.Keep.keepH0 m ρ c main_arg13 (by decide)).trans rfl

theorem W1_arg15 : W1 m ρ c (Proc.devRef .tc main_arg15) = (m ((c : Thread nD τ).loc main_arg15)) :=
  (Cert.KernelIdeal.Keep.keepH0 m ρ c main_arg15 (by decide)).trans rfl

theorem W1_v1 : W1 m ρ c (Proc.devRef .tc main_v1) = Cert.ReferenceIdeal.Read.val_main_v1 (F := Ideal) (m ((c : Thread nD τ).loc main_arg1)) := by
  show StableHlo.after hostOps0 (W0 m ρ c) (Proc.devRef .tc main_v1) = _
  after_results_simp <;> rfl

theorem W1_v3 : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results_simp <;> rfl

theorem W1_v30 : W1 m ρ c (Proc.devRef .tc main_v30) = Cert.ReferenceIdeal.Read.val_main_v13 (F := Ideal) (m ((c : Thread nD τ).loc main_arg0)) (m ((c : Thread nD τ).loc main_arg1)) := by
  show StableHlo.after hostOps0 (W0 m ρ c) (Proc.devRef .tc main_v30) = _
  after_results_simp <;> rfl

theorem W1_v12 : W1 m ρ c (Proc.devRef .tc main_v12) = Cert.KernelIdeal.Arr.invCol (Cert.ReferenceIdeal.Read.val_main_v19 (F := Ideal) (m ((c : Thread nD τ).loc main_arg1))) := by
  show StableHlo.after hostOps0 (W0 m ρ c) (Proc.devRef .tc main_v12) = _
  after_results_simp <;> rfl

theorem W1_v13 : W1 m ρ c (Proc.devRef .tc main_v13) = truncf (F := Ideal) .bf16 (m ((c : Thread nD τ).loc main_arg3)) Facts₀.bitsLt_bf16_f32 := by
  show StableHlo.after hostOps0 (W0 m ρ c) (Proc.devRef .tc main_v13) = _
  after_results_simp <;> rfl

theorem W1_v14 : W1 m ρ c (Proc.devRef .tc main_v14) = truncf (F := Ideal) .bf16 (m ((c : Thread nD τ).loc main_arg5)) Facts₀.bitsLt_bf16_f32 := by
  show StableHlo.after hostOps0 (W0 m ρ c) (Proc.devRef .tc main_v14) = _
  after_results_simp <;> rfl

theorem W1_v15 : W1 m ρ c (Proc.devRef .tc main_v15) = truncf (F := Ideal) .bf16 (m ((c : Thread nD τ).loc main_arg6)) Facts₀.bitsLt_bf16_f32 := by
  show StableHlo.after hostOps0 (W0 m ρ c) (Proc.devRef .tc main_v15) = _
  after_results_simp <;> rfl

theorem W1_v16 : W1 m ρ c (Proc.devRef .tc main_v16) = truncf (F := Ideal) .bf16 (m ((c : Thread nD τ).loc main_arg8)) Facts₀.bitsLt_bf16_f32 := by
  show StableHlo.after hostOps0 (W0 m ρ c) (Proc.devRef .tc main_v16) = _
  after_results_simp <;> rfl

theorem W1_v17 : W1 m ρ c (Proc.devRef .tc main_v17) = truncf (F := Ideal) .bf16 (m ((c : Thread nD τ).loc main_arg9)) Facts₀.bitsLt_bf16_f32 := by
  show StableHlo.after hostOps0 (W0 m ρ c) (Proc.devRef .tc main_v17) = _
  after_results_simp <;> rfl

theorem W1_v18 : W1 m ρ c (Proc.devRef .tc main_v18) = truncf (F := Ideal) .bf16 (m ((c : Thread nD τ).loc main_arg11)) Facts₀.bitsLt_bf16_f32 := by
  show StableHlo.after hostOps0 (W0 m ρ c) (Proc.devRef .tc main_v18) = _
  after_results_simp <;> rfl

theorem W1_v19 : W1 m ρ c (Proc.devRef .tc main_v19) = truncf (F := Ideal) .bf16 (m ((c : Thread nD τ).loc main_arg12)) Facts₀.bitsLt_bf16_f32 := by
  show StableHlo.after hostOps0 (W0 m ρ c) (Proc.devRef .tc main_v19) = _
  after_results_simp <;> rfl

theorem W1_v20 : W1 m ρ c (Proc.devRef .tc main_v20) = truncf (F := Ideal) .bf16 (m ((c : Thread nD τ).loc main_arg14)) Facts₀.bitsLt_bf16_f32 := by
  show StableHlo.after hostOps0 (W0 m ρ c) (Proc.devRef .tc main_v20) = _
  after_results_simp <;> rfl

theorem W1_v31 : W1 m ρ c (Proc.devRef .tc main_v31) = shapeCast S1x256 (m ((c : Thread nD τ).loc main_arg4)) Facts₀.shapeCasts_S256_S1x256 := by
  show StableHlo.after hostOps0 (W0 m ρ c) (Proc.devRef .tc main_v31) = _
  after_results_simp <;> rfl

end Cert.KernelIdeal.Entry

end
-- ==== Proof.LibTransDot.lean ====
/-
  A PRODUCT WITH THE WEIGHT'S SECOND AXIS CONTRACTED (x · Wᵀ), AS A SUM.

  einsum 'de,ne->nd' and 'de,nke->nkd' contract the activations' last axis with the weight's LAST axis: the result
  at (n, d), or (n, k, d), is the sum over e of the activation's (n, e), or (n, k, e), times the weight's (d, e).
-/
import Idealize.ShloMosaic.PureOps.Ideal.Laws
import Idealize.ShloMosaic.Lib.ValueIdx

noncomputable section

open scoped BigOperators

namespace Cert.Lib

open Idealize.ShloMosaic Idealize.ShloMosaic.ValueIdx

section Rank2

variable {M K N : Nat} (d : DotDims ⟨2, ![M, K]⟩ ⟨2, ![N, K]⟩ ⟨2, ![M, N]⟩)

theorem t2_lhs_row (hln : d.lhsNonContracting = [0]) (hlb : d.lhsBatch = [])
    (j : (⟨2, ![M, N]⟩ : Shape).Idx) (k : d.contr.Idx) : (d.lhsIdx j k (0 : Fin 2)).val = (j (0 : Fin 2)).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln]; rfl)

theorem t2_rhs_row (hln : d.lhsNonContracting = [0]) (hrn : d.rhsNonContracting = [0]) (hlb : d.lhsBatch = [])
    (hrb : d.rhsBatch = []) (j : (⟨2, ![M, N]⟩ : Shape).Idx) (k : d.contr.Idx) :
    (d.rhsIdx j k (0 : Fin 2)).val = (j (1 : Fin 2)).val := by
  have hb : (0 : Fin 2) ∉ d.rhsBatch := by rw [hrb]; exact List.not_mem_nil
  have hn : (0 : Fin 2) ∈ d.rhsNonContracting := by rw [hrn]; exact List.mem_singleton.mpr rfl
  unfold DotDims.rhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln, hrn]; rfl)

theorem t2_contr_rank (hl : d.lhsContracting = [1]) : d.contr.rank = 1 := by rw [d.rank_contr, hl]; rfl

theorem t2_contr_size (hl : d.lhsContracting = [1]) :
    d.contr.size ⟨0, by rw [t2_contr_rank d hl]; exact Nat.one_pos⟩ = K := by
  have h0 : (0 : Nat) < d.lhsContracting.length := by rw [hl]; exact Nat.one_pos
  refine (d.size_contr 0 h0).trans ?_
  rw [List.getElem_of_eq hl h0]
  rfl

/-- x · Wᵀ at (p, n): the sum over k of x (p, k) · W (n, k). -/
theorem sum_contr_t2 {α : Type*} [AddCommMonoid α] (hl : d.lhsContracting = [1]) (hr : d.rhsContracting = [1])
    (hln : d.lhsNonContracting = [0]) (hrn : d.rhsNonContracting = [0]) (hlb : d.lhsBatch = []) (hrb : d.rhsBatch = [])
    (f : (⟨2, ![M, K]⟩ : Shape).Idx → (⟨2, ![N, K]⟩ : Shape).Idx → α) (p : Fin M) (n : Fin N) :
    ∑ k : d.contr.Idx, f (d.lhsIdx (ix2 p n) k) (d.rhsIdx (ix2 p n) k) = ∑ k : Fin K, f (ix2 p k) (ix2 n k) := by
  have hrk := t2_contr_rank d hl
  have hs := t2_contr_size d hl
  rw [← Equiv.sum_comp (contrEquiv1 d K hrk hs).symm]
  refine Finset.sum_congr rfl fun k _ => ?_
  have e1 : d.lhsIdx (ix2 p n) ((contrEquiv1 d K hrk hs).symm k) = ix2 p k := by
    funext a; apply Fin.ext
    match a with
    | ⟨0, _⟩ => exact t2_lhs_row d hln hlb _ _
    | ⟨1, _⟩ => exact (d.lhsIdx_val_of_single hl _ _).trans (contrEquiv1_symm_val d K hrk hs k)
  have e2 : d.rhsIdx (ix2 p n) ((contrEquiv1 d K hrk hs).symm k) = ix2 n k := by
    funext a; apply Fin.ext
    match a with
    | ⟨0, _⟩ => exact t2_rhs_row d hln hrn hlb hrb _ _
    | ⟨1, _⟩ => exact (d.rhsIdx_val_of_single hr _ _).trans (contrEquiv1_symm_val d K hrk hs k)
  rw [e1, e2]

theorem dotGeneral_t2_at (hl : d.lhsContracting = [1]) (hr : d.rhsContracting = [1])
    (hln : d.lhsNonContracting = [0]) (hrn : d.rhsNonContracting = [0]) (hlb : d.lhsBatch = []) (hrb : d.rhsBatch = [])
    {φ₁ φ₂ : FTy} (prec : Option ContractPrecision) (a : FVec Ideal ⟨2, ![M, K]⟩ φ₁) (b : FVec Ideal ⟨2, ![N, K]⟩ φ₂)
    (r : Fin M) (q : Fin N) :
    Host.dotGeneral d prec a b (ix2 r q) = ∑ p : Fin K, a (ix2 r p) * b (ix2 q p) :=
  (Ideal.dotGeneral_apply d prec .single a b (ix2 r q)).trans
    (sum_contr_t2 d hl hr hln hrn hlb hrb (fun i j => a i * b j) r q)

end Rank2

section Rank3

variable {A B K N : Nat} (d : DotDims ⟨3, ![A, B, K]⟩ ⟨2, ![N, K]⟩ ⟨3, ![A, B, N]⟩)

theorem t3_lhs_0 (hln : d.lhsNonContracting = [0, 1]) (hlb : d.lhsBatch = [])
    (j : (⟨3, ![A, B, N]⟩ : Shape).Idx) (k : d.contr.Idx) : (d.lhsIdx j k (0 : Fin 3)).val = (j (0 : Fin 3)).val := by
  have hb : (0 : Fin 3) ∉ d.lhsBatch := by rw [hlb]; exact List.not_mem_nil
  have hn : (0 : Fin 3) ∈ d.lhsNonContracting := by rw [hln]; simp
  unfold DotDims.lhsIdx
  rw [dif_neg hb, dif_pos hn]
  simp only [Fin.val_cast]
  have key : ∀ (a b : Nat) (ha : a < 3) (hb : b < 3), a = b → (j ⟨a, ha⟩).val = (j ⟨b, hb⟩).val := by
    intro a b ha hb e; subst e; rfl
  exact key _ _ _ _ (by rw [hlb, hln]; rfl)

theorem t3_lhs_1 (hln : d.lhsNonContracting = [0, 1]) (hlb : d.lhsBatch = [])
    (j : (⟨3, ![A, B, N]⟩ : Shape).Idx) (k : d.contr.Idx) : (d.lhsIdx j k (1 : Fin 3)).val = (j (1 : Fin 3)).val := by
  have hb : (1 : Fin 3) ∉ d.lhsBatch := by rw [hlb]; exact List.not_mem_nil
  have hn : (1 : Fin 3) ∈ d.lhsNonContracting := by rw [hln]; simp
  unfold DotDims.lhsIdx
  rw [dif_neg hb, dif_pos hn]
  simp only [Fin.val_cast]
  have key : ∀ (a b : Nat) (ha : a < 3) (hb : b < 3), a = b → (j ⟨a, ha⟩).val = (j ⟨b, hb⟩).val := by
    intro a b ha hb e; subst e; rfl
  exact key _ _ _ _ (by rw [hlb, hln]; rfl)

theorem t3_rhs_row (hln : d.lhsNonContracting = [0, 1]) (hrn : d.rhsNonContracting = [0]) (hlb : d.lhsBatch = [])
    (hrb : d.rhsBatch = []) (j : (⟨3, ![A, B, N]⟩ : Shape).Idx) (k : d.contr.Idx) :
    (d.rhsIdx j k (0 : Fin 2)).val = (j (2 : Fin 3)).val := by
  have hb : (0 : Fin 2) ∉ d.rhsBatch := by rw [hrb]; exact List.not_mem_nil
  have hn : (0 : Fin 2) ∈ d.rhsNonContracting := by rw [hrn]; exact List.mem_singleton.mpr rfl
  unfold DotDims.rhsIdx
  rw [dif_neg hb, dif_pos hn]
  simp only [Fin.val_cast]
  have key : ∀ (a b : Nat) (ha : a < 3) (hb : b < 3), a = b → (j ⟨a, ha⟩).val = (j ⟨b, hb⟩).val := by
    intro a b ha hb e; subst e; rfl
  exact key _ _ _ _ (by rw [hlb, hln, hrn]; rfl)

theorem t3_contr_rank (hl : d.lhsContracting = [2]) : d.contr.rank = 1 := by rw [d.rank_contr, hl]; rfl

theorem t3_contr_size (hl : d.lhsContracting = [2]) :
    d.contr.size ⟨0, by rw [t3_contr_rank d hl]; exact Nat.one_pos⟩ = K := by
  have h0 : (0 : Nat) < d.lhsContracting.length := by rw [hl]; exact Nat.one_pos
  refine (d.size_contr 0 h0).trans ?_
  rw [List.getElem_of_eq hl h0]
  rfl

/-- x · Wᵀ over a slab at (a, b, n): the sum over k of x (a, b, k) · W (n, k). -/
theorem sum_contr_t3 {α : Type*} [AddCommMonoid α] (hl : d.lhsContracting = [2]) (hr : d.rhsContracting = [1])
    (hln : d.lhsNonContracting = [0, 1]) (hrn : d.rhsNonContracting = [0]) (hlb : d.lhsBatch = []) (hrb : d.rhsBatch = [])
    (f : (⟨3, ![A, B, K]⟩ : Shape).Idx → (⟨2, ![N, K]⟩ : Shape).Idx → α) (a : Fin A) (b : Fin B) (n : Fin N) :
    ∑ k : d.contr.Idx, f (d.lhsIdx (ix3 a b n) k) (d.rhsIdx (ix3 a b n) k) = ∑ k : Fin K, f (ix3 a b k) (ix2 n k) := by
  have hrk := t3_contr_rank d hl
  have hs := t3_contr_size d hl
  rw [← Equiv.sum_comp (contrEquiv1 d K hrk hs).symm]
  refine Finset.sum_congr rfl fun k _ => ?_
  have e1 : d.lhsIdx (ix3 a b n) ((contrEquiv1 d K hrk hs).symm k) = ix3 a b k := by
    funext c; apply Fin.ext
    match c with
    | ⟨0, _⟩ => exact t3_lhs_0 d hln hlb _ _
    | ⟨1, _⟩ => exact t3_lhs_1 d hln hlb _ _
    | ⟨2, _⟩ => exact (d.lhsIdx_val_of_single hl _ _).trans (contrEquiv1_symm_val d K hrk hs k)
  have e2 : d.rhsIdx (ix3 a b n) ((contrEquiv1 d K hrk hs).symm k) = ix2 n k := by
    funext c; apply Fin.ext
    match c with
    | ⟨0, _⟩ => exact t3_rhs_row d hln hrn hlb hrb _ _
    | ⟨1, _⟩ => exact (d.rhsIdx_val_of_single hr _ _).trans (contrEquiv1_symm_val d K hrk hs k)
  rw [e1, e2]

theorem dotGeneral_t3_at (hl : d.lhsContracting = [2]) (hr : d.rhsContracting = [1])
    (hln : d.lhsNonContracting = [0, 1]) (hrn : d.rhsNonContracting = [0]) (hlb : d.lhsBatch = []) (hrb : d.rhsBatch = [])
    {φ₁ φ₂ : FTy} (prec : Option ContractPrecision) (x : FVec Ideal ⟨3, ![A, B, K]⟩ φ₁) (w : FVec Ideal ⟨2, ![N, K]⟩ φ₂)
    (a : Fin A) (b : Fin B) (q : Fin N) :
    Host.dotGeneral d prec x w (ix3 a b q) = ∑ p : Fin K, x (ix3 a b p) * w (ix2 q p) :=
  (Ideal.dotGeneral_apply d prec .single x w (ix3 a b q)).trans
    (sum_contr_t3 d hl hr hln hrn hlb hrb (fun i j => x i * w j) a b q)

end Rank3

end Cert.Lib

end
-- ==== Proof.LibTransMatmul.lean ====
/-
  A KERNEL'S MATRIX PRODUCT WITH THE WEIGHT'S LAST AXIS CONTRACTED (x · Wᵀ), AND A DENSE LAYER OVER IT, AT AN ENTRY.

  A matrix product of an [M, K] block with an [N, K] block that contracts the last axis of both, accumulated into the
  zero block, has at (r, q) the sum over k of the left block's (r, k) times the right block's (q, k). A dense layer adds to
  it a bias row [1, N] repeated down the M rows: at (r, q) that adds the bias row's entry q.
-/
import proofs.«140199_j83305185673529_2_alg».proof.Proof.LibTransDot
import Idealize.ShloMosaic.Lib.ValueLayout

noncomputable section

open scoped BigOperators

namespace Cert.Lib

open Idealize.ShloMosaic Idealize.ShloMosaic.ValueIdx

variable {M K N : Nat} (d : DotDims ⟨2, ![M, K]⟩ ⟨2, ![N, K]⟩ ⟨2, ![M, N]⟩)

/-- x · Wᵀ into the zero block at (r, q): the sum over k of x (r, k) · W (q, k). -/
theorem matmul_t2_zero_at (hl : d.lhsContracting = [1]) (hr : d.rhsContracting = [1])
    (hln : d.lhsNonContracting = [0]) (hrn : d.rhsNonContracting = [0]) (hlb : d.lhsBatch = []) (hrb : d.rhsBatch = [])
    {φ₁ φ₂ : FTy} (prec : Option ContractPrecision) (a : FVec Ideal ⟨2, ![M, K]⟩ φ₁) (b : FVec Ideal ⟨2, ![N, K]⟩ φ₂)
    (r : Fin M) (q : Fin N) :
    matmul d prec a b (constant (F := Ideal) ⟨2, ![M, N]⟩ .f32 0x00000000#32) (ix2 r q) = ∑ k : Fin K, a (ix2 r k) * b (ix2 q k) :=
  (Ideal.matmul_constant_zero_apply d prec a b (ix2 r q)).trans
    (sum_contr_t2 d hl hr hln hrn hlb hrb (fun i j => a i * b j) r q)

/-- A dense layer x · Wᵀ + b at (r, q): the contraction sum plus the bias row's entry q. -/
theorem dense_t2_at (hl : d.lhsContracting = [1]) (hr : d.rhsContracting = [1])
    (hln : d.lhsNonContracting = [0]) (hrn : d.rhsNonContracting = [0]) (hlb : d.lhsBatch = []) (hrb : d.rhsBatch = [])
    {φ₁ φ₂ : FTy} (prec : Option ContractPrecision) (a : FVec Ideal ⟨2, ![M, K]⟩ φ₁) (b : FVec Ideal ⟨2, ![N, K]⟩ φ₂)
    (bias : FVec Ideal ⟨2, ![1, N]⟩ .f32) (hb : (⟨2, ![1, N]⟩ : Shape).Broadcasts ⟨2, ![M, N]⟩) (r : Fin M) (q : Fin N) :
    addf (matmul d prec a b (constant (F := Ideal) ⟨2, ![M, N]⟩ .f32 0x00000000#32)) (broadcastTo ⟨2, ![M, N]⟩ bias hb) (ix2 r q)
      = (∑ k : Fin K, a (ix2 r k) * b (ix2 q k)) + bias (ix2 (0 : Fin 1) q) :=
  congrArg₂ (· + ·) (matmul_t2_zero_at d hl hr hln hrn hlb hrb prec a b r q) (broadcastTo_1b_ab_apply bias hb r q)

end Cert.Lib

end
-- ==== Proof.LibColBroadcast.lean ====
/-
  A COLUMN BROADCAST ACROSS COLUMNS, READ AT AN ELEMENT.

  An array of shape [a, 1] — one number per row — broadcast to shape [a, b] holds, at (p, c), the number of row p,
  whatever the column c.
-/
import Idealize.ShloMosaic.Lib.Pipeline.Value
import Idealize.ShloMosaic.Lib.ValueIdx

noncomputable section

namespace Cert.Lib

open Idealize.ShloMosaic Idealize.ShloMosaic.ValueIdx

/-- A column of a numbers broadcast to an a-by-b array reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.KBody.lean ====
/-
  WHAT EACH KERNEL BODY LEAVES IN ITS OUTPUT BLOCK, AT AN ENTRY.

  Each of the three transform kernels loads a block of 2000 rows of the aggregated sums, the column of their scales, the
  same 2000 rows of node features, two weight matrices and a bias row, and stores
  relu ((sums · scale) · Wlᵀ + bias + features · Wrᵀ); the head kernel stores relu (g · W1ᵀ + b1) · W2ᵀ + b2. Changes
  of float format are the identity over the extended reals, a matrix product into the zero block is the plain sum over
  the contracted coordinate, and a row or column repeated across the block reads its one entry: so entry (p, q) of the
  stored block is the layer's (the head's) entry of the loaded blocks.
-/
import proofs.«140199_j83305185673529_2_alg».proof.Proof.Gen.KernelIdeal.Frame
import proofs.«140199_j83305185673529_2_alg».proof.Proof.Spec
import proofs.«140199_j83305185673529_2_alg».proof.Proof.LibTransMatmul
import proofs.«140199_j83305185673529_2_alg».proof.Proof.LibColBroadcast
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Idealize.ShloMosaic Idealize.ShloMosaic.ValueIdx

/-- The offsets of a whole-block rectangle of a rank-2 block are all zero. -/
theorem zero_offsets : (![0, 0] : Fin 2 → Nat) = fun _ => 0 := funext fun a => by fin_cases a <;> rfl

/-- Entry (p, q) of the layer kernel's stored block at input width 128: the scaled sums times the first weight's
    transpose, plus the bias row's entry q, plus the features times the second weight's transpose, clamped below at 0.
    Format changes and same-shape casts are the identity, each product into the zero block is the plain sum over the
    contracted coordinate, and the scale column repeated across the row reads its one entry of row p. -/
theorem pay0_at (v0 : Vec Ideal S2000x128 .f32) (v2 : Vec Ideal S2000x1 .f32) (v7 : Vec Ideal S2000x128 .f32)
    (v9 : Vec Ideal S256x128 .bf16) (v11 : Vec Ideal S256x128 .bf16) (v15 : Vec Ideal S1x256 .f32) (p : Fin 2000) (q : Fin 256) :
    Gen.k0_pay1 (F := Ideal) v0 v2 v7 v9 v11 v15 (ix2 p q)
      = Cert.Sage.layerAt (fun r k => v0 (ix2 r k)) (fun r => v2 (ix2 r (0 : Fin 1))) (fun r k => v7 (ix2 r k))
          (fun j k => v9 (ix2 j k)) (fun j k => v11 (ix2 j k)) (fun j => v15 (ix2 (0 : Fin 1) j)) p q := by
  unfold Gen.k0_pay1 Cert.Sage.layerAt
  simp only [shapeCast_self]
  rw [truncf_apply, maximumf_apply, addf_apply, broadcast_apply]
  refine congrArg₂ max (congrArg₂ (· + ·) ?_ ?_) Ideal.ofBits_zero_f32
  · refine (Cert.Lib.dense_t2_at (M := 2000) (K := 128) (N := 256) dot_S2000x128_S256x128_S2000x256_1_1_0_0_n_n rfl rfl rfl rfl rfl rfl
      (φ₁ := .bf16) (φ₂ := .bf16) none _ v9 v15 Gen.broadcasts_S1x256_S2000x256 p q).trans ?_
    refine congrArg (· + v15 (ix2 (0 : Fin 1) q)) (Finset.sum_congr rfl fun k _ => ?_)
    refine congrArg (· * v9 (ix2 q k)) ?_
    show v0 (ix2 p k) * broadcastTo S2000x128 v2 Gen.broadcasts_S2000x1_S2000x128 (ix2 p k) = _
    rw [Cert.Lib.broadcastTo_a1_ab_apply]
  · exact Cert.Lib.matmul_t2_zero_at (M := 2000) (K := 128) (N := 256) dot_S2000x128_S256x128_S2000x256_1_1_0_0_n_n rfl rfl rfl rfl rfl rfl
      (φ₁ := .bf16) (φ₂ := .bf16) none _ v11 p q

/-- Entry (p, q) of the layer kernel's stored block at input width 256: the scaled sums times the first weight's
    transpose, plus the bias row's entry q, plus the features times the second weight's transpose, clamped below at 0.
    Format changes and same-shape casts are the identity, each product into the zero block is the plain sum over the
    contracted coordinate, and the scale column repeated across the row reads its one entry of row p. -/
theorem pay1_at (v0 : Vec Ideal S2000x256 .f32) (v2 : Vec Ideal S2000x1 .f32) (v7 : Vec Ideal S2000x256 .bf16)
    (v9 : Vec Ideal S256x256 .bf16) (v11 : Vec Ideal S256x256 .bf16) (v15 : Vec Ideal S1x256 .f32) (p : Fin 2000) (q : Fin 256) :
    Gen.k1_pay1 (F := Ideal) v0 v2 v7 v9 v11 v15 (ix2 p q)
      = Cert.Sage.layerAt (fun r k => v0 (ix2 r k)) (fun r => v2 (ix2 r (0 : Fin 1))) (fun r k => v7 (ix2 r k))
          (fun j k => v9 (ix2 j k)) (fun j k => v11 (ix2 j k)) (fun j => v15 (ix2 (0 : Fin 1) j)) p q := by
  unfold Gen.k1_pay1 Cert.Sage.layerAt
  simp only [shapeCast_self]
  rw [truncf_apply, maximumf_apply, addf_apply, broadcast_apply]
  refine congrArg₂ max (congrArg₂ (· + ·) ?_ ?_) Ideal.ofBits_zero_f32
  · refine (Cert.Lib.dense_t2_at (M := 2000) (K := 256) (N := 256) dot_S2000x256_S256x256_S2000x256_1_1_0_0_n_n rfl rfl rfl rfl rfl rfl
      (φ₁ := .bf16) (φ₂ := .bf16) none _ v9 v15 Gen.broadcasts_S1x256_S2000x256 p q).trans ?_
    refine congrArg (· + v15 (ix2 (0 : Fin 1) q)) (Finset.sum_congr rfl fun k _ => ?_)
    refine congrArg (· * v9 (ix2 q k)) ?_
    show v0 (ix2 p k) * broadcastTo S2000x256 v2 Gen.broadcasts_S2000x1_S2000x256 (ix2 p k) = _
    rw [Cert.Lib.broadcastTo_a1_ab_apply]
  · exact Cert.Lib.matmul_t2_zero_at (M := 2000) (K := 256) (N := 256) dot_S2000x256_S256x256_S2000x256_1_1_0_0_n_n rfl rfl rfl rfl rfl rfl
      (φ₁ := .bf16) (φ₂ := .bf16) none _ v11 p q

/-- Entry (p, q) of the layer kernel's stored block at input width 256: the scaled sums times the first weight's
    transpose, plus the bias row's entry q, plus the features times the second weight's transpose, clamped below at 0.
    Format changes and same-shape casts are the identity, each product into the zero block is the plain sum over the
    contracted coordinate, and the scale column repeated across the row reads its one entry of row p. -/
theorem pay2_at (v0 : Vec Ideal S2000x256 .f32) (v2 : Vec Ideal S2000x1 .f32) (v7 : Vec Ideal S2000x256 .bf16)
    (v9 : Vec Ideal S256x256 .bf16) (v11 : Vec Ideal S256x256 .bf16) (v15 : Vec Ideal S1x256 .f32) (p : Fin 2000) (q : Fin 256) :
    Gen.k2_pay1 (F := Ideal) v0 v2 v7 v9 v11 v15 (ix2 p q)
      = Cert.Sage.layerAt (fun r k => v0 (ix2 r k)) (fun r => v2 (ix2 r (0 : Fin 1))) (fun r k => v7 (ix2 r k))
          (fun j k => v9 (ix2 j k)) (fun j k => v11 (ix2 j k)) (fun j => v15 (ix2 (0 : Fin 1) j)) p q := by
  unfold Gen.k2_pay1 Cert.Sage.layerAt
  simp only [shapeCast_self]
  rw [truncf_apply, maximumf_apply, addf_apply, broadcast_apply]
  refine congrArg₂ max (congrArg₂ (· + ·) ?_ ?_) Ideal.ofBits_zero_f32
  · refine (Cert.Lib.dense_t2_at (M := 2000) (K := 256) (N := 256) dot_S2000x256_S256x256_S2000x256_1_1_0_0_n_n rfl rfl rfl rfl rfl rfl
      (φ₁ := .bf16) (φ₂ := .bf16) none _ v9 v15 Gen.broadcasts_S1x256_S2000x256 p q).trans ?_
    refine congrArg (· + v15 (ix2 (0 : Fin 1) q)) (Finset.sum_congr rfl fun k _ => ?_)
    refine congrArg (· * v9 (ix2 q k)) ?_
    show v0 (ix2 p k) * broadcastTo S2000x256 v2 Gen.broadcasts_S2000x1_S2000x256 (ix2 p k) = _
    rw [Cert.Lib.broadcastTo_a1_ab_apply]
  · exact Cert.Lib.matmul_t2_zero_at (M := 2000) (K := 256) (N := 256) dot_S2000x256_S256x256_S2000x256_1_1_0_0_n_n rfl rfl rfl rfl rfl rfl
      (φ₁ := .bf16) (φ₂ := .bf16) none _ v11 p q

/-- Entry (p, q) of the head kernel's stored block: the pooled row times the first weight's transpose plus the first
    bias, clamped below at 0, times the second weight's transpose plus the second bias — two dense layers, the inner one
    read at (p, j) under the outer sum over j. -/
theorem pay3_at (v0 : Vec Ideal S64x256 .f32) (v3 : Vec Ideal S128x256 .bf16) (v6 : Vec Ideal S1x128 .f32)
    (v13 : Vec Ideal S10x128 .bf16) (v16 : Vec Ideal S1x10 .f32) (p : Fin 64) (q : Fin 10) :
    Gen.k3_pay1 (F := Ideal) v0 v3 v6 v13 v16 (ix2 p q)
      = Cert.Sage.headAt (fun r k => v0 (ix2 r k)) (fun j k => v3 (ix2 j k)) (fun j => v6 (ix2 (0 : Fin 1) j))
          (fun o j => v13 (ix2 o j)) (fun o => v16 (ix2 (0 : Fin 1) o)) p q := by
  unfold Gen.k3_pay1 Cert.Sage.headAt
  simp only [shapeCast_self]
  refine (Cert.Lib.dense_t2_at (M := 64) (K := 128) (N := 10) dot_S64x128_S10x128_S64x10_1_1_0_0_n_n rfl rfl rfl rfl rfl rfl
    (φ₁ := .bf16) (φ₂ := .bf16) none _ v13 v16 Gen.broadcasts_S1x10_S64x10 p q).trans ?_
  refine congrArg (· + v16 (ix2 (0 : Fin 1) q)) (Finset.sum_congr rfl fun j _ => ?_)
  refine congrArg (· * v13 (ix2 q j)) ?_
  rw [truncf_apply, maximumf_apply, broadcast_apply]
  refine congrArg₂ max ?_ Ideal.ofBits_zero_f32
  exact Cert.Lib.dense_t2_at (M := 64) (K := 256) (N := 128) dot_S64x256_S128x256_S64x128_1_1_0_0_n_n rfl rfl rfl rfl rfl rfl
    (φ₁ := .bf16) (φ₂ := .bf16) none _ v3 v6 Gen.broadcasts_S1x128_S64x128 p j

theorem out0_6_at (x0 : Vec Ideal S2000x128 .f32) (x1 : Vec Ideal S2000x1 .f32) (x2 : Vec Ideal S2000x128 .f32)
    (x3 : Vec Ideal S256x128 .bf16) (x4 : Vec Ideal S1x256 .f32) (x5 : Vec Ideal S256x128 .bf16) (p : Fin 2000) (q : Fin 256) :
    Gen.out0_6 (F := Ideal) x0 x1 x2 x3 x4 x5 (ix2 p q)
      = Cert.Sage.layerAt (fun r k => x0 (ix2 r k)) (fun r => x1 (ix2 r (0 : Fin 1))) (fun r k => x2 (ix2 r k))
          (fun j k => x3 (ix2 j k)) (fun j k => x5 (ix2 j k)) (fun j => x4 (ix2 (0 : Fin 1) j)) p q := by
  unfold Gen.out0_6
  rw [View.canon_unit_zero zero_offsets]
  simp only [View.ld_unit_zero (S := S2000x128) zero_offsets, View.ld_unit_zero (S := S2000x1) zero_offsets,
    View.ld_unit_zero (S := S256x128) zero_offsets, View.ld_unit_zero (S := S1x256) zero_offsets]
  exact pay0_at x0 x1 x2 x3 x5 x4 p q

theorem out1_6_at (x0 : Vec Ideal S2000x256 .f32) (x1 : Vec Ideal S2000x1 .f32) (x2 : Vec Ideal S2000x256 .bf16)
    (x3 : Vec Ideal S256x256 .bf16) (x4 : Vec Ideal S1x256 .f32) (x5 : Vec Ideal S256x256 .bf16) (p : Fin 2000) (q : Fin 256) :
    Gen.out1_6 (F := Ideal) x0 x1 x2 x3 x4 x5 (ix2 p q)
      = Cert.Sage.layerAt (fun r k => x0 (ix2 r k)) (fun r => x1 (ix2 r (0 : Fin 1))) (fun r k => x2 (ix2 r k))
          (fun j k => x3 (ix2 j k)) (fun j k => x5 (ix2 j k)) (fun j => x4 (ix2 (0 : Fin 1) j)) p q := by
  unfold Gen.out1_6
  rw [View.canon_unit_zero zero_offsets]
  simp only [View.ld_unit_zero (S := S2000x256) zero_offsets, View.ld_unit_zero (S := S2000x1) zero_offsets,
    View.ld_unit_zero (S := S256x256) zero_offsets, View.ld_unit_zero (S := S1x256) zero_offsets]
  exact pay1_at x0 x1 x2 x3 x5 x4 p q

theorem out2_6_at (x0 : Vec Ideal S2000x256 .f32) (x1 : Vec Ideal S2000x1 .f32) (x2 : Vec Ideal S2000x256 .bf16)
    (x3 : Vec Ideal S256x256 .bf16) (x4 : Vec Ideal S1x256 .f32) (x5 : Vec Ideal S256x256 .bf16) (p : Fin 2000) (q : Fin 256) :
    Gen.out2_6 (F := Ideal) x0 x1 x2 x3 x4 x5 (ix2 p q)
      = Cert.Sage.layerAt (fun r k => x0 (ix2 r k)) (fun r => x1 (ix2 r (0 : Fin 1))) (fun r k => x2 (ix2 r k))
          (fun j k => x3 (ix2 j k)) (fun j k => x5 (ix2 j k)) (fun j => x4 (ix2 (0 : Fin 1) j)) p q := by
  unfold Gen.out2_6
  rw [View.canon_unit_zero zero_offsets]
  simp only [View.ld_unit_zero (S := S2000x256) zero_offsets, View.ld_unit_zero (S := S2000x1) zero_offsets,
    View.ld_unit_zero (S := S256x256) zero_offsets, View.ld_unit_zero (S := S1x256) zero_offsets]
  exact pay2_at x0 x1 x2 x3 x5 x4 p q

theorem out3_5_at (x0 : Vec Ideal S64x256 .f32) (x1 : Vec Ideal S128x256 .bf16) (x2 : Vec Ideal S1x128 .f32)
    (x3 : Vec Ideal S10x128 .bf16) (x4 : Vec Ideal S1x10 .f32) (p : Fin 64) (q : Fin 10) :
    Gen.out3_5 (F := Ideal) x0 x1 x2 x3 x4 (ix2 p q)
      = Cert.Sage.headAt (fun r k => x0 (ix2 r k)) (fun j k => x1 (ix2 j k)) (fun j => x2 (ix2 (0 : Fin 1) j))
          (fun o j => x3 (ix2 o j)) (fun o => x4 (ix2 (0 : Fin 1) o)) p q := by
  unfold Gen.out3_5
  rw [View.canon_unit_zero zero_offsets]
  simp only [View.ld_unit_zero (S := S64x256) zero_offsets, View.ld_unit_zero (S := S128x256) zero_offsets,
    View.ld_unit_zero (S := S1x128) zero_offsets, View.ld_unit_zero (S := S10x128) zero_offsets,
    View.ld_unit_zero (S := S1x10) zero_offsets]
  exact pay3_at x0 x1 x2 x3 x4 p q

end Cert.KernelIdeal.Body

end
-- ==== Proof.Blocks0.lean ====
/-
  REGION 0: FROM THE BLOCKS TO THE ARRAY.

  The transform kernel runs on 25 grid points; point t loads rows 2000·t … 2000·t + 1999 of the aggregated sums, of
  the scale column and of the node features, the two weight matrices and the bias row whole, and writes back rows
  2000·t … 2000·t + 1999 of the result. What it writes is the layer's entry at the array's own coordinates: row
  2000·t + p of the result depends on row 2000·t + p of the inputs only. The 25 blocks of 2000 rows tile the 50000
  rows, so after the region the result array is the layer of the arrays the region found, entry by entry.
-/
import proofs.«140199_j83305185673529_2_alg».proof.Proof.Gen.KernelIdeal.Frame
import proofs.«140199_j83305185673529_2_alg».proof.Proof.Spec
import proofs.«140199_j83305185673529_2_alg».proof.Proof.KBody
import proofs.«140199_j83305185673529_2_alg».proof.Proof.KArr
import Idealize.ShloMosaic.Lib.Pipeline.Value
import Idealize.ShloMosaic.Lib.ValueIdx

set_option maxRecDepth 16384

noncomputable section

namespace Cert.KernelIdeal.Blocks0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- One entry of one block: if the block's row j 0 of the three row-blocked inputs is the arrays' row i 0, the
    parameters are the arrays whole and the columns agree, the body's stored entry j is the layer's entry i. -/
theorem point (A0 : Vec Ideal S50000x128 .f32) (A1 : Vec Ideal S50000x1 .f32) (A2 : Vec Ideal S50000x128 .f32)
    (A3 : Vec Ideal S256x128 .bf16) (A4 : Vec Ideal S1x256 .f32) (A5 : Vec Ideal S256x128 .bf16)
    (x0 : Vec Ideal S2000x128 .f32) (x1 : Vec Ideal S2000x1 .f32) (x2 : Vec Ideal S2000x128 .f32)
    (x3 : Vec Ideal S256x128 .bf16) (x4 : Vec Ideal S1x256 .f32) (x5 : Vec Ideal S256x128 .bf16)
    (j : S2000x256.Idx) (i : S50000x256.Idx) (hq : (i 1).val = (j 1).val)
    (h0 : ∀ k : Fin 128, x0 (ix2 (j 0) k) = A0 (ix2 (i 0) k))
    (h1 : x1 (ix2 (j 0) (0 : Fin 1)) = A1 (ix2 (i 0) (0 : Fin 1)))
    (h2 : ∀ k : Fin 128, x2 (ix2 (j 0) k) = A2 (ix2 (i 0) k))
    (h3 : x3 = A3) (h4 : x4 = A4) (h5 : x5 = A5) :
    out0_6 (F := Ideal) x0 x1 x2 x3 x4 x5 j = Cert.KernelIdeal.Arr.layerArr128 A0 A1 A2 A3 A4 A5 i := by
  subst h3 h4 h5
  have hj : j = ix2 (j 0) (j 1) := eq_ix2 j
  have hq' : (j 1 : Fin 256) = i 1 := Fin.ext hq.symm
  rw [hj]
  refine (Cert.KernelIdeal.Body.out0_6_at x0 x1 x2 x3 x4 x5 (j 0) (j 1)).trans ?_
  unfold Cert.KernelIdeal.Arr.layerArr128
  exact Cert.Sage.layerAt_congr' (j 0) (i 0) (j 1) (i 1) h0 h1 h2 (fun k => by rw [hq']) (fun k => by rw [hq']) (by rw [hq'])

variable (V : (c : Dev nD) → (b : Ref sig .tc) → Buf (Elt Ideal) ((c : Thread nD τ).loc b))

/-- The printed index maps, decided over the 25 points: the three row-blocked inputs and the output sit at block
    (t, 0), the parameters at block (0, 0). -/
theorem idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Every one of the 25 row blocks is some point's. -/
theorem idx_onto : ∀ q0 : Fin 25, ∃ t : Fin cfg0.N, win0_6.index t (0 : Fin 2) = q0.val ∧ win0_6.index t (1 : Fin 2) = 0 :=
  (by decide +kernel : ∀ q0 : Fin 25, ∃ t : Fin grid0.N, win0_6.index t (0 : Fin 2) = q0.val ∧ win0_6.index t (1 : Fin 2) = 0)

/-- What point t writes back is block t of the layer of the arrays as the region finds them. -/
theorem flushed_eq (c : Dev nD) (t : Fin cfg0.N) :
    (dat0 V c).flushed 6 t = ((cfg0.win 6).blk t).view.read (Elt Ideal)
      (Cert.KernelIdeal.Arr.layerArr128 (V c main_v30) (V c main_v12) (V c main_arg0) (V c main_v13) (V c main_v31) (V c main_v14)) := by
  show (cfg0.win 6).cut (grid0.coords t) ((dat0 V c).after 6 t) = _
  rw [after0_6]
  obtain ⟨e00, e01, e10, e11, e20, e21, e30, e31, e40, e41, e50, e51, e60, e61⟩ := idx t
  funext j
  show out0_6 (F := Ideal) (iblk0 V c 0 t) (iblk0 V c 1 t) (iblk0 V c 2 t) (iblk0 V c 3 t) (iblk0 V c 4 t) (iblk0 V c 5 t) j
    = Cert.KernelIdeal.Arr.layerArr128 (V c main_v30) (V c main_v12) (V c main_arg0) (V c main_v13) (V c main_v31) (V c main_v14) (((cfg0.win 6).blk t).view.emb j)
  refine point (V c main_v30) (V c main_v12) (V c main_arg0) (V c main_v13) (V c main_v31) (V c main_v14)
    (iblk0 V c 0 t) (iblk0 V c 1 t) (iblk0 V c 2 t) (iblk0 V c 3 t) (iblk0 V c 4 t) (iblk0 V c 5 t) j
    (((cfg0.win 6).blk t).view.emb j) ?_ (fun k => ?_) ?_ (fun k => ?_) ?_ ?_ ?_
  · show win0_6.index t (1 : Fin 2) * 256 + 1 * (j 1).val = (j 1).val
    rw [e61]; omega
  · show V c main_v30 (((cfg0.win 0).blk t).view.emb (ix2 (j 0) k)) = V c main_v30 (ix2 ((((cfg0.win 6).blk t).view.emb j) 0) k)
    refine congrArg _ (funext fun a => Fin.ext ?_)
    match a with
    | ⟨0, _⟩ => show win0_0.index t (0 : Fin 2) * 2000 + 1 * (j 0).val = win0_6.index t (0 : Fin 2) * 2000 + 1 * (j 0).val; rw [e00, e60]
    | ⟨1, _⟩ => show win0_0.index t (1 : Fin 2) * 128 + 1 * k.val = k.val; rw [e01]; omega
  · show V c main_v12 (((cfg0.win 1).blk t).view.emb (ix2 (j 0) (0 : Fin 1))) = V c main_v12 (ix2 ((((cfg0.win 6).blk t).view.emb j) 0) (0 : Fin 1))
    refine congrArg _ (funext fun a => Fin.ext ?_)
    match a with
    | ⟨0, _⟩ => show win0_1.index t (0 : Fin 2) * 2000 + 1 * (j 0).val = win0_6.index t (0 : Fin 2) * 2000 + 1 * (j 0).val; rw [e10, e60]
    | ⟨1, _⟩ => show win0_1.index t (1 : Fin 2) * 1 + 1 * 0 = 0; rw [e11]
  · show V c main_arg0 (((cfg0.win 2).blk t).view.emb (ix2 (j 0) k)) = V c main_arg0 (ix2 ((((cfg0.win 6).blk t).view.emb j) 0) k)
    refine congrArg _ (funext fun a => Fin.ext ?_)
    match a with
    | ⟨0, _⟩ => show win0_2.index t (0 : Fin 2) * 2000 + 1 * (j 0).val = win0_6.index t (0 : Fin 2) * 2000 + 1 * (j 0).val; rw [e20, e60]
    | ⟨1, _⟩ => show win0_2.index t (1 : Fin 2) * 128 + 1 * k.val = k.val; rw [e21]; omega
  · funext y
    show V c main_v13 (((cfg0.win 3).blk t).view.emb y) = V c main_v13 y
    refine congrArg _ (funext fun a => Fin.ext ?_)
    match a with
    | ⟨0, _⟩ => show win0_3.index t (0 : Fin 2) * 256 + 1 * (y 0).val = (y 0).val; rw [e30]; omega
    | ⟨1, _⟩ => show win0_3.index t (1 : Fin 2) * 128 + 1 * (y 1).val = (y 1).val; rw [e31]; omega
  · funext y
    show V c main_v31 (((cfg0.win 4).blk t).view.emb y) = V c main_v31 y
    refine congrArg _ (funext fun a => Fin.ext ?_)
    match a with
    | ⟨0, _⟩ => show win0_4.index t (0 : Fin 2) * 1 + 1 * (y 0).val = (y 0).val; rw [e40]; omega
    | ⟨1, _⟩ => show win0_4.index t (1 : Fin 2) * 256 + 1 * (y 1).val = (y 1).val; rw [e41]; omega
  · funext y
    show V c main_v14 (((cfg0.win 5).blk t).view.emb y) = V c main_v14 y
    refine congrArg _ (funext fun a => Fin.ext ?_)
    match a with
    | ⟨0, _⟩ => show win0_5.index t (0 : Fin 2) * 256 + 1 * (y 0).val = (y 0).val; rw [e50]; omega
    | ⟨1, _⟩ => show win0_5.index t (1 : Fin 2) * 128 + 1 * (y 1).val = (y 1).val; rw [e51]; omega

/-- An index of the result array is in point t's block iff each coordinate is in the block's range on its axis. -/
theorem mem_blk (t : Fin cfg0.N) (i : S50000x256.Idx) :
    i ∈ ((cfg0.win 6).blk t).view.set ↔ ∀ a : Fin 2, win0_6.index t a * S2000x256.size a ≤ (i a).val ∧ (i a).val < win0_6.index t a * S2000x256.size a + S2000x256.size a := by
  show i ∈ ((View.whole main_v32).slice (win0_6.rect t)).set ↔ _
  rw [View.set_slice_whole, Rect.mem_set_unit]
  exact Iff.rfl

/-- The 25 blocks tile the array: row r is in the block of point r / 2000. -/
theorem cover (i : S50000x256.Idx) : ∃ t : Fin cfg0.N, (cfg0.win 6).flush t = true ∧ i ∈ ((cfg0.win 6).blk t).view.set := by
  have hi0 : (i 0).val < 50000 := (i 0).isLt
  have hi1 : (i 1).val < 256 := (i 1).isLt
  obtain ⟨t, ht0, ht1⟩ := idx_onto ⟨(i 0).val / 2000, by omega⟩
  refine ⟨t, flush0_6 t, ?_⟩
  rw [mem_blk]
  intro a
  match a with
  | ⟨0, _⟩ => show win0_6.index t (0 : Fin 2) * 2000 ≤ (i 0).val ∧ (i 0).val < win0_6.index t (0 : Fin 2) * 2000 + 2000; rw [ht0]; show (i 0).val / 2000 * 2000 ≤ (i 0).val ∧ (i 0).val < (i 0).val / 2000 * 2000 + 2000; omega
  | ⟨1, _⟩ => show win0_6.index t (1 : Fin 2) * 256 ≤ (i 1).val ∧ (i 1).val < win0_6.index t (1 : Fin 2) * 256 + 256; rw [ht1]; omega

/-- After the region the result array is the layer of the arrays the region found. -/
theorem final (c : Dev nD) : (dat0 V c).arrAt 6 cfg0.N
    = Cert.KernelIdeal.Arr.layerArr128 (V c main_v30) (V c main_v12) (V c main_arg0) (V c main_v13) (V c main_v31) (V c main_v14) :=
  (dat0 V c).arrAt_eq_of_cover 6 _ (fun t _ => flushed_eq V c t) cover

end Cert.KernelIdeal.Blocks0

end
-- ==== Proof.Blocks1.lean ====
/-
  REGION 1: FROM THE BLOCKS TO THE ARRAY.

  The transform kernel runs on 25 grid points; point t loads rows 2000·t … 2000·t + 1999 of the aggregated sums, of
  the scale column and of the node features, the two weight matrices and the bias row whole, and writes back rows
  2000·t … 2000·t + 1999 of the result. What it writes is the layer's entry at the array's own coordinates: row
  2000·t + p of the result depends on row 2000·t + p of the inputs only. The 25 blocks of 2000 rows tile the 50000
  rows, so after the region the result array is the layer of the arrays the region found, entry by entry.
-/
import proofs.«140199_j83305185673529_2_alg».proof.Proof.Gen.KernelIdeal.Frame
import proofs.«140199_j83305185673529_2_alg».proof.Proof.Spec
import proofs.«140199_j83305185673529_2_alg».proof.Proof.KBody
import proofs.«140199_j83305185673529_2_alg».proof.Proof.KArr
import Idealize.ShloMosaic.Lib.Pipeline.Value
import Idealize.ShloMosaic.Lib.ValueIdx

set_option maxRecDepth 16384

noncomputable section

namespace Cert.KernelIdeal.Blocks1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- One entry of one block: if the block's row j 0 of the three row-blocked inputs is the arrays' row i 0, the
    parameters are the arrays whole and the columns agree, the body's stored entry j is the layer's entry i. -/
theorem point (A0 : Vec Ideal S50000x256 .f32) (A1 : Vec Ideal S50000x1 .f32) (A2 : Vec Ideal S50000x256 .bf16)
    (A3 : Vec Ideal S256x256 .bf16) (A4 : Vec Ideal S1x256 .f32) (A5 : Vec Ideal S256x256 .bf16)
    (x0 : Vec Ideal S2000x256 .f32) (x1 : Vec Ideal S2000x1 .f32) (x2 : Vec Ideal S2000x256 .bf16)
    (x3 : Vec Ideal S256x256 .bf16) (x4 : Vec Ideal S1x256 .f32) (x5 : Vec Ideal S256x256 .bf16)
    (j : S2000x256.Idx) (i : S50000x256.Idx) (hq : (i 1).val = (j 1).val)
    (h0 : ∀ k : Fin 256, x0 (ix2 (j 0) k) = A0 (ix2 (i 0) k))
    (h1 : x1 (ix2 (j 0) (0 : Fin 1)) = A1 (ix2 (i 0) (0 : Fin 1)))
    (h2 : ∀ k : Fin 256, x2 (ix2 (j 0) k) = A2 (ix2 (i 0) k))
    (h3 : x3 = A3) (h4 : x4 = A4) (h5 : x5 = A5) :
    out1_6 (F := Ideal) x0 x1 x2 x3 x4 x5 j = Cert.KernelIdeal.Arr.layerArr256 A0 A1 A2 A3 A4 A5 i := by
  subst h3 h4 h5
  have hj : j = ix2 (j 0) (j 1) := eq_ix2 j
  have hq' : (j 1 : Fin 256) = i 1 := Fin.ext hq.symm
  rw [hj]
  refine (Cert.KernelIdeal.Body.out1_6_at x0 x1 x2 x3 x4 x5 (j 0) (j 1)).trans ?_
  unfold Cert.KernelIdeal.Arr.layerArr256
  exact Cert.Sage.layerAt_congr' (j 0) (i 0) (j 1) (i 1) h0 h1 h2 (fun k => by rw [hq']) (fun k => by rw [hq']) (by rw [hq'])

variable (V : (c : Dev nD) → (b : Ref sig .tc) → Buf (Elt Ideal) ((c : Thread nD τ).loc b))

/-- The printed index maps, decided over the 25 points: the three row-blocked inputs and the output sit at block
    (t, 0), the parameters at block (0, 0). -/
theorem idx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Every one of the 25 row blocks is some point's. -/
theorem idx_onto : ∀ q0 : Fin 25, ∃ t : Fin cfg1.N, win1_6.index t (0 : Fin 2) = q0.val ∧ win1_6.index t (1 : Fin 2) = 0 :=
  (by decide +kernel : ∀ q0 : Fin 25, ∃ t : Fin grid1.N, win1_6.index t (0 : Fin 2) = q0.val ∧ win1_6.index t (1 : Fin 2) = 0)

/-- What point t writes back is block t of the layer of the arrays as the region finds them. -/
theorem flushed_eq (c : Dev nD) (t : Fin cfg1.N) :
    (dat1 V c).flushed 6 t = ((cfg1.win 6).blk t).view.read (Elt Ideal)
      (Cert.KernelIdeal.Arr.layerArr256 (V c main_v43) (V c main_v12) (V c main_v32) (V c main_v15) (V c main_v44) (V c main_v16)) := by
  show (cfg1.win 6).cut (grid1.coords t) ((dat1 V c).after 6 t) = _
  rw [after1_6]
  obtain ⟨e00, e01, e10, e11, e20, e21, e30, e31, e40, e41, e50, e51, e60, e61⟩ := idx t
  funext j
  show out1_6 (F := Ideal) (iblk1 V c 0 t) (iblk1 V c 1 t) (iblk1 V c 2 t) (iblk1 V c 3 t) (iblk1 V c 4 t) (iblk1 V c 5 t) j
    = Cert.KernelIdeal.Arr.layerArr256 (V c main_v43) (V c main_v12) (V c main_v32) (V c main_v15) (V c main_v44) (V c main_v16) (((cfg1.win 6).blk t).view.emb j)
  refine point (V c main_v43) (V c main_v12) (V c main_v32) (V c main_v15) (V c main_v44) (V c main_v16)
    (iblk1 V c 0 t) (iblk1 V c 1 t) (iblk1 V c 2 t) (iblk1 V c 3 t) (iblk1 V c 4 t) (iblk1 V c 5 t) j
    (((cfg1.win 6).blk t).view.emb j) ?_ (fun k => ?_) ?_ (fun k => ?_) ?_ ?_ ?_
  · show win1_6.index t (1 : Fin 2) * 256 + 1 * (j 1).val = (j 1).val
    rw [e61]; omega
  · show V c main_v43 (((cfg1.win 0).blk t).view.emb (ix2 (j 0) k)) = V c main_v43 (ix2 ((((cfg1.win 6).blk t).view.emb j) 0) k)
    refine congrArg _ (funext fun a => Fin.ext ?_)
    match a with
    | ⟨0, _⟩ => show win1_0.index t (0 : Fin 2) * 2000 + 1 * (j 0).val = win1_6.index t (0 : Fin 2) * 2000 + 1 * (j 0).val; rw [e00, e60]
    | ⟨1, _⟩ => show win1_0.index t (1 : Fin 2) * 256 + 1 * k.val = k.val; rw [e01]; omega
  · show V c main_v12 (((cfg1.win 1).blk t).view.emb (ix2 (j 0) (0 : Fin 1))) = V c main_v12 (ix2 ((((cfg1.win 6).blk t).view.emb j) 0) (0 : Fin 1))
    refine congrArg _ (funext fun a => Fin.ext ?_)
    match a with
    | ⟨0, _⟩ => show win1_1.index t (0 : Fin 2) * 2000 + 1 * (j 0).val = win1_6.index t (0 : Fin 2) * 2000 + 1 * (j 0).val; rw [e10, e60]
    | ⟨1, _⟩ => show win1_1.index t (1 : Fin 2) * 1 + 1 * 0 = 0; rw [e11]
  · show V c main_v32 (((cfg1.win 2).blk t).view.emb (ix2 (j 0) k)) = V c main_v32 (ix2 ((((cfg1.win 6).blk t).view.emb j) 0) k)
    refine congrArg _ (funext fun a => Fin.ext ?_)
    match a with
    | ⟨0, _⟩ => show win1_2.index t (0 : Fin 2) * 2000 + 1 * (j 0).val = win1_6.index t (0 : Fin 2) * 2000 + 1 * (j 0).val; rw [e20, e60]
    | ⟨1, _⟩ => show win1_2.index t (1 : Fin 2) * 256 + 1 * k.val = k.val; rw [e21]; omega
  · funext y
    show V c main_v15 (((cfg1.win 3).blk t).view.emb y) = V c main_v15 y
    refine congrArg _ (funext fun a => Fin.ext ?_)
    match a with
    | ⟨0, _⟩ => show win1_3.index t (0 : Fin 2) * 256 + 1 * (y 0).val = (y 0).val; rw [e30]; omega
    | ⟨1, _⟩ => show win1_3.index t (1 : Fin 2) * 256 + 1 * (y 1).val = (y 1).val; rw [e31]; omega
  · funext y
    show V c main_v44 (((cfg1.win 4).blk t).view.emb y) = V c main_v44 y
    refine congrArg _ (funext fun a => Fin.ext ?_)
    match a with
    | ⟨0, _⟩ => show win1_4.index t (0 : Fin 2) * 1 + 1 * (y 0).val = (y 0).val; rw [e40]; omega
    | ⟨1, _⟩ => show win1_4.index t (1 : Fin 2) * 256 + 1 * (y 1).val = (y 1).val; rw [e41]; omega
  · funext y
    show V c main_v16 (((cfg1.win 5).blk t).view.emb y) = V c main_v16 y
    refine congrArg _ (funext fun a => Fin.ext ?_)
    match a with
    | ⟨0, _⟩ => show win1_5.index t (0 : Fin 2) * 256 + 1 * (y 0).val = (y 0).val; rw [e50]; omega
    | ⟨1, _⟩ => show win1_5.index t (1 : Fin 2) * 256 + 1 * (y 1).val = (y 1).val; rw [e51]; omega

/-- An index of the result array is in point t's block iff each coordinate is in the block's range on its axis. -/
theorem mem_blk (t : Fin cfg1.N) (i : S50000x256.Idx) :
    i ∈ ((cfg1.win 6).blk t).view.set ↔ ∀ a : Fin 2, win1_6.index t a * S2000x256.size a ≤ (i a).val ∧ (i a).val < win1_6.index t a * S2000x256.size a + S2000x256.size a := by
  show i ∈ ((View.whole main_v45).slice (win1_6.rect t)).set ↔ _
  rw [View.set_slice_whole, Rect.mem_set_unit]
  exact Iff.rfl

/-- The 25 blocks tile the array: row r is in the block of point r / 2000. -/
theorem cover (i : S50000x256.Idx) : ∃ t : Fin cfg1.N, (cfg1.win 6).flush t = true ∧ i ∈ ((cfg1.win 6).blk t).view.set := by
  have hi0 : (i 0).val < 50000 := (i 0).isLt
  have hi1 : (i 1).val < 256 := (i 1).isLt
  obtain ⟨t, ht0, ht1⟩ := idx_onto ⟨(i 0).val / 2000, by omega⟩
  refine ⟨t, flush1_6 t, ?_⟩
  rw [mem_blk]
  intro a
  match a with
  | ⟨0, _⟩ => show win1_6.index t (0 : Fin 2) * 2000 ≤ (i 0).val ∧ (i 0).val < win1_6.index t (0 : Fin 2) * 2000 + 2000; rw [ht0]; show (i 0).val / 2000 * 2000 ≤ (i 0).val ∧ (i 0).val < (i 0).val / 2000 * 2000 + 2000; omega
  | ⟨1, _⟩ => show win1_6.index t (1 : Fin 2) * 256 ≤ (i 1).val ∧ (i 1).val < win1_6.index t (1 : Fin 2) * 256 + 256; rw [ht1]; omega

/-- After the region the result array is the layer of the arrays the region found. -/
theorem final (c : Dev nD) : (dat1 V c).arrAt 6 cfg1.N
    = Cert.KernelIdeal.Arr.layerArr256 (V c main_v43) (V c main_v12) (V c main_v32) (V c main_v15) (V c main_v44) (V c main_v16) :=
  (dat1 V c).arrAt_eq_of_cover 6 _ (fun t _ => flushed_eq V c t) cover

end Cert.KernelIdeal.Blocks1

end
-- ==== Proof.Blocks2.lean ====
/-
  REGION 2: FROM THE BLOCKS TO THE ARRAY.

  The transform kernel runs on 25 grid points; point t loads rows 2000·t … 2000·t + 1999 of the aggregated sums, of
  the scale column and of the node features, the two weight matrices and the bias row whole, and writes back rows
  2000·t … 2000·t + 1999 of the result. What it writes is the layer's entry at the array's own coordinates: row
  2000·t + p of the result depends on row 2000·t + p of the inputs only. The 25 blocks of 2000 rows tile the 50000
  rows, so after the region the result array is the layer of the arrays the region found, entry by entry.
-/
import proofs.«140199_j83305185673529_2_alg».proof.Proof.Gen.KernelIdeal.Frame
import proofs.«140199_j83305185673529_2_alg».proof.Proof.Spec
import proofs.«140199_j83305185673529_2_alg».proof.Proof.KBody
import proofs.«140199_j83305185673529_2_alg».proof.Proof.KArr
import Idealize.ShloMosaic.Lib.Pipeline.Value
import Idealize.ShloMosaic.Lib.ValueIdx

set_option maxRecDepth 16384

noncomputable section

namespace Cert.KernelIdeal.Blocks2

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- One entry of one block: if the block's row j 0 of the three row-blocked inputs is the arrays' row i 0, the
    parameters are the arrays whole and the columns agree, the body's stored entry j is the layer's entry i. -/
theorem point (A0 : Vec Ideal S50000x256 .f32) (A1 : Vec Ideal S50000x1 .f32) (A2 : Vec Ideal S50000x256 .bf16)
    (A3 : Vec Ideal S256x256 .bf16) (A4 : Vec Ideal S1x256 .f32) (A5 : Vec Ideal S256x256 .bf16)
    (x0 : Vec Ideal S2000x256 .f32) (x1 : Vec Ideal S2000x1 .f32) (x2 : Vec Ideal S2000x256 .bf16)
    (x3 : Vec Ideal S256x256 .bf16) (x4 : Vec Ideal S1x256 .f32) (x5 : Vec Ideal S256x256 .bf16)
    (j : S2000x256.Idx) (i : S50000x256.Idx) (hq : (i 1).val = (j 1).val)
    (h0 : ∀ k : Fin 256, x0 (ix2 (j 0) k) = A0 (ix2 (i 0) k))
    (h1 : x1 (ix2 (j 0) (0 : Fin 1)) = A1 (ix2 (i 0) (0 : Fin 1)))
    (h2 : ∀ k : Fin 256, x2 (ix2 (j 0) k) = A2 (ix2 (i 0) k))
    (h3 : x3 = A3) (h4 : x4 = A4) (h5 : x5 = A5) :
    out2_6 (F := Ideal) x0 x1 x2 x3 x4 x5 j = Cert.KernelIdeal.Arr.layerArr256 A0 A1 A2 A3 A4 A5 i := by
  subst h3 h4 h5
  have hj : j = ix2 (j 0) (j 1) := eq_ix2 j
  have hq' : (j 1 : Fin 256) = i 1 := Fin.ext hq.symm
  rw [hj]
  refine (Cert.KernelIdeal.Body.out2_6_at x0 x1 x2 x3 x4 x5 (j 0) (j 1)).trans ?_
  unfold Cert.KernelIdeal.Arr.layerArr256
  exact Cert.Sage.layerAt_congr' (j 0) (i 0) (j 1) (i 1) h0 h1 h2 (fun k => by rw [hq']) (fun k => by rw [hq']) (by rw [hq'])

variable (V : (c : Dev nD) → (b : Ref sig .tc) → Buf (Elt Ideal) ((c : Thread nD τ).loc b))

/-- The printed index maps, decided over the 25 points: the three row-blocked inputs and the output sit at block
    (t, 0), the parameters at block (0, 0). -/
theorem idx : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Every one of the 25 row blocks is some point's. -/
theorem idx_onto : ∀ q0 : Fin 25, ∃ t : Fin cfg2.N, win2_6.index t (0 : Fin 2) = q0.val ∧ win2_6.index t (1 : Fin 2) = 0 :=
  (by decide +kernel : ∀ q0 : Fin 25, ∃ t : Fin grid2.N, win2_6.index t (0 : Fin 2) = q0.val ∧ win2_6.index t (1 : Fin 2) = 0)

/-- What point t writes back is block t of the layer of the arrays as the region finds them. -/
theorem flushed_eq (c : Dev nD) (t : Fin cfg2.N) :
    (dat2 V c).flushed 6 t = ((cfg2.win 6).blk t).view.read (Elt Ideal)
      (Cert.KernelIdeal.Arr.layerArr256 (V c main_v56) (V c main_v12) (V c main_v45) (V c main_v17) (V c main_v57) (V c main_v18)) := by
  show (cfg2.win 6).cut (grid2.coords t) ((dat2 V c).after 6 t) = _
  rw [after2_6]
  obtain ⟨e00, e01, e10, e11, e20, e21, e30, e31, e40, e41, e50, e51, e60, e61⟩ := idx t
  funext j
  show out2_6 (F := Ideal) (iblk2 V c 0 t) (iblk2 V c 1 t) (iblk2 V c 2 t) (iblk2 V c 3 t) (iblk2 V c 4 t) (iblk2 V c 5 t) j
    = Cert.KernelIdeal.Arr.layerArr256 (V c main_v56) (V c main_v12) (V c main_v45) (V c main_v17) (V c main_v57) (V c main_v18) (((cfg2.win 6).blk t).view.emb j)
  refine point (V c main_v56) (V c main_v12) (V c main_v45) (V c main_v17) (V c main_v57) (V c main_v18)
    (iblk2 V c 0 t) (iblk2 V c 1 t) (iblk2 V c 2 t) (iblk2 V c 3 t) (iblk2 V c 4 t) (iblk2 V c 5 t) j
    (((cfg2.win 6).blk t).view.emb j) ?_ (fun k => ?_) ?_ (fun k => ?_) ?_ ?_ ?_
  · show win2_6.index t (1 : Fin 2) * 256 + 1 * (j 1).val = (j 1).val
    rw [e61]; omega
  · show V c main_v56 (((cfg2.win 0).blk t).view.emb (ix2 (j 0) k)) = V c main_v56 (ix2 ((((cfg2.win 6).blk t).view.emb j) 0) k)
    refine congrArg _ (funext fun a => Fin.ext ?_)
    match a with
    | ⟨0, _⟩ => show win2_0.index t (0 : Fin 2) * 2000 + 1 * (j 0).val = win2_6.index t (0 : Fin 2) * 2000 + 1 * (j 0).val; rw [e00, e60]
    | ⟨1, _⟩ => show win2_0.index t (1 : Fin 2) * 256 + 1 * k.val = k.val; rw [e01]; omega
  · show V c main_v12 (((cfg2.win 1).blk t).view.emb (ix2 (j 0) (0 : Fin 1))) = V c main_v12 (ix2 ((((cfg2.win 6).blk t).view.emb j) 0) (0 : Fin 1))
    refine congrArg _ (funext fun a => Fin.ext ?_)
    match a with
    | ⟨0, _⟩ => show win2_1.index t (0 : Fin 2) * 2000 + 1 * (j 0).val = win2_6.index t (0 : Fin 2) * 2000 + 1 * (j 0).val; rw [e10, e60]
    | ⟨1, _⟩ => show win2_1.index t (1 : Fin 2) * 1 + 1 * 0 = 0; rw [e11]
  · show V c main_v45 (((cfg2.win 2).blk t).view.emb (ix2 (j 0) k)) = V c main_v45 (ix2 ((((cfg2.win 6).blk t).view.emb j) 0) k)
    refine congrArg _ (funext fun a => Fin.ext ?_)
    match a with
    | ⟨0, _⟩ => show win2_2.index t (0 : Fin 2) * 2000 + 1 * (j 0).val = win2_6.index t (0 : Fin 2) * 2000 + 1 * (j 0).val; rw [e20, e60]
    | ⟨1, _⟩ => show win2_2.index t (1 : Fin 2) * 256 + 1 * k.val = k.val; rw [e21]; omega
  · funext y
    show V c main_v17 (((cfg2.win 3).blk t).view.emb y) = V c main_v17 y
    refine congrArg _ (funext fun a => Fin.ext ?_)
    match a with
    | ⟨0, _⟩ => show win2_3.index t (0 : Fin 2) * 256 + 1 * (y 0).val = (y 0).val; rw [e30]; omega
    | ⟨1, _⟩ => show win2_3.index t (1 : Fin 2) * 256 + 1 * (y 1).val = (y 1).val; rw [e31]; omega
  · funext y
    show V c main_v57 (((cfg2.win 4).blk t).view.emb y) = V c main_v57 y
    refine congrArg _ (funext fun a => Fin.ext ?_)
    match a with
    | ⟨0, _⟩ => show win2_4.index t (0 : Fin 2) * 1 + 1 * (y 0).val = (y 0).val; rw [e40]; omega
    | ⟨1, _⟩ => show win2_4.index t (1 : Fin 2) * 256 + 1 * (y 1).val = (y 1).val; rw [e41]; omega
  · funext y
    show V c main_v18 (((cfg2.win 5).blk t).view.emb y) = V c main_v18 y
    refine congrArg _ (funext fun a => Fin.ext ?_)
    match a with
    | ⟨0, _⟩ => show win2_5.index t (0 : Fin 2) * 256 + 1 * (y 0).val = (y 0).val; rw [e50]; omega
    | ⟨1, _⟩ => show win2_5.index t (1 : Fin 2) * 256 + 1 * (y 1).val = (y 1).val; rw [e51]; omega

/-- An index of the result array is in point t's block iff each coordinate is in the block's range on its axis. -/
theorem mem_blk (t : Fin cfg2.N) (i : S50000x256.Idx) :
    i ∈ ((cfg2.win 6).blk t).view.set ↔ ∀ a : Fin 2, win2_6.index t a * S2000x256.size a ≤ (i a).val ∧ (i a).val < win2_6.index t a * S2000x256.size a + S2000x256.size a := by
  show i ∈ ((View.whole main_v58).slice (win2_6.rect t)).set ↔ _
  rw [View.set_slice_whole, Rect.mem_set_unit]
  exact Iff.rfl

/-- The 25 blocks tile the array: row r is in the block of point r / 2000. -/
theorem cover (i : S50000x256.Idx) : ∃ t : Fin cfg2.N, (cfg2.win 6).flush t = true ∧ i ∈ ((cfg2.win 6).blk t).view.set := by
  have hi0 : (i 0).val < 50000 := (i 0).isLt
  have hi1 : (i 1).val < 256 := (i 1).isLt
  obtain ⟨t, ht0, ht1⟩ := idx_onto ⟨(i 0).val / 2000, by omega⟩
  refine ⟨t, flush2_6 t, ?_⟩
  rw [mem_blk]
  intro a
  match a with
  | ⟨0, _⟩ => show win2_6.index t (0 : Fin 2) * 2000 ≤ (i 0).val ∧ (i 0).val < win2_6.index t (0 : Fin 2) * 2000 + 2000; rw [ht0]; show (i 0).val / 2000 * 2000 ≤ (i 0).val ∧ (i 0).val < (i 0).val / 2000 * 2000 + 2000; omega
  | ⟨1, _⟩ => show win2_6.index t (1 : Fin 2) * 256 ≤ (i 1).val ∧ (i 1).val < win2_6.index t (1 : Fin 2) * 256 + 256; rw [ht1]; omega

/-- After the region the result array is the layer of the arrays the region found. -/
theorem final (c : Dev nD) : (dat2 V c).arrAt 6 cfg2.N
    = Cert.KernelIdeal.Arr.layerArr256 (V c main_v56) (V c main_v12) (V c main_v45) (V c main_v17) (V c main_v57) (V c main_v18) :=
  (dat2 V c).arrAt_eq_of_cover 6 _ (fun t _ => flushed_eq V c t) cover

end Cert.KernelIdeal.Blocks2

end
-- ==== Proof.Blocks3.lean ====
/-
  THE HEAD REGION: FROM ITS ONE BLOCK TO THE ARRAY.

  The head kernel runs at a single grid point with every operand whole: the pooled features, the two weight matrices
  and the two bias rows are loaded as they are, and the 64-by-10 result is written back whole. So after the region the
  result array is the head of the arrays the region found, entry by entry.
-/
import proofs.«140199_j83305185673529_2_alg».proof.Proof.Gen.KernelIdeal.Frame
import proofs.«140199_j83305185673529_2_alg».proof.Proof.Spec
import proofs.«140199_j83305185673529_2_alg».proof.Proof.KBody
import proofs.«140199_j83305185673529_2_alg».proof.Proof.KArr
import Idealize.ShloMosaic.Lib.Pipeline.Value
import Idealize.ShloMosaic.Lib.ValueIdx

set_option maxRecDepth 16384

noncomputable section

namespace Cert.KernelIdeal.Blocks3

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- One entry of the one block: with every loaded block the whole array and the coordinates agreeing, the body's
    stored entry j is the head's entry i. -/
theorem point (A0 : Vec Ideal S64x256 .f32) (A1 : Vec Ideal S128x256 .bf16) (A2 : Vec Ideal S1x128 .f32)
    (A3 : Vec Ideal S10x128 .bf16) (A4 : Vec Ideal S1x10 .f32)
    (x0 : Vec Ideal S64x256 .f32) (x1 : Vec Ideal S128x256 .bf16) (x2 : Vec Ideal S1x128 .f32)
    (x3 : Vec Ideal S10x128 .bf16) (x4 : Vec Ideal S1x10 .f32)
    (j i : S64x10.Idx) (hi0 : (i 0).val = (j 0).val) (hi1 : (i 1).val = (j 1).val)
    (h0 : x0 = A0) (h1 : x1 = A1) (h2 : x2 = A2) (h3 : x3 = A3) (h4 : x4 = A4) :
    out3_5 (F := Ideal) x0 x1 x2 x3 x4 j = Cert.KernelIdeal.Arr.headArr A0 A1 A2 A3 A4 i := by
  subst h0 h1 h2 h3 h4
  have hij : i = j := funext fun a => Fin.ext (by
    match a with
    | ⟨0, _⟩ => exact hi0
    | ⟨1, _⟩ => exact hi1)
  subst hij
  have hj : i = ix2 (i 0) (i 1) := eq_ix2 i
  refine (congrArg (out3_5 (F := Ideal) x0 x1 x2 x3 x4) hj).trans ?_
  exact Cert.KernelIdeal.Body.out3_5_at x0 x1 x2 x3 x4 (i 0) (i 1)

variable (V : (c : Dev nD) → (b : Ref sig .tc) → Buf (Elt Ideal) ((c : Thread nD τ).loc b))

/-- The printed index maps at the one point: every window sits at block (0, 0). -/
theorem idx : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

/-- What the one point writes back is the head of the arrays as the region finds them, read through its block. -/
theorem flushed_eq (c : Dev nD) (t : Fin cfg3.N) :
    (dat3 V c).flushed 5 t = ((cfg3.win 5).blk t).view.read (Elt Ideal)
      (Cert.KernelIdeal.Arr.headArr (V c main_v71) (V c main_v19) (V c main_v72) (V c main_v20) (V c main_v73)) := by
  show (cfg3.win 5).cut (grid3.coords t) ((dat3 V c).after 5 t) = _
  rw [after3_5]
  obtain ⟨e00, e01, e10, e11, e20, e21, e30, e31, e40, e41, e50, e51⟩ := idx t
  funext j
  show out3_5 (F := Ideal) (iblk3 V c 0 t) (iblk3 V c 1 t) (iblk3 V c 2 t) (iblk3 V c 3 t) (iblk3 V c 4 t) j
    = Cert.KernelIdeal.Arr.headArr (V c main_v71) (V c main_v19) (V c main_v72) (V c main_v20) (V c main_v73) (((cfg3.win 5).blk t).view.emb j)
  refine point (V c main_v71) (V c main_v19) (V c main_v72) (V c main_v20) (V c main_v73)
    (iblk3 V c 0 t) (iblk3 V c 1 t) (iblk3 V c 2 t) (iblk3 V c 3 t) (iblk3 V c 4 t) j
    (((cfg3.win 5).blk t).view.emb j) ?_ ?_ ?_ ?_ ?_ ?_ ?_
  · show win3_5.index t (0 : Fin 2) * 64 + 1 * (j 0).val = (j 0).val
    rw [e50]; omega
  · show win3_5.index t (1 : Fin 2) * 10 + 1 * (j 1).val = (j 1).val
    rw [e51]; omega
  · funext y
    show V c main_v71 (((cfg3.win 0).blk t).view.emb y) = V c main_v71 y
    refine congrArg _ (funext fun a => Fin.ext ?_)
    match a with
    | ⟨0, _⟩ => show win3_0.index t (0 : Fin 2) * 64 + 1 * (y 0).val = (y 0).val; rw [e00]; omega
    | ⟨1, _⟩ => show win3_0.index t (1 : Fin 2) * 256 + 1 * (y 1).val = (y 1).val; rw [e01]; omega
  · funext y
    show V c main_v19 (((cfg3.win 1).blk t).view.emb y) = V c main_v19 y
    refine congrArg _ (funext fun a => Fin.ext ?_)
    match a with
    | ⟨0, _⟩ => show win3_1.index t (0 : Fin 2) * 128 + 1 * (y 0).val = (y 0).val; rw [e10]; omega
    | ⟨1, _⟩ => show win3_1.index t (1 : Fin 2) * 256 + 1 * (y 1).val = (y 1).val; rw [e11]; omega
  · funext y
    show V c main_v72 (((cfg3.win 2).blk t).view.emb y) = V c main_v72 y
    refine congrArg _ (funext fun a => Fin.ext ?_)
    match a with
    | ⟨0, _⟩ => show win3_2.index t (0 : Fin 2) * 1 + 1 * (y 0).val = (y 0).val; rw [e20]; omega
    | ⟨1, _⟩ => show win3_2.index t (1 : Fin 2) * 128 + 1 * (y 1).val = (y 1).val; rw [e21]; omega
  · funext y
    show V c main_v20 (((cfg3.win 3).blk t).view.emb y) = V c main_v20 y
    refine congrArg _ (funext fun a => Fin.ext ?_)
    match a with
    | ⟨0, _⟩ => show win3_3.index t (0 : Fin 2) * 10 + 1 * (y 0).val = (y 0).val; rw [e30]; omega
    | ⟨1, _⟩ => show win3_3.index t (1 : Fin 2) * 128 + 1 * (y 1).val = (y 1).val; rw [e31]; omega
  · funext y
    show V c main_v73 (((cfg3.win 4).blk t).view.emb y) = V c main_v73 y
    refine congrArg _ (funext fun a => Fin.ext ?_)
    match a with
    | ⟨0, _⟩ => show win3_4.index t (0 : Fin 2) * 1 + 1 * (y 0).val = (y 0).val; rw [e40]; omega
    | ⟨1, _⟩ => show win3_4.index t (1 : Fin 2) * 10 + 1 * (y 1).val = (y 1).val; rw [e41]; omega

/-- An index of the result array is in the point's block iff each coordinate is in the block's range on its axis. -/
theorem mem_blk (t : Fin cfg3.N) (i : S64x10.Idx) :
    i ∈ ((cfg3.win 5).blk t).view.set ↔ ∀ a : Fin 2, win3_5.index t a * S64x10.size a ≤ (i a).val ∧ (i a).val < win3_5.index t a * S64x10.size a + S64x10.size a := by
  show i ∈ ((View.whole main_v74).slice (win3_5.rect t)).set ↔ _
  rw [View.set_slice_whole, Rect.mem_set_unit]
  exact Iff.rfl

/-- The one block is the whole array. -/
theorem cover (i : S64x10.Idx) : ∃ t : Fin cfg3.N, (cfg3.win 5).flush t = true ∧ i ∈ ((cfg3.win 5).blk t).view.set := by
  have hi0 : (i 0).val < 64 := (i 0).isLt
  have hi1 : (i 1).val < 10 := (i 1).isLt
  obtain ⟨e00, e01, e10, e11, e20, e21, e30, e31, e40, e41, e50, e51⟩ := idx t3_0
  refine ⟨t3_0, flush3_5 t3_0, ?_⟩
  rw [mem_blk]
  intro a
  match a with
  | ⟨0, _⟩ => show win3_5.index t3_0 (0 : Fin 2) * 64 ≤ (i 0).val ∧ (i 0).val < win3_5.index t3_0 (0 : Fin 2) * 64 + 64; rw [e50]; omega
  | ⟨1, _⟩ => show win3_5.index t3_0 (1 : Fin 2) * 10 ≤ (i 1).val ∧ (i 1).val < win3_5.index t3_0 (1 : Fin 2) * 10 + 10; rw [e51]; omega

/-- After the region the result array is the head of the arrays the region found. -/
theorem final (c : Dev nD) : (dat3 V c).arrAt 5 cfg3.N
    = Cert.KernelIdeal.Arr.headArr (V c main_v71) (V c main_v19) (V c main_v72) (V c main_v20) (V c main_v73) :=
  (dat3 V c).arrAt_eq_of_cover 5 _ (fun t _ => flushed_eq V c t) cover

end Cert.KernelIdeal.Blocks3

end
-- ==== Proof.RefLayers.lean ====
/-
  THE REFERENCE'S LAYERS AND HEAD, AT AN ENTRY.

  The reference divides the aggregated sums by the clamped degree, multiplies by the transposed weights, adds the bias
  row and the root term and takes the positive part. Entry (r, q) of each layer's result is the layer's entry of the
  aggregated sums, the scale 1 / max (degree r) 1, the previous features and the parameters: the transposed weight read at
  (k, q) is the weight at (q, k), a row or column repeated reads its one entry, the quotient by the clamped degree is the
  product with its reciprocal (the clamped degree is never zero), and the f32 words 0x3F800000 and 0 are one and zero.
  The head likewise.
-/
import proofs.«140199_j83305185673529_2_alg».proof.Proof.Gen.ReferenceIdeal.Read
import proofs.«140199_j83305185673529_2_alg».proof.Proof.Spec
import Idealize.ShloMosaic.Lib.ValueIdx
import Idealize.ShloMosaic.Lib.IdealHost
import Idealize.ShloMosaic.Lib.Pipeline.Value
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx

/-! ## Layer 1 -/

theorem lidx24_at (r : Fin 50000) (q : Fin 256) (k : Fin 128) : lidx_main_v24 (ix2 r q) k = ix2 r k :=
  funext fun a => Fin.ext (by match a with | ⟨0, _⟩ => rfl | ⟨1, _⟩ => rfl)

theorem ridx24_at (r : Fin 50000) (q : Fin 256) (k : Fin 128) : idx_main_v23 (ridx_main_v24 (ix2 r q) k) = ix2 q k :=
  funext fun a => Fin.ext (by match a with | ⟨0, _⟩ => rfl | ⟨1, _⟩ => rfl)

theorem lidx29_at (r : Fin 50000) (q : Fin 256) (k : Fin 128) : lidx_main_v29 (ix2 r q) k = ix2 r k :=
  funext fun a => Fin.ext (by match a with | ⟨0, _⟩ => rfl | ⟨1, _⟩ => rfl)

theorem ridx29_at (r : Fin 50000) (q : Fin 256) (k : Fin 128) : idx_main_v28 (ridx_main_v29 (ix2 r q) k) = ix2 q k :=
  funext fun a => Fin.ext (by match a with | ⟨0, _⟩ => rfl | ⟨1, _⟩ => rfl)

theorem idx20_at (r : Fin 50000) (k : Fin 128) : idx_main_v20 (idx_main_v21 (ix2 r k)) = ix1 r :=
  funext fun a => Fin.ext (by match a with | ⟨0, _⟩ => rfl)

theorem idx25_at (r : Fin 50000) (q : Fin 256) : idx_main_v25 (idx_main_v26 (ix2 r q)) = ix1 q :=
  funext fun a => Fin.ext (by match a with | ⟨0, _⟩ => rfl)

/-- The aggregated sums divided by the clamped degree, at an entry: the product with the reciprocal. -/
theorem scaled1_at (x0 : (⟨S50000x128, .f32⟩ : BufTy).Contents (Elt Ideal)) (x1 : (⟨S2x800000, .i32⟩ : BufTy).Contents (Elt Ideal)) (r : Fin 50000) (k : Fin 128) :
    val_main_v22 (F := Ideal) x0 x1 (ix2 r k)
      = val_main_v13 (F := Ideal) x0 x1 (ix2 r k) * Ideal.div 1 (max (val_main_v17 (F := Ideal) x1 (ix1 r)) 1) := by
  rw [val_main_v22_apply, val_main_v21_apply, val_main_v20_apply, val_main_v19_apply, val_main_v18_apply,
    val_main_cst_3_apply, idx20_at]
  simp only [Ideal.hostDivf_def, Ideal.maximumf_def, Ideal.ofBits_def, Ideal.ofBits_one_f32]
  exact (Cert.Sage.mul_recip_max_one _ _).symm

/-- The scaled sums times the transposed left weight, at an entry. -/
theorem left1_at (x0 : (⟨S50000x128, .f32⟩ : BufTy).Contents (Elt Ideal)) (x1 : (⟨S2x800000, .i32⟩ : BufTy).Contents (Elt Ideal)) (x3 : (⟨S256x128, .f32⟩ : BufTy).Contents (Elt Ideal)) (r : Fin 50000) (q : Fin 256) :
    val_main_v24 (F := Ideal) x0 x1 x3 (ix2 r q)
      = ∑ k : Fin 128, (val_main_v13 (F := Ideal) x0 x1 (ix2 r k) * Ideal.div 1 (max (val_main_v17 (F := Ideal) x1 (ix1 r)) 1)) * x3 (ix2 q k) := by
  rw [val_main_v24_apply]
  refine Finset.sum_congr rfl fun k _ => ?_
  rw [lidx24_at, scaled1_at, val_main_v23_apply, ridx24_at]

/-- The previous features times the transposed right weight, at an entry. -/
theorem right1_at (x0 : (⟨S50000x128, .f32⟩ : BufTy).Contents (Elt Ideal)) (x5 : (⟨S256x128, .f32⟩ : BufTy).Contents (Elt Ideal)) (r : Fin 50000) (q : Fin 256) :
    val_main_v29 (F := Ideal) x0 x5 (ix2 r q)
      = ∑ k : Fin 128, x0 (ix2 r k) * x5 (ix2 q k) := by
  rw [val_main_v29_apply]
  refine Finset.sum_congr rfl fun k _ => ?_
  rw [lidx29_at, val_main_v28_apply, ridx29_at]

/-- The bias row repeated down the rows reads its one entry. -/
theorem bias1_at (x4 : (⟨S256, .f32⟩ : BufTy).Contents (Elt Ideal)) (r : Fin 50000) (q : Fin 256) :
    val_main_v26 (F := Ideal) x4 (ix2 r q) = x4 (ix1 q) := by
  rw [val_main_v26_apply, val_main_v25_apply, idx25_at]

/-- The positive part's constant is zero. -/
theorem zero1_at (i : S50000x256.Idx) : val_main_call0_v0 (F := Ideal) i = 0 := by
  rw [val_main_call0_v0_apply, val_main_call0_cst_apply]
  exact Ideal.ofBits_zero_f32

theorem layer1_at (x0 : (⟨S50000x128, .f32⟩ : BufTy).Contents (Elt Ideal)) (x1 : (⟨S2x800000, .i32⟩ : BufTy).Contents (Elt Ideal)) (x3 : (⟨S256x128, .f32⟩ : BufTy).Contents (Elt Ideal)) (x4 : (⟨S256, .f32⟩ : BufTy).Contents (Elt Ideal)) (x5 : (⟨S256x128, .f32⟩ : BufTy).Contents (Elt Ideal)) (r : Fin 50000) (q : Fin 256) :
    val_main_v31 (F := Ideal) x0 x1 x3 x4 x5 (ix2 r q)
      = Cert.Sage.layerAt (fun r k => val_main_v13 (F := Ideal) x0 x1 (ix2 r k))
          (fun r => Ideal.div 1 (max (val_main_v17 (F := Ideal) x1 (ix1 r)) 1))
          (fun r k => x0 (ix2 r k)) (fun j k => x3 (ix2 j k)) (fun j k => x5 (ix2 j k)) (fun j => x4 (ix1 j)) r q := by
  rw [val_main_v31_apply, val_main_v30_apply, val_main_v27_apply, left1_at, right1_at, bias1_at, zero1_at]
  simp only [Ideal.maximumf_def, Ideal.addf_def]
  rfl

/-! ## Layer 2 -/

theorem lidx52_at (r : Fin 50000) (q : Fin 256) (k : Fin 256) : lidx_main_v52 (ix2 r q) k = ix2 r k :=
  funext fun a => Fin.ext (by match a with | ⟨0, _⟩ => rfl | ⟨1, _⟩ => rfl)

theorem ridx52_at (r : Fin 50000) (q : Fin 256) (k : Fin 256) : idx_main_v51 (ridx_main_v52 (ix2 r q) k) = ix2 q k :=
  funext fun a => Fin.ext (by match a with | ⟨0, _⟩ => rfl | ⟨1, _⟩ => rfl)

theorem lidx57_at (r : Fin 50000) (q : Fin 256) (k : Fin 256) : lidx_main_v57 (ix2 r q) k = ix2 r k :=
  funext fun a => Fin.ext (by match a with | ⟨0, _⟩ => rfl | ⟨1, _⟩ => rfl)

theorem ridx57_at (r : Fin 50000) (q : Fin 256) (k : Fin 256) : idx_main_v56 (ridx_main_v57 (ix2 r q) k) = ix2 q k :=
  funext fun a => Fin.ext (by match a with | ⟨0, _⟩ => rfl | ⟨1, _⟩ => rfl)

theorem idx48_at (r : Fin 50000) (k : Fin 256) : idx_main_v48 (idx_main_v49 (ix2 r k)) = ix1 r :=
  funext fun a => Fin.ext (by match a with | ⟨0, _⟩ => rfl)

theorem idx53_at (r : Fin 50000) (q : Fin 256) : idx_main_v53 (idx_main_v54 (ix2 r q)) = ix1 q :=
  funext fun a => Fin.ext (by match a with | ⟨0, _⟩ => rfl)

/-- The aggregated sums divided by the clamped degree, at an entry: the product with the reciprocal. -/
theorem scaled2_at (x0 : (⟨S50000x128, .f32⟩ : BufTy).Contents (Elt Ideal)) (x1 : (⟨S2x800000, .i32⟩ : BufTy).Contents (Elt Ideal)) (x3 : (⟨S256x128, .f32⟩ : BufTy).Contents (Elt Ideal)) (x4 : (⟨S256, .f32⟩ : BufTy).Contents (Elt Ideal)) (x5 : (⟨S256x128, .f32⟩ : BufTy).Contents (Elt Ideal)) (r : Fin 50000) (k : Fin 256) :
    val_main_v50 (F := Ideal) x0 x1 x3 x4 x5 (ix2 r k)
      = val_main_v41 (F := Ideal) x0 x1 x3 x4 x5 (ix2 r k) * Ideal.div 1 (max (val_main_v45 (F := Ideal) x1 (ix1 r)) 1) := by
  rw [val_main_v50_apply, val_main_v49_apply, val_main_v48_apply, val_main_v47_apply, val_main_v46_apply,
    val_main_cst_9_apply, idx48_at]
  simp only [Ideal.hostDivf_def, Ideal.maximumf_def, Ideal.ofBits_def, Ideal.ofBits_one_f32]
  exact (Cert.Sage.mul_recip_max_one _ _).symm

/-- The scaled sums times the transposed left weight, at an entry. -/
theorem left2_at (x0 : (⟨S50000x128, .f32⟩ : BufTy).Contents (Elt Ideal)) (x1 : (⟨S2x800000, .i32⟩ : BufTy).Contents (Elt Ideal)) (x3 : (⟨S256x128, .f32⟩ : BufTy).Contents (Elt Ideal)) (x4 : (⟨S256, .f32⟩ : BufTy).Contents (Elt Ideal)) (x5 : (⟨S256x128, .f32⟩ : BufTy).Contents (Elt Ideal)) (x6 : (⟨S256x256, .f32⟩ : BufTy).Contents (Elt Ideal)) (r : Fin 50000) (q : Fin 256) :
    val_main_v52 (F := Ideal) x0 x1 x3 x4 x5 x6 (ix2 r q)
      = ∑ k : Fin 256, (val_main_v41 (F := Ideal) x0 x1 x3 x4 x5 (ix2 r k) * Ideal.div 1 (max (val_main_v45 (F := Ideal) x1 (ix1 r)) 1)) * x6 (ix2 q k) := by
  rw [val_main_v52_apply]
  refine Finset.sum_congr rfl fun k _ => ?_
  rw [lidx52_at, scaled2_at, val_main_v51_apply, ridx52_at]

/-- The previous features times the transposed right weight, at an entry. -/
theorem right2_at (x0 : (⟨S50000x128, .f32⟩ : BufTy).Contents (Elt Ideal)) (x1 : (⟨S2x800000, .i32⟩ : BufTy).Contents (Elt Ideal)) (x3 : (⟨S256x128, .f32⟩ : BufTy).Contents (Elt Ideal)) (x4 : (⟨S256, .f32⟩ : BufTy).Contents (Elt Ideal)) (x5 : (⟨S256x128, .f32⟩ : BufTy).Contents (Elt Ideal)) (x8 : (⟨S256x256, .f32⟩ : BufTy).Contents (Elt Ideal)) (r : Fin 50000) (q : Fin 256) :
    val_main_v57 (F := Ideal) x0 x1 x3 x4 x5 x8 (ix2 r q)
      = ∑ k : Fin 256, val_main_v31 (F := Ideal) x0 x1 x3 x4 x5 (ix2 r k) * x8 (ix2 q k) := by
  rw [val_main_v57_apply]
  refine Finset.sum_congr rfl fun k _ => ?_
  rw [lidx57_at, val_main_v56_apply, ridx57_at]

/-- The bias row repeated down the rows reads its one entry. -/
theorem bias2_at (x7 : (⟨S256, .f32⟩ : BufTy).Contents (Elt Ideal)) (r : Fin 50000) (q : Fin 256) :
    val_main_v54 (F := Ideal) x7 (ix2 r q) = x7 (ix1 q) := by
  rw [val_main_v54_apply, val_main_v53_apply, idx53_at]

/-- The positive part's constant is zero. -/
theorem zero2_at (i : S50000x256.Idx) : val_main_call1_v0 (F := Ideal) i = 0 := by
  rw [val_main_call1_v0_apply, val_main_call1_cst_apply]
  exact Ideal.ofBits_zero_f32

theorem layer2_at (x0 : (⟨S50000x128, .f32⟩ : BufTy).Contents (Elt Ideal)) (x1 : (⟨S2x800000, .i32⟩ : BufTy).Contents (Elt Ideal)) (x3 : (⟨S256x128, .f32⟩ : BufTy).Contents (Elt Ideal)) (x4 : (⟨S256, .f32⟩ : BufTy).Contents (Elt Ideal)) (x5 : (⟨S256x128, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) (r : Fin 50000) (q : Fin 256) :
    val_main_v59 (F := Ideal) x0 x1 x3 x4 x5 x6 x7 x8 (ix2 r q)
      = Cert.Sage.layerAt (fun r k => val_main_v41 (F := Ideal) x0 x1 x3 x4 x5 (ix2 r k))
          (fun r => Ideal.div 1 (max (val_main_v45 (F := Ideal) x1 (ix1 r)) 1))
          (fun r k => val_main_v31 (F := Ideal) x0 x1 x3 x4 x5 (ix2 r k)) (fun j k => x6 (ix2 j k)) (fun j k => x8 (ix2 j k)) (fun j => x7 (ix1 j)) r q := by
  rw [val_main_v59_apply, val_main_v58_apply, val_main_v55_apply, left2_at, right2_at, bias2_at, zero2_at]
  simp only [Ideal.maximumf_def, Ideal.addf_def]
  rfl

/-! ## Layer 3 -/

theorem lidx80_at (r : Fin 50000) (q : Fin 256) (k : Fin 256) : lidx_main_v80 (ix2 r q) k = ix2 r k :=
  funext fun a => Fin.ext (by match a with | ⟨0, _⟩ => rfl | ⟨1, _⟩ => rfl)

theorem ridx80_at (r : Fin 50000) (q : Fin 256) (k : Fin 256) : idx_main_v79 (ridx_main_v80 (ix2 r q) k) = ix2 q k :=
  funext fun a => Fin.ext (by match a with | ⟨0, _⟩ => rfl | ⟨1, _⟩ => rfl)

theorem lidx85_at (r : Fin 50000) (q : Fin 256) (k : Fin 256) : lidx_main_v85 (ix2 r q) k = ix2 r k :=
  funext fun a => Fin.ext (by match a with | ⟨0, _⟩ => rfl | ⟨1, _⟩ => rfl)

theorem ridx85_at (r : Fin 50000) (q : Fin 256) (k : Fin 256) : idx_main_v84 (ridx_main_v85 (ix2 r q) k) = ix2 q k :=
  funext fun a => Fin.ext (by match a with | ⟨0, _⟩ => rfl | ⟨1, _⟩ => rfl)

theorem idx76_at (r : Fin 50000) (k : Fin 256) : idx_main_v76 (idx_main_v77 (ix2 r k)) = ix1 r :=
  funext fun a => Fin.ext (by match a with | ⟨0, _⟩ => rfl)

theorem idx81_at (r : Fin 50000) (q : Fin 256) : idx_main_v81 (idx_main_v82 (ix2 r q)) = ix1 q :=
  funext fun a => Fin.ext (by match a with | ⟨0, _⟩ => rfl)

/-- The aggregated sums divided by the clamped degree, at an entry: the product with the reciprocal. -/
theorem scaled3_at (x0 : (⟨S50000x128, .f32⟩ : BufTy).Contents (Elt Ideal)) (x1 : (⟨S2x800000, .i32⟩ : BufTy).Contents (Elt Ideal)) (x3 : (⟨S256x128, .f32⟩ : BufTy).Contents (Elt Ideal)) (x4 : (⟨S256, .f32⟩ : BufTy).Contents (Elt Ideal)) (x5 : (⟨S256x128, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) (r : Fin 50000) (k : Fin 256) :
    val_main_v78 (F := Ideal) x0 x1 x3 x4 x5 x6 x7 x8 (ix2 r k)
      = val_main_v69 (F := Ideal) x0 x1 x3 x4 x5 x6 x7 x8 (ix2 r k) * Ideal.div 1 (max (val_main_v73 (F := Ideal) x1 (ix1 r)) 1) := by
  rw [val_main_v78_apply, val_main_v77_apply, val_main_v76_apply, val_main_v75_apply, val_main_v74_apply,
    val_main_cst_15_apply, idx76_at]
  simp only [Ideal.hostDivf_def, Ideal.maximumf_def, Ideal.ofBits_def, Ideal.ofBits_one_f32]
  exact (Cert.Sage.mul_recip_max_one _ _).symm

/-- The scaled sums times the transposed left weight, at an entry. -/
theorem left3_at (x0 : (⟨S50000x128, .f32⟩ : BufTy).Contents (Elt Ideal)) (x1 : (⟨S2x800000, .i32⟩ : BufTy).Contents (Elt Ideal)) (x3 : (⟨S256x128, .f32⟩ : BufTy).Contents (Elt Ideal)) (x4 : (⟨S256, .f32⟩ : BufTy).Contents (Elt Ideal)) (x5 : (⟨S256x128, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) (x9 : (⟨S256x256, .f32⟩ : BufTy).Contents (Elt Ideal)) (r : Fin 50000) (q : Fin 256) :
    val_main_v80 (F := Ideal) x0 x1 x3 x4 x5 x6 x7 x8 x9 (ix2 r q)
      = ∑ k : Fin 256, (val_main_v69 (F := Ideal) x0 x1 x3 x4 x5 x6 x7 x8 (ix2 r k) * Ideal.div 1 (max (val_main_v73 (F := Ideal) x1 (ix1 r)) 1)) * x9 (ix2 q k) := by
  rw [val_main_v80_apply]
  refine Finset.sum_congr rfl fun k _ => ?_
  rw [lidx80_at, scaled3_at, val_main_v79_apply, ridx80_at]

/-- The previous features times the transposed right weight, at an entry. -/
theorem right3_at (x0 : (⟨S50000x128, .f32⟩ : BufTy).Contents (Elt Ideal)) (x1 : (⟨S2x800000, .i32⟩ : BufTy).Contents (Elt Ideal)) (x3 : (⟨S256x128, .f32⟩ : BufTy).Contents (Elt Ideal)) (x4 : (⟨S256, .f32⟩ : BufTy).Contents (Elt Ideal)) (x5 : (⟨S256x128, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) (x11 : (⟨S256x256, .f32⟩ : BufTy).Contents (Elt Ideal)) (r : Fin 50000) (q : Fin 256) :
    val_main_v85 (F := Ideal) x0 x1 x3 x4 x5 x6 x7 x8 x11 (ix2 r q)
      = ∑ k : Fin 256, val_main_v59 (F := Ideal) x0 x1 x3 x4 x5 x6 x7 x8 (ix2 r k) * x11 (ix2 q k) := by
  rw [val_main_v85_apply]
  refine Finset.sum_congr rfl fun k _ => ?_
  rw [lidx85_at, val_main_v84_apply, ridx85_at]

/-- The bias row repeated down the rows reads its one entry. -/
theorem bias3_at (x10 : (⟨S256, .f32⟩ : BufTy).Contents (Elt Ideal)) (r : Fin 50000) (q : Fin 256) :
    val_main_v82 (F := Ideal) x10 (ix2 r q) = x10 (ix1 q) := by
  rw [val_main_v82_apply, val_main_v81_apply, idx81_at]

/-- The positive part's constant is zero. -/
theorem zero3_at (i : S50000x256.Idx) : val_main_call2_v0 (F := Ideal) i = 0 := by
  rw [val_main_call2_v0_apply, val_main_call2_cst_apply]
  exact Ideal.ofBits_zero_f32

theorem layer3_at (x0 : (⟨S50000x128, .f32⟩ : BufTy).Contents (Elt Ideal)) (x1 : (⟨S2x800000, .i32⟩ : BufTy).Contents (Elt Ideal)) (x3 : (⟨S256x128, .f32⟩ : BufTy).Contents (Elt Ideal)) (x4 : (⟨S256, .f32⟩ : BufTy).Contents (Elt Ideal)) (x5 : (⟨S256x128, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (r : Fin 50000) (q : Fin 256) :
    val_main_v87 (F := Ideal) x0 x1 x3 x4 x5 x6 x7 x8 x9 x10 x11 (ix2 r q)
      = Cert.Sage.layerAt (fun r k => val_main_v69 (F := Ideal) x0 x1 x3 x4 x5 x6 x7 x8 (ix2 r k))
          (fun r => Ideal.div 1 (max (val_main_v73 (F := Ideal) x1 (ix1 r)) 1))
          (fun r k => val_main_v59 (F := Ideal) x0 x1 x3 x4 x5 x6 x7 x8 (ix2 r k)) (fun j k => x9 (ix2 j k)) (fun j k => x11 (ix2 j k)) (fun j => x10 (ix1 j)) r q := by
  rw [val_main_v87_apply, val_main_v86_apply, val_main_v83_apply, left3_at, right3_at, bias3_at, zero3_at]
  simp only [Ideal.maximumf_def, Ideal.addf_def]
  rfl

/-! ## The head -/

theorem lidx101_at (r : Fin 64) (j : Fin 128) (k : Fin 256) : lidx_main_v101 (ix2 r j) k = ix2 r k :=
  funext fun a => Fin.ext (by match a with | ⟨0, _⟩ => rfl | ⟨1, _⟩ => rfl)

theorem ridx101_at (r : Fin 64) (j : Fin 128) (k : Fin 256) : idx_main_v100 (ridx_main_v101 (ix2 r j) k) = ix2 j k :=
  funext fun a => Fin.ext (by match a with | ⟨0, _⟩ => rfl | ⟨1, _⟩ => rfl)

theorem idx102_at (r : Fin 64) (j : Fin 128) : idx_main_v102 (idx_main_v103 (ix2 r j)) = ix1 j :=
  funext fun a => Fin.ext (by match a with | ⟨0, _⟩ => rfl)

theorem lidx107_at (r : Fin 64) (q : Fin 10) (j : Fin 128) : lidx_main_v107 (ix2 r q) j = ix2 r j :=
  funext fun a => Fin.ext (by match a with | ⟨0, _⟩ => rfl | ⟨1, _⟩ => rfl)

theorem ridx107_at (r : Fin 64) (q : Fin 10) (j : Fin 128) : idx_main_v106 (ridx_main_v107 (ix2 r q) j) = ix2 q j :=
  funext fun a => Fin.ext (by match a with | ⟨0, _⟩ => rfl | ⟨1, _⟩ => rfl)

theorem idx108_at (r : Fin 64) (q : Fin 10) : idx_main_v108 (idx_main_v109 (ix2 r q)) = ix1 q :=
  funext fun a => Fin.ext (by match a with | ⟨0, _⟩ => rfl)

/-- The pooled rows times the transposed first weight, at an entry. -/
theorem first_at (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S256x128, .f32⟩ : BufTy).Contents (Elt Ideal)) (x4 : (⟨S256, .f32⟩ : BufTy).Contents (Elt Ideal)) (x5 : (⟨S256x128, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (x12 : (⟨S128x256, .f32⟩ : BufTy).Contents (Elt Ideal)) (r : Fin 64) (j : Fin 128) :
    val_main_v101 (F := Ideal) x0 x1 x2 x3 x4 x5 x6 x7 x8 x9 x10 x11 x12 (ix2 r j)
      = ∑ k : Fin 256, val_main_v99 (F := Ideal) x0 x1 x2 x3 x4 x5 x6 x7 x8 x9 x10 x11 (ix2 r k) * x12 (ix2 j k) := by
  rw [val_main_v101_apply]
  refine Finset.sum_congr rfl fun k _ => ?_
  rw [lidx101_at, val_main_v100_apply, ridx101_at]

/-- The first bias row repeated down the rows reads its one entry. -/
theorem bias_first_at (x13 : (⟨S128, .f32⟩ : BufTy).Contents (Elt Ideal)) (r : Fin 64) (j : Fin 128) :
    val_main_v103 (F := Ideal) x13 (ix2 r j) = x13 (ix1 j) := by
  rw [val_main_v103_apply, val_main_v102_apply, idx102_at]

/-- The positive part's constant is zero. -/
theorem zero_head_at (i : S64x128.Idx) : val_main_call3_v0 (F := Ideal) i = 0 := by
  rw [val_main_call3_v0_apply, val_main_call3_cst_apply]
  exact Ideal.ofBits_zero_f32

/-- The hidden row of the head, at an entry. -/
theorem hidden_at (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S256x128, .f32⟩ : BufTy).Contents (Elt Ideal)) (x4 : (⟨S256, .f32⟩ : BufTy).Contents (Elt Ideal)) (x5 : (⟨S256x128, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (x12 : (⟨S128x256, .f32⟩ : BufTy).Contents (Elt Ideal)) (x13 : (⟨S128, .f32⟩ : BufTy).Contents (Elt Ideal)) (r : Fin 64) (j : Fin 128) :
    val_main_v105 (F := Ideal) x0 x1 x2 x3 x4 x5 x6 x7 x8 x9 x10 x11 x12 x13 (ix2 r j)
      = max ((∑ k : Fin 256, val_main_v99 (F := Ideal) x0 x1 x2 x3 x4 x5 x6 x7 x8 x9 x10 x11 (ix2 r k) * x12 (ix2 j k)) + x13 (ix1 j)) 0 := by
  rw [val_main_v105_apply, val_main_v104_apply, first_at, bias_first_at, zero_head_at]
  rfl

/-- The hidden rows times the transposed second weight, at an entry. -/
theorem second_at (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S256x128, .f32⟩ : BufTy).Contents (Elt Ideal)) (x4 : (⟨S256, .f32⟩ : BufTy).Contents (Elt Ideal)) (x5 : (⟨S256x128, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (x12 : (⟨S128x256, .f32⟩ : BufTy).Contents (Elt Ideal)) (x13 : (⟨S128, .f32⟩ : BufTy).Contents (Elt Ideal)) (x14 : (⟨S10x128, .f32⟩ : BufTy).Contents (Elt Ideal)) (r : Fin 64) (q : Fin 10) :
    val_main_v107 (F := Ideal) x0 x1 x2 x3 x4 x5 x6 x7 x8 x9 x10 x11 x12 x13 x14 (ix2 r q)
      = ∑ j : Fin 128, max ((∑ k : Fin 256, val_main_v99 (F := Ideal) x0 x1 x2 x3 x4 x5 x6 x7 x8 x9 x10 x11 (ix2 r k) * x12 (ix2 j k)) + x13 (ix1 j)) 0 * x14 (ix2 q j) := by
  rw [val_main_v107_apply]
  refine Finset.sum_congr rfl fun j _ => ?_
  rw [lidx107_at, hidden_at, val_main_v106_apply, ridx107_at]

/-- The second bias row repeated down the rows reads its one entry. -/
theorem bias_second_at (x15 : (⟨S10, .f32⟩ : BufTy).Contents (Elt Ideal)) (r : Fin 64) (q : Fin 10) :
    val_main_v109 (F := Ideal) x15 (ix2 r q) = x15 (ix1 q) := by
  rw [val_main_v109_apply, val_main_v108_apply, idx108_at]

theorem head_at (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S256x128, .f32⟩ : BufTy).Contents (Elt Ideal)) (x4 : (⟨S256, .f32⟩ : BufTy).Contents (Elt Ideal)) (x5 : (⟨S256x128, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (x12 : (⟨S128x256, .f32⟩ : BufTy).Contents (Elt Ideal)) (x13 : (⟨S128, .f32⟩ : BufTy).Contents (Elt Ideal)) (x14 : (⟨S10x128, .f32⟩ : BufTy).Contents (Elt Ideal)) (x15 : (⟨S10, .f32⟩ : BufTy).Contents (Elt Ideal)) (r : Fin 64) (q : Fin 10) :
    val_main_v110 (F := Ideal) x0 x1 x2 x3 x4 x5 x6 x7 x8 x9 x10 x11 x12 x13 x14 x15 (ix2 r q)
      = Cert.Sage.headAt (fun r k => val_main_v99 (F := Ideal) x0 x1 x2 x3 x4 x5 x6 x7 x8 x9 x10 x11 (ix2 r k))
          (fun j k => x12 (ix2 j k)) (fun j => x13 (ix1 j)) (fun o j => x14 (ix2 o j)) (fun o => x15 (ix1 o)) r q := by
  rw [val_main_v110_apply, second_at, bias_second_at]
  simp only [Ideal.addf_def]
  rfl

end Cert.ReferenceIdeal.RefValue

end
-- ==== Proof.Bridge.lean ====
/-
  THE TWO PROGRAMS' LAYERS ARE ONE FUNCTION.

  The kernel program keeps its weights and inter-layer features in a narrower float format, lays the bias out as a row
  and multiplies the aggregated sums by a column of reciprocals 1 / max (degree) 1; the reference keeps everything
  wide, transposes the weights and divides by max (degree) 1. Over the extended reals a change of float format is the
  identity, a re-laid array reads the same numbers, and the product with the reciprocal is the quotient because
  max (degree) 1 is never zero. So each layer's whole result array, given the SAME aggregated sums, degrees, previous
  features and parameters, is the same array in both programs; and the head's likewise.
-/
import proofs.«140199_j83305185673529_2_alg».proof.Proof.KArr
import proofs.«140199_j83305185673529_2_alg».proof.Proof.RefLayers
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

open scoped BigOperators

namespace Cert.Bridge

open Cert.ReferenceIdeal.Read Idealize.ShloMosaic Idealize.ShloMosaic.ValueIdx

/-! ## The scale column, the bias rows and the degrees -/

/-- The scale column at row r is the reciprocal of the clamped degree there: the column reads the quotient at r, and
    the quotient's numerator is the constant one. -/
theorem invCol_at (dm : Vec Ideal Cert.KernelIdeal.S50000 .f32) (r : Fin 50000) :
    Cert.KernelIdeal.Arr.invCol dm (ix2 r (0 : Fin 1)) = Ideal.div 1 (dm (ix1 r)) := by
  unfold Cert.KernelIdeal.Arr.invCol
  refine (broadcastInDim_apply _ _ _ (ix2 r (0 : Fin 1)) (ix1 r)
    (fun a => match a with
      | ⟨0, _⟩ => by show r.val = if (50000 : Nat) = 1 then 0 else r.val; rw [if_neg (by decide)])).trans ?_
  refine (ValueIdx.hostDivf_apply _ _ _).trans ?_
  rw [ValueIdx.broadcastInDim_scalar_apply]
  show Ideal.div (Ideal.ofBits .f32 0x3F800000#32) (dm (ix1 r)) = Ideal.div 1 (dm (ix1 r))
  rw [Ideal.ofBits_one_f32]

/-- The clamped degree at a node is the larger of its degree and one. -/
theorem clamped_at (x1 : (⟨Cert.ReferenceIdeal.S2x800000, .i32⟩ : BufTy).Contents (Elt Ideal)) (r : Fin 50000) :
    val_main_v19 (F := Ideal) x1 (ix1 r) = max (val_main_v17 (F := Ideal) x1 (ix1 r)) 1 := by
  rw [val_main_v19_apply, val_main_v18_apply, val_main_cst_3_apply]
  simp only [Ideal.maximumf_def, Ideal.ofBits_def, Ideal.ofBits_one_f32]

/-- The scale column of the clamped degrees, at row r. -/
theorem scale_at (x1 : (⟨Cert.ReferenceIdeal.S2x800000, .i32⟩ : BufTy).Contents (Elt Ideal)) (r : Fin 50000) :
    Cert.KernelIdeal.Arr.invCol (val_main_v19 (F := Ideal) x1) (ix2 r (0 : Fin 1))
      = Ideal.div 1 (max (val_main_v17 (F := Ideal) x1 (ix1 r)) 1) := by
  rw [invCol_at, clamped_at]

/-- The reference computes the in-degrees anew before each layer: the same sums of the same ones. -/
theorem deg45_eq (x1 : (⟨Cert.ReferenceIdeal.S2x800000, .i32⟩ : BufTy).Contents (Elt Ideal)) : val_main_v45 (F := Ideal) x1 = val_main_v17 (F := Ideal) x1 := rfl

theorem deg73_eq (x1 : (⟨Cert.ReferenceIdeal.S2x800000, .i32⟩ : BufTy).Contents (Elt Ideal)) : val_main_v73 (F := Ideal) x1 = val_main_v17 (F := Ideal) x1 := rfl

/-- A bias laid out as a one-row array reads the bias's entry. -/
theorem biasRow256_at (b : Vec Ideal Cert.KernelIdeal.S256 .f32) (q : Fin 256) :
    shapeCast Cert.KernelIdeal.S1x256 b Cert.KernelIdeal.Facts₀.shapeCasts_S256_S1x256 (ix2 (0 : Fin 1) q) = b (ix1 q) :=
  shapeCast_apply b Cert.KernelIdeal.Facts₀.shapeCasts_S256_S1x256 (ix2 (0 : Fin 1) q) (ix1 q) (by
    rewrite [Shape.rowMajor_val_two, Shape.rowMajor_val_one]; show q.val = 0 * 256 + q.val; omega)

theorem biasRow128_at (b : Vec Ideal Cert.KernelIdeal.S128 .f32) (q : Fin 128) :
    shapeCast Cert.KernelIdeal.S1x128 b Cert.KernelIdeal.Facts₀.shapeCasts_S128_S1x128 (ix2 (0 : Fin 1) q) = b (ix1 q) :=
  shapeCast_apply b Cert.KernelIdeal.Facts₀.shapeCasts_S128_S1x128 (ix2 (0 : Fin 1) q) (ix1 q) (by
    rewrite [Shape.rowMajor_val_two, Shape.rowMajor_val_one]; show q.val = 0 * 128 + q.val; omega)

theorem biasRow10_at (b : Vec Ideal Cert.KernelIdeal.S10 .f32) (q : Fin 10) :
    shapeCast Cert.KernelIdeal.S1x10 b Cert.KernelIdeal.Facts₀.shapeCasts_S10_S1x10 (ix2 (0 : Fin 1) q) = b (ix1 q) :=
  shapeCast_apply b Cert.KernelIdeal.Facts₀.shapeCasts_S10_S1x10 (ix2 (0 : Fin 1) q) (ix1 q) (by
    rewrite [Shape.rowMajor_val_two, Shape.rowMajor_val_one]; show q.val = 0 * 10 + q.val; omega)

/-- Two head entries agree when the pooled rows, the first layer's parameters, and the second layer's parameters at
    q agree. -/
theorem headAt_congr' {G G' D H O O' : ℕ} {g : Fin G → Fin D → EReal} {g' : Fin G' → Fin D → EReal}
    {W1 W1' : Fin H → Fin D → EReal} {b1 b1' : Fin H → EReal} {W2 : Fin O → Fin H → EReal} {W2' : Fin O' → Fin H → EReal}
    {b2 : Fin O → EReal} {b2' : Fin O' → EReal} (r : Fin G) (r' : Fin G') (q : Fin O) (q' : Fin O')
    (hg : ∀ k, g r k = g' r' k) (hW1 : ∀ j k, W1 j k = W1' j k) (hb1 : ∀ j, b1 j = b1' j)
    (hW2 : ∀ j, W2 q j = W2' q' j) (hb2 : b2 q = b2' q') :
    Cert.Sage.headAt g W1 b1 W2 b2 r q = Cert.Sage.headAt g' W1' b1' W2' b2' r' q' := by
  unfold Cert.Sage.headAt
  rw [hb2]
  simp only [hg, hW1, hb1, hW2]

/-! ## The layers and the head -/

theorem bridge1 (x0 : (⟨Cert.ReferenceIdeal.S50000x128, .f32⟩ : BufTy).Contents (Elt Ideal)) (x1 : (⟨Cert.ReferenceIdeal.S2x800000, .i32⟩ : BufTy).Contents (Elt Ideal)) (x3 : (⟨Cert.ReferenceIdeal.S256x128, .f32⟩ : BufTy).Contents (Elt Ideal)) (x4 : (⟨Cert.ReferenceIdeal.S256, .f32⟩ : BufTy).Contents (Elt Ideal)) (x5 : (⟨Cert.ReferenceIdeal.S256x128, .f32⟩ : BufTy).Contents (Elt Ideal)) :
    Cert.KernelIdeal.Arr.layerArr128 (val_main_v13 (F := Ideal) x0 x1) (Cert.KernelIdeal.Arr.invCol (val_main_v19 (F := Ideal) x1)) x0
        (truncf (F := Ideal) .bf16 x3 Cert.KernelIdeal.Facts₀.bitsLt_bf16_f32) (shapeCast Cert.KernelIdeal.S1x256 x4 Cert.KernelIdeal.Facts₀.shapeCasts_S256_S1x256) (truncf (F := Ideal) .bf16 x5 Cert.KernelIdeal.Facts₀.bitsLt_bf16_f32)
      = val_main_v31 (F := Ideal) x0 x1 x3 x4 x5 := by
  funext i
  obtain ⟨r, q, rfl⟩ : ∃ (r : Fin 50000) (q : Fin 256), i = ix2 r q := ⟨i 0, i 1, eq_ix2 i⟩
  refine Eq.trans ?_ (Cert.ReferenceIdeal.RefValue.layer1_at x0 x1 x3 x4 x5 r q).symm
  unfold Cert.KernelIdeal.Arr.layerArr128
  exact Cert.Sage.layerAt_congr' _ _ _ _ (fun _ => rfl) (scale_at x1 r) (fun _ => rfl) (fun _ => rfl) (fun _ => rfl)
    (biasRow256_at x4 q)

theorem bridge2 (x0 : (⟨Cert.ReferenceIdeal.S50000x128, .f32⟩ : BufTy).Contents (Elt Ideal)) (x1 : (⟨Cert.ReferenceIdeal.S2x800000, .i32⟩ : BufTy).Contents (Elt Ideal)) (x3 : (⟨Cert.ReferenceIdeal.S256x128, .f32⟩ : BufTy).Contents (Elt Ideal)) (x4 : (⟨Cert.ReferenceIdeal.S256, .f32⟩ : BufTy).Contents (Elt Ideal)) (x5 : (⟨Cert.ReferenceIdeal.S256x128, .f32⟩ : BufTy).Contents (Elt Ideal)) (x6 : (⟨Cert.ReferenceIdeal.S256x256, .f32⟩ : BufTy).Contents (Elt Ideal)) (x7 : (⟨Cert.ReferenceIdeal.S256, .f32⟩ : BufTy).Contents (Elt Ideal)) (x8 : (⟨Cert.ReferenceIdeal.S256x256, .f32⟩ : BufTy).Contents (Elt Ideal)) :
    Cert.KernelIdeal.Arr.layerArr256 (val_main_v41 (F := Ideal) x0 x1 x3 x4 x5) (Cert.KernelIdeal.Arr.invCol (val_main_v19 (F := Ideal) x1)) (val_main_v31 (F := Ideal) x0 x1 x3 x4 x5)
        (truncf (F := Ideal) .bf16 x6 Cert.KernelIdeal.Facts₀.bitsLt_bf16_f32) (shapeCast Cert.KernelIdeal.S1x256 x7 Cert.KernelIdeal.Facts₀.shapeCasts_S256_S1x256) (truncf (F := Ideal) .bf16 x8 Cert.KernelIdeal.Facts₀.bitsLt_bf16_f32)
      = val_main_v59 (F := Ideal) x0 x1 x3 x4 x5 x6 x7 x8 := by
  funext i
  obtain ⟨r, q, rfl⟩ : ∃ (r : Fin 50000) (q : Fin 256), i = ix2 r q := ⟨i 0, i 1, eq_ix2 i⟩
  refine Eq.trans ?_ (Cert.ReferenceIdeal.RefValue.layer2_at x0 x1 x3 x4 x5 x6 x7 x8 r q).symm
  rw [deg45_eq]
  unfold Cert.KernelIdeal.Arr.layerArr256
  exact Cert.Sage.layerAt_congr' _ _ _ _ (fun _ => rfl) (scale_at x1 r) (fun _ => rfl) (fun _ => rfl) (fun _ => rfl)
    (biasRow256_at x7 q)

theorem bridge3 (x0 : (⟨Cert.ReferenceIdeal.S50000x128, .f32⟩ : BufTy).Contents (Elt Ideal)) (x1 : (⟨Cert.ReferenceIdeal.S2x800000, .i32⟩ : BufTy).Contents (Elt Ideal)) (x3 : (⟨Cert.ReferenceIdeal.S256x128, .f32⟩ : BufTy).Contents (Elt Ideal)) (x4 : (⟨Cert.ReferenceIdeal.S256, .f32⟩ : BufTy).Contents (Elt Ideal)) (x5 : (⟨Cert.ReferenceIdeal.S256x128, .f32⟩ : BufTy).Contents (Elt Ideal)) (x6 : (⟨Cert.ReferenceIdeal.S256x256, .f32⟩ : BufTy).Contents (Elt Ideal)) (x7 : (⟨Cert.ReferenceIdeal.S256, .f32⟩ : BufTy).Contents (Elt Ideal)) (x8 : (⟨Cert.ReferenceIdeal.S256x256, .f32⟩ : BufTy).Contents (Elt Ideal)) (x9 : (⟨Cert.ReferenceIdeal.S256x256, .f32⟩ : BufTy).Contents (Elt Ideal)) (x10 : (⟨Cert.ReferenceIdeal.S256, .f32⟩ : BufTy).Contents (Elt Ideal)) (x11 : (⟨Cert.ReferenceIdeal.S256x256, .f32⟩ : BufTy).Contents (Elt Ideal)) :
    Cert.KernelIdeal.Arr.layerArr256 (val_main_v69 (F := Ideal) x0 x1 x3 x4 x5 x6 x7 x8) (Cert.KernelIdeal.Arr.invCol (val_main_v19 (F := Ideal) x1)) (val_main_v59 (F := Ideal) x0 x1 x3 x4 x5 x6 x7 x8)
        (truncf (F := Ideal) .bf16 x9 Cert.KernelIdeal.Facts₀.bitsLt_bf16_f32) (shapeCast Cert.KernelIdeal.S1x256 x10 Cert.KernelIdeal.Facts₀.shapeCasts_S256_S1x256) (truncf (F := Ideal) .bf16 x11 Cert.KernelIdeal.Facts₀.bitsLt_bf16_f32)
      = val_main_v87 (F := Ideal) x0 x1 x3 x4 x5 x6 x7 x8 x9 x10 x11 := by
  funext i
  obtain ⟨r, q, rfl⟩ : ∃ (r : Fin 50000) (q : Fin 256), i = ix2 r q := ⟨i 0, i 1, eq_ix2 i⟩
  refine Eq.trans ?_ (Cert.ReferenceIdeal.RefValue.layer3_at x0 x1 x3 x4 x5 x6 x7 x8 x9 x10 x11 r q).symm
  rw [deg73_eq]
  unfold Cert.KernelIdeal.Arr.layerArr256
  exact Cert.Sage.layerAt_congr' _ _ _ _ (fun _ => rfl) (scale_at x1 r) (fun _ => rfl) (fun _ => rfl) (fun _ => rfl)
    (biasRow256_at x10 q)

theorem bridgeHead (x0 : (⟨Cert.ReferenceIdeal.S50000x128, .f32⟩ : BufTy).Contents (Elt Ideal)) (x1 : (⟨Cert.ReferenceIdeal.S2x800000, .i32⟩ : BufTy).Contents (Elt Ideal)) (x2 : (⟨Cert.ReferenceIdeal.S50000, .i32⟩ : BufTy).Contents (Elt Ideal)) (x3 : (⟨Cert.ReferenceIdeal.S256x128, .f32⟩ : BufTy).Contents (Elt Ideal)) (x4 : (⟨Cert.ReferenceIdeal.S256, .f32⟩ : BufTy).Contents (Elt Ideal)) (x5 : (⟨Cert.ReferenceIdeal.S256x128, .f32⟩ : BufTy).Contents (Elt Ideal)) (x6 : (⟨Cert.ReferenceIdeal.S256x256, .f32⟩ : BufTy).Contents (Elt Ideal)) (x7 : (⟨Cert.ReferenceIdeal.S256, .f32⟩ : BufTy).Contents (Elt Ideal)) (x8 : (⟨Cert.ReferenceIdeal.S256x256, .f32⟩ : BufTy).Contents (Elt Ideal)) (x9 : (⟨Cert.ReferenceIdeal.S256x256, .f32⟩ : BufTy).Contents (Elt Ideal)) (x10 : (⟨Cert.ReferenceIdeal.S256, .f32⟩ : BufTy).Contents (Elt Ideal)) (x11 : (⟨Cert.ReferenceIdeal.S256x256, .f32⟩ : BufTy).Contents (Elt Ideal)) (x12 : (⟨Cert.ReferenceIdeal.S128x256, .f32⟩ : BufTy).Contents (Elt Ideal)) (x13 : (⟨Cert.ReferenceIdeal.S128, .f32⟩ : BufTy).Contents (Elt Ideal)) (x14 : (⟨Cert.ReferenceIdeal.S10x128, .f32⟩ : BufTy).Contents (Elt Ideal)) (x15 : (⟨Cert.ReferenceIdeal.S10, .f32⟩ : BufTy).Contents (Elt Ideal)) :
    Cert.KernelIdeal.Arr.headArr (val_main_v99 (F := Ideal) x0 x1 x2 x3 x4 x5 x6 x7 x8 x9 x10 x11) (truncf (F := Ideal) .bf16 x12 Cert.KernelIdeal.Facts₀.bitsLt_bf16_f32)
        (shapeCast Cert.KernelIdeal.S1x128 x13 Cert.KernelIdeal.Facts₀.shapeCasts_S128_S1x128) (truncf (F := Ideal) .bf16 x14 Cert.KernelIdeal.Facts₀.bitsLt_bf16_f32)
        (shapeCast Cert.KernelIdeal.S1x10 x15 Cert.KernelIdeal.Facts₀.shapeCasts_S10_S1x10)
      = val_main_v110 (F := Ideal) x0 x1 x2 x3 x4 x5 x6 x7 x8 x9 x10 x11 x12 x13 x14 x15 := by
  funext i
  obtain ⟨r, q, rfl⟩ : ∃ (r : Fin 64) (q : Fin 10), i = ix2 r q := ⟨i 0, i 1, eq_ix2 i⟩
  refine Eq.trans ?_ (Cert.ReferenceIdeal.RefValue.head_at x0 x1 x2 x3 x4 x5 x6 x7 x8 x9 x10 x11 x12 x13 x14 x15 r q).symm
  unfold Cert.KernelIdeal.Arr.headArr
  exact headAt_congr' _ _ _ _ (fun _ => rfl) (fun _ _ => rfl) (fun j => biasRow128_at x13 j) (fun _ => rfl)
    (biasRow10_at x15 q)

end Cert.Bridge

end
-- ==== Proof.KWalk.lean ====
/-
  THE KERNEL PROGRAM'S RESULT, READ BACK THROUGH ITS EIGHT SEGMENTS.

  Everything the program defines before its first region — the edge list's two rows, the scale column, the re-laid
  parameters — is never written again: a later stretch of host operations writes only the buffers it defines, and a
  region writes only its own result array. So each region finds those buffers as the first stretch left them. Each
  stretch between two regions gathers the previous region's result along the edges and adds it up at the
  destinations — the very operations of the reference — so, by induction along the program, each region's result array
  is the reference's corresponding stage of the argument arrays, and the last region's result is the reference's
  result.
-/
import proofs.«140199_j83305185673529_2_alg».proof.Proof.KEntry0
import proofs.«140199_j83305185673529_2_alg».proof.Proof.Blocks0
import proofs.«140199_j83305185673529_2_alg».proof.Proof.Blocks1
import proofs.«140199_j83305185673529_2_alg».proof.Proof.Blocks2
import proofs.«140199_j83305185673529_2_alg».proof.Proof.Blocks3
import proofs.«140199_j83305185673529_2_alg».proof.Proof.Bridge

set_option maxRecDepth 16384
set_option maxHeartbeats 4000000

noncomputable section

namespace Cert.KernelIdeal.Walk

open Cert.KernelIdeal Cert.KernelIdeal.Gen
open Cert.KernelIdeal.Keep Cert.KernelIdeal.Entry
open Idealize.ShloMosaic Idealize.ShloMosaic.TcCoe Idealize.ShloMosaic.StableHlo
open Idealize.SL Idealize.SL.Sem

/-- Two buffers whose numbers differ are different buffers. -/
theorem ne_of_idx {y z : Ref sig .tc} (n : Nat) (hy : y.idx.val < n) (hz : n ≤ z.idx.val) : y ≠ z :=
  fun e => by subst e; omega

variable (m : (ℓ : Loc nD τ sig) → Buf (Elt Ideal) ℓ) (ρ : Dev nD → PrngReg) (c : Dev nD)

/-! ## A buffer defined before the first region's result is never written again -/

theorem old2 (y : Ref sig .tc) (hy : y.idx.val < 55) : W2 m ρ c (Proc.devRef .tc y) = W1 m ρ c (Proc.devRef .tc y) :=
  keepR0 m ρ c y (ne_of_idx (z := main_v32) 55 hy (by decide))
theorem old3 (y : Ref sig .tc) (hy : y.idx.val < 55) : W3 m ρ c (Proc.devRef .tc y) = W1 m ρ c (Proc.devRef .tc y) :=
  (keepH1 m ρ c y (by omega)).trans (old2 m ρ c y hy)
theorem old4 (y : Ref sig .tc) (hy : y.idx.val < 55) : W4 m ρ c (Proc.devRef .tc y) = W1 m ρ c (Proc.devRef .tc y) :=
  (keepR1 m ρ c y (ne_of_idx (z := main_v45) 55 hy (by decide))).trans (old3 m ρ c y hy)
theorem old5 (y : Ref sig .tc) (hy : y.idx.val < 55) : W5 m ρ c (Proc.devRef .tc y) = W1 m ρ c (Proc.devRef .tc y) :=
  (keepH2 m ρ c y (by omega)).trans (old4 m ρ c y hy)
theorem old6 (y : Ref sig .tc) (hy : y.idx.val < 55) : W6 m ρ c (Proc.devRef .tc y) = W1 m ρ c (Proc.devRef .tc y) :=
  (keepR2 m ρ c y (ne_of_idx (z := main_v58) 55 hy (by decide))).trans (old5 m ρ c y hy)
theorem old7 (y : Ref sig .tc) (hy : y.idx.val < 55) : W7 m ρ c (Proc.devRef .tc y) = W1 m ρ c (Proc.devRef .tc y) :=
  (keepH3 m ρ c y (by omega)).trans (old6 m ρ c y hy)

/-! ## The first region's result is the reference's first layer -/

theorem W2_v32 : W2 m ρ c (Proc.devRef .tc main_v32) = Cert.ReferenceIdeal.Read.val_main_v31 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W2_arr m ρ c 6).trans ((Cert.KernelIdeal.Blocks0.final (V1 m ρ) c).trans ?_)
  show Cert.KernelIdeal.Arr.layerArr128 (W1 m ρ c (Proc.devRef .tc main_v30)) (W1 m ρ c (Proc.devRef .tc main_v12)) (W1 m ρ c (Proc.devRef .tc main_arg0)) (W1 m ρ c (Proc.devRef .tc main_v13)) (W1 m ρ c (Proc.devRef .tc main_v31)) (W1 m ρ c (Proc.devRef .tc main_v14)) = _
  rw [W1_v30 m ρ c, W1_v12 m ρ c, W1_arg0 m ρ c, W1_v13 m ρ c, W1_v31 m ρ c, W1_v14 m ρ c]
  exact Cert.Bridge.bridge1 _ _ _ _ _

/-! ## The second region's entry and result -/

theorem W2_v1 : W2 m ρ c (Proc.devRef .tc main_v1) = Cert.ReferenceIdeal.Read.val_main_v1 (F := Ideal) (m ((c : Thread nD τ).loc main_arg1)) := (old2 m ρ c main_v1 (by decide)).trans (W1_v1 m ρ c)
theorem W2_v3 : W2 m ρ c (Proc.devRef .tc main_v3) = Cert.ReferenceIdeal.Read.val_main_v3 (F := Ideal) (m ((c : Thread nD τ).loc main_arg1)) := (old2 m ρ c main_v3 (by decide)).trans (W1_v3 m ρ c)
theorem W2_arg7 : W2 m ρ c (Proc.devRef .tc main_arg7) = (m ((c : Thread nD τ).loc main_arg7)) := (old2 m ρ c main_arg7 (by decide)).trans (W1_arg7 m ρ c)

theorem W3_v43 : W3 m ρ c (Proc.devRef .tc main_v43) = Cert.ReferenceIdeal.Read.val_main_v41 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps1 (W2 m ρ c) (Proc.devRef .tc main_v43) = _
  after_results_simp
  rw [W2_v32 m ρ c, W2_v1 m ρ c, W2_v3 m ρ c]
  rfl

theorem W3_v44 : W3 m ρ c (Proc.devRef .tc main_v44) = shapeCast S1x256 (m ((c : Thread nD τ).loc main_arg7)) Facts₀.shapeCasts_S256_S1x256 := by
  show StableHlo.after hostOps1 (W2 m ρ c) (Proc.devRef .tc main_v44) = _
  after_results_simp
  rw [W2_arg7 m ρ c]
  rfl

theorem W3_v12 : W3 m ρ c (Proc.devRef .tc main_v12) = Cert.KernelIdeal.Arr.invCol (Cert.ReferenceIdeal.Read.val_main_v19 (F := Ideal) (m ((c : Thread nD τ).loc main_arg1))) := (old3 m ρ c main_v12 (by decide)).trans (W1_v12 m ρ c)
theorem W3_v32 : W3 m ρ c (Proc.devRef .tc main_v32) = Cert.ReferenceIdeal.Read.val_main_v31 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := (keepH1 m ρ c main_v32 (by decide)).trans (W2_v32 m ρ c)
theorem W3_v15 : W3 m ρ c (Proc.devRef .tc main_v15) = truncf (F := Ideal) .bf16 (m ((c : Thread nD τ).loc main_arg6)) Facts₀.bitsLt_bf16_f32 := (old3 m ρ c main_v15 (by decide)).trans (W1_v15 m ρ c)
theorem W3_v16 : W3 m ρ c (Proc.devRef .tc main_v16) = truncf (F := Ideal) .bf16 (m ((c : Thread nD τ).loc main_arg8)) Facts₀.bitsLt_bf16_f32 := (old3 m ρ c main_v16 (by decide)).trans (W1_v16 m ρ c)

theorem W4_v45 : W4 m ρ c (Proc.devRef .tc main_v45) = Cert.ReferenceIdeal.Read.val_main_v59 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W4_arr m ρ c 6).trans ((Cert.KernelIdeal.Blocks1.final (V3 m ρ) c).trans ?_)
  show Cert.KernelIdeal.Arr.layerArr256 (W3 m ρ c (Proc.devRef .tc main_v43)) (W3 m ρ c (Proc.devRef .tc main_v12)) (W3 m ρ c (Proc.devRef .tc main_v32)) (W3 m ρ c (Proc.devRef .tc main_v15)) (W3 m ρ c (Proc.devRef .tc main_v44)) (W3 m ρ c (Proc.devRef .tc main_v16)) = _
  rw [W3_v43 m ρ c, W3_v12 m ρ c, W3_v32 m ρ c, W3_v15 m ρ c, W3_v44 m ρ c, W3_v16 m ρ c]
  exact Cert.Bridge.bridge2 _ _ _ _ _ _ _ _

/-! ## The third region's entry and result -/

theorem W4_v1 : W4 m ρ c (Proc.devRef .tc main_v1) = Cert.ReferenceIdeal.Read.val_main_v1 (F := Ideal) (m ((c : Thread nD τ).loc main_arg1)) := (old4 m ρ c main_v1 (by decide)).trans (W1_v1 m ρ c)
theorem W4_v3 : W4 m ρ c (Proc.devRef .tc main_v3) = Cert.ReferenceIdeal.Read.val_main_v3 (F := Ideal) (m ((c : Thread nD τ).loc main_arg1)) := (old4 m ρ c main_v3 (by decide)).trans (W1_v3 m ρ c)
theorem W4_arg10 : W4 m ρ c (Proc.devRef .tc main_arg10) = (m ((c : Thread nD τ).loc main_arg10)) := (old4 m ρ c main_arg10 (by decide)).trans (W1_arg10 m ρ c)

theorem W5_v56 : W5 m ρ c (Proc.devRef .tc main_v56) = Cert.ReferenceIdeal.Read.val_main_v69 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps2 (W4 m ρ c) (Proc.devRef .tc main_v56) = _
  after_results_simp
  rw [W4_v45 m ρ c, W4_v1 m ρ c, W4_v3 m ρ c]
  rfl

theorem W5_v57 : W5 m ρ c (Proc.devRef .tc main_v57) = shapeCast S1x256 (m ((c : Thread nD τ).loc main_arg10)) Facts₀.shapeCasts_S256_S1x256 := by
  show StableHlo.after hostOps2 (W4 m ρ c) (Proc.devRef .tc main_v57) = _
  after_results_simp
  rw [W4_arg10 m ρ c]
  rfl

theorem W5_v12 : W5 m ρ c (Proc.devRef .tc main_v12) = Cert.KernelIdeal.Arr.invCol (Cert.ReferenceIdeal.Read.val_main_v19 (F := Ideal) (m ((c : Thread nD τ).loc main_arg1))) := (old5 m ρ c main_v12 (by decide)).trans (W1_v12 m ρ c)
theorem W5_v45 : W5 m ρ c (Proc.devRef .tc main_v45) = Cert.ReferenceIdeal.Read.val_main_v59 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := (keepH2 m ρ c main_v45 (by decide)).trans (W4_v45 m ρ c)
theorem W5_v17 : W5 m ρ c (Proc.devRef .tc main_v17) = truncf (F := Ideal) .bf16 (m ((c : Thread nD τ).loc main_arg9)) Facts₀.bitsLt_bf16_f32 := (old5 m ρ c main_v17 (by decide)).trans (W1_v17 m ρ c)
theorem W5_v18 : W5 m ρ c (Proc.devRef .tc main_v18) = truncf (F := Ideal) .bf16 (m ((c : Thread nD τ).loc main_arg11)) Facts₀.bitsLt_bf16_f32 := (old5 m ρ c main_v18 (by decide)).trans (W1_v18 m ρ c)

theorem W6_v58 : W6 m ρ c (Proc.devRef .tc main_v58) = Cert.ReferenceIdeal.Read.val_main_v87 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W6_arr m ρ c 6).trans ((Cert.KernelIdeal.Blocks2.final (V5 m ρ) c).trans ?_)
  show Cert.KernelIdeal.Arr.layerArr256 (W5 m ρ c (Proc.devRef .tc main_v56)) (W5 m ρ c (Proc.devRef .tc main_v12)) (W5 m ρ c (Proc.devRef .tc main_v45)) (W5 m ρ c (Proc.devRef .tc main_v17)) (W5 m ρ c (Proc.devRef .tc main_v57)) (W5 m ρ c (Proc.devRef .tc main_v18)) = _
  rw [W5_v56 m ρ c, W5_v12 m ρ c, W5_v45 m ρ c, W5_v17 m ρ c, W5_v57 m ρ c, W5_v18 m ρ c]
  exact Cert.Bridge.bridge3 _ _ _ _ _ _ _ _ _ _ _

/-! ## The head region's entry and result -/

theorem W6_arg2 : W6 m ρ c (Proc.devRef .tc main_arg2) = (m ((c : Thread nD τ).loc main_arg2)) := (old6 m ρ c main_arg2 (by decide)).trans (W1_arg2 m ρ c)
theorem W6_arg13 : W6 m ρ c (Proc.devRef .tc main_arg13) = (m ((c : Thread nD τ).loc main_arg13)) := (old6 m ρ c main_arg13 (by decide)).trans (W1_arg13 m ρ c)
theorem W6_arg15 : W6 m ρ c (Proc.devRef .tc main_arg15) = (m ((c : Thread nD τ).loc main_arg15)) := (old6 m ρ c main_arg15 (by decide)).trans (W1_arg15 m ρ c)

theorem W7_v71 : W7 m ρ c (Proc.devRef .tc main_v71) = Cert.ReferenceIdeal.Read.val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  show StableHlo.after hostOps3 (W6 m ρ c) (Proc.devRef .tc main_v71) = _
  after_results_simp
  rw [W6_v58 m ρ c, W6_arg2 m ρ c]
  rfl

theorem W7_v72 : W7 m ρ c (Proc.devRef .tc main_v72) = shapeCast S1x128 (m ((c : Thread nD τ).loc main_arg13)) Facts₀.shapeCasts_S128_S1x128 := by
  show StableHlo.after hostOps3 (W6 m ρ c) (Proc.devRef .tc main_v72) = _
  after_results_simp
  rw [W6_arg13 m ρ c]
  rfl

theorem W7_v73 : W7 m ρ c (Proc.devRef .tc main_v73) = shapeCast S1x10 (m ((c : Thread nD τ).loc main_arg15)) Facts₀.shapeCasts_S10_S1x10 := by
  show StableHlo.after hostOps3 (W6 m ρ c) (Proc.devRef .tc main_v73) = _
  after_results_simp
  rw [W6_arg15 m ρ c]
  rfl

theorem W7_v19 : W7 m ρ c (Proc.devRef .tc main_v19) = truncf (F := Ideal) .bf16 (m ((c : Thread nD τ).loc main_arg12)) Facts₀.bitsLt_bf16_f32 := (old7 m ρ c main_v19 (by decide)).trans (W1_v19 m ρ c)
theorem W7_v20 : W7 m ρ c (Proc.devRef .tc main_v20) = truncf (F := Ideal) .bf16 (m ((c : Thread nD τ).loc main_arg14)) Facts₀.bitsLt_bf16_f32 := (old7 m ρ c main_v20 (by decide)).trans (W1_v20 m ρ c)

/-- The program's result buffer ends holding the reference's result of the argument arrays. -/
theorem W8_v74 : W8 m ρ c (Proc.devRef .tc main_v74) = Cert.ReferenceIdeal.Read.val_main_v110 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (W8_arr m ρ c 5).trans ((Cert.KernelIdeal.Blocks3.final (V7 m ρ) c).trans ?_)
  show Cert.KernelIdeal.Arr.headArr (W7 m ρ c (Proc.devRef .tc main_v71)) (W7 m ρ c (Proc.devRef .tc main_v19)) (W7 m ρ c (Proc.devRef .tc main_v72)) (W7 m ρ c (Proc.devRef .tc main_v20)) (W7 m ρ c (Proc.devRef .tc main_v73)) = _
  rw [W7_v71 m ρ c, W7_v19 m ρ c, W7_v72 m ρ c, W7_v20 m ρ c, W7_v73 m ρ c]
  exact Cert.Bridge.bridgeHead _ _ _ _ _ _ _ _ _ _ _ _ _ _ _ _

end Cert.KernelIdeal.Walk

end
-- ==== Proof.lean ====
/-
  A GraphSAGE classifier — three mean-aggregation layers relu ((Σ of neighbours' rows / max (in-degree) 1) · Wlᵀ + b +
  h · Wrᵀ), a mean pooling over the graphs of a batch, a two-layer head — as a program of four kernel regions among
  stretches of host operations, against its plain reference, over the extended reals.

  The two programs spell one function. The kernel program computes the reciprocal 1 / max (in-degree) 1 once and
  multiplies the aggregated sums by it inside each transform kernel, where the reference divides: the two agree at
  every extended real because max (in-degree) 1 is never zero. It keeps weights and inter-layer features in a narrower
  float format, which over the extended reals is the identity; it contracts the weights' last axis where the
  reference transposes them first; it tiles the 50000 rows into 25 blocks of 2000, each entry depending on its own
  row only. The gathers along the edges and the sums at the destinations are the same host operations in both
  programs and are never opened. No finiteness of the inputs is used.

  The frames of the two kernel programs are the generated ones; the reference's frame is its generated run with the
  result dropped; the idealization rewrote nothing, so that claim is trivial; the equality of results is the kernel
  program's run with its result named, read back through its eight segments to the reference's own stages.
-/
import proofs.«140199_j83305185673529_2_alg».proof.Defs
import proofs.«140199_j83305185673529_2_alg».proof.Proof.Gen.Kernel
import proofs.«140199_j83305185673529_2_alg».proof.Proof.Gen.Kernel.Skeleton
import proofs.«140199_j83305185673529_2_alg».proof.Proof.Gen.Kernel.Launch
import proofs.«140199_j83305185673529_2_alg».proof.Proof.Gen.Kernel.Points
import proofs.«140199_j83305185673529_2_alg».proof.Proof.Gen.Kernel.Frame
import proofs.«140199_j83305185673529_2_alg».proof.Proof.Gen.KernelIdeal
import proofs.«140199_j83305185673529_2_alg».proof.Proof.Gen.KernelIdeal.Skeleton
import proofs.«140199_j83305185673529_2_alg».proof.Proof.Gen.KernelIdeal.Launch
import proofs.«140199_j83305185673529_2_alg».proof.Proof.Gen.KernelIdeal.Points
import proofs.«140199_j83305185673529_2_alg».proof.Proof.Gen.KernelIdeal.Frame
import proofs.«140199_j83305185673529_2_alg».proof.Proof.Gen.ReferenceIdeal
import proofs.«140199_j83305185673529_2_alg».proof.Proof.Gen.ReferenceIdeal.Run
import proofs.«140199_j83305185673529_2_alg».proof.Proof.Gen.ReferenceIdeal.Read
import proofs.«140199_j83305185673529_2_alg».proof.Proof.Gen.Pre_finite_inputs
import proofs.«140199_j83305185673529_2_alg».proof.Proof.KRun
import proofs.«140199_j83305185673529_2_alg».proof.Proof.KWalk
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Run from memories that agree on the arguments, the kernel program ends with its result buffer at the fold of
    its segments, which is the reference's result term of the kernel program's arguments; the reference ends at
    that term of its own arguments, which are the same arrays. -/
theorem algebraic : Cert.algebraic_KernelIdeal_ReferenceIdeal := by
  intro m ρ m' ρ' _ hagree
  refine ⟨fun c => Cert.KernelIdeal.Gen.W8 m ρ c (Proc.devRef .tc Cert.KernelIdeal.main_v74),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v110_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2]
  exact (Cert.KernelIdeal.Walk.W8_v74 m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
